-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x1433 : Shape := ⟨2, ![12288, 1433]⟩
abbrev S1433x32 : Shape := ⟨2, ![1433, 32]⟩
abbrev S32x32 : Shape := ⟨2, ![32, 32]⟩
abbrev S32x16 : Shape := ⟨2, ![32, 16]⟩
abbrev S393216 : Shape := ⟨1, ![393216]⟩
abbrev S_ : Shape := ⟨0, ![]⟩

class Facts : Prop where
  bcast_S_S12288x1433 : S_.BroadcastsInDim S12288x1433 (![] : Fin 0 → Fin S12288x1433.rank)
  reducesTo_S12288x1433_S_d0_1 : S12288x1433.ReducesTo [0, 1] S_
  h_S_ : 0 < S_.numel
  bcast_S_S1433x32 : S_.BroadcastsInDim S1433x32 (![] : Fin 0 → Fin S1433x32.rank)
  reducesTo_S1433x32_S_d0_1 : S1433x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S393216 : S_.BroadcastsInDim S393216 (![] : Fin 0 → Fin S393216.rank)
  reducesTo_S393216_S_d0 : S393216.ReducesTo [0] S_

variable [Facts]

def fn_part1 {F : FTy → Type} [FloatOps F] (main_arg4 : FVec F S393216 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S393216 .f32 := Host.absf main_arg4
  let main_cst_6 : FVec F S_ .f32 := constant S_ .f32 0x7F800000#32
  let main_v20 : FVec F S393216 .f32 := broadcastInDim S393216 ![] bcast_S_S393216 main_cst_6
  let main_v21 : IVec S393216 1 := cmpf .olt main_v19 main_v20
  let main_c_7 : IVec S_ 1 := constantI S_ 1 1#1
  let main_v22 : IVec S_ 1 := (fun x v => Host.reduce IntOp.andi x v reducesTo_S393216_S_d0 h_S_) main_v21 main_c_7
  let main_v23 : IVec S_ 1 := andi main_v18 main_v22
  main_v23

def fn {F : FTy → Type} [FloatOps F] (main_arg0 : FVec F S12288x1433 .f32) (main_arg1 : FVec F S1433x32 .f32) (main_arg2 : FVec F S32x32 .f32) (main_arg3 : FVec F S32x16 .f32) (main_arg4 : FVec F S393216 .f32) (main_arg5 : IVec S393216 32) (main_arg6 : IVec S393216 32) : IVec S_ 1 :=
  let main_v0 : FVec F S12288x1433 .f32 := Host.absf main_arg0
  let main_cst : FVec F S_ .f32 := constant S_ .f32 0x7F800000#32
  let main_v1 : FVec F S12288x1433 .f32 := broadcastInDim S12288x1433 ![] bcast_S_S12288x1433 main_cst
  let main_v2 : IVec S12288x1433 1 := cmpf .olt main_v0 main_v1
  let main_c : IVec S_ 1 := constantI S_ 1 1#1
  let main_v3 : IVec S_ 1 := (fun x v => Host.reduce IntOp.andi x v reducesTo_S12288x1433_S_d0_1 h_S_) main_v2 main_c
  let main_v4 : FVec F S1433x32 .f32 := Host.absf main_arg1
  let main_cst_0 : FVec F S_ .f32 := constant S_ .f32 0x7F800000#32
  let main_v5 : FVec F S1433x32 .f32 := broadcastInDim S1433x32 ![] bcast_S_S1433x32 main_cst_0
  let main_v6 : IVec S1433x32 1 := cmpf .olt main_v4 main_v5
  let main_c_1 : IVec S_ 1 := constantI S_ 1 1#1
  let main_v7 : IVec S_ 1 := (fun x v => Host.reduce IntOp.andi x v reducesTo_S1433x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S12288x1433 : Shape := ⟨2, ![12288, 1433]⟩
abbrev S1433x32 : Shape := ⟨2, ![1433, 32]⟩
abbrev S32x32 : Shape := ⟨2, ![32, 32]⟩
abbrev S32x16 : Shape := ⟨2, ![32, 16]⟩
abbrev S393216 : Shape := ⟨1, ![393216]⟩
abbrev S12288x32 : Shape := ⟨2, ![12288, 32]⟩
abbrev S1024x1433 : Shape := ⟨2, ![1024, 1433]⟩
abbrev S1024x32 : Shape := ⟨2, ![1024, 32]⟩
abbrev S393216x1 : Shape := ⟨2, ![393216, 1]⟩
abbrev S_ : Shape := ⟨0, ![]⟩
abbrev S393216x32 : Shape := ⟨2, ![393216, 32]⟩
abbrev S12288x16 : Shape := ⟨2, ![12288, 16]⟩
abbrev S1024x16 : Shape := ⟨2, ![1024, 16]⟩
abbrev S393216x16 : Shape := ⟨2, ![393216, 16]⟩
abbrev S12288x12288 : Shape := ⟨2, ![12288, 12288]⟩
abbrev S2048x16 : Shape := ⟨2, ![2048, 16]⟩
abbrev S2048x2048 : Shape := ⟨2, ![2048, 2048]⟩

abbrev nBuf : Space → Nat
  | .hbm => 72
  | .vmem => 21
  | .smem => 0
  | _ => 0

abbrev bufTy : (tb : Table) → Fin (tcTables nBuf tb) → BufTy
  | .hbm, ⟨0, _⟩ => ⟨S12288x1433, .f32⟩
  | .hbm, ⟨1, _⟩ => ⟨S1433x32, .f32⟩
  | .hbm, ⟨2, _⟩ => ⟨S32x32, .f32⟩
  | .hbm, ⟨3, _⟩ => ⟨S32x16, .f32⟩
  | .hbm, ⟨4, _⟩ => ⟨S393216, .f32⟩
  | .hbm, ⟨5, _⟩ => ⟨S393216, .i32⟩
  | .hbm, ⟨6, _⟩ => ⟨S393216, .i32⟩
  | .hbm, ⟨7, _⟩ => ⟨S12288x1433, .bf16⟩
  | .hbm, ⟨8, _⟩ => ⟨S1433x32, .bf16⟩
  | .hbm, ⟨9, _⟩ => ⟨S12288x32, .f32⟩
  | .hbm, ⟨10, _⟩ => ⟨S393216x1, .f32⟩
  | .hbm, ⟨11, _⟩ => ⟨S_, .i32⟩
  | .hbm, ⟨12, _⟩ => ⟨S393216, .i32⟩
  | .hbm, ⟨13, _⟩ => ⟨S393216, .i1⟩
  | .hbm, ⟨14, _⟩ => ⟨S_, .i32⟩
  | .hbm, ⟨15, _⟩ => ⟨S393216, .i32⟩
  | .hbm, ⟨16, _⟩ => ⟨S393216, .i32⟩
  | .hbm, ⟨17, _⟩ => ⟨S393216, .i32⟩
  | .hbm, ⟨18, _⟩ => ⟨S393216x1, .i32⟩
  | .hbm, ⟨19, _⟩ => ⟨S393216x32, .f32⟩
  | .hbm, ⟨20, _⟩ => ⟨S393216x32, .f32⟩
  | .hbm, ⟨21, _⟩ => ⟨S393216x32, .f32⟩
  | .hbm, ⟨22, _⟩ => ⟨S_, .f32⟩
  | .hbm, ⟨23, _⟩ => ⟨S12288x32, .f32⟩
  | .hbm, ⟨24, _⟩ => ⟨S393216x1, .i32⟩
  | .hbm, ⟨25, _⟩ => ⟨S12288x32, .f32⟩
  | .hbm, ⟨26, _⟩ => ⟨S_, .f32⟩
  | .hbm, ⟨27, _⟩ => ⟨S12288x32, .f32⟩
  | .hbm, ⟨28, _⟩ => ⟨S12288x32, .f32⟩
  | .hbm, ⟨29, _⟩ => ⟨S12288x32, .bf16⟩
  | .hbm, ⟨30, _⟩ => ⟨S32x32, .bf16⟩
  | .hbm, ⟨31, _⟩ => ⟨S12288x32, .f32⟩
  | .hbm, ⟨32, _⟩ => ⟨S393216x1, .f32⟩
  | .hbm, ⟨33, _⟩ => ⟨S_, .i32⟩
  | .hbm, ⟨34, _⟩ => ⟨S393216, .i32⟩
  | .hbm, ⟨35, _⟩ => ⟨S393216, .i1⟩
  | .hbm, ⟨36, _⟩ => ⟨S_, .i32⟩
  | .hbm, ⟨37, _⟩ => ⟨S393216, .i32⟩
  | .hbm, ⟨38, _⟩ => ⟨S393216, .i32⟩
  | .hbm, ⟨39, _⟩ => ⟨S393216, .i32⟩
  | .hbm, ⟨40, _⟩ => ⟨S393216x1, .i32⟩
  | .hbm, ⟨41, _⟩ => ⟨S393216x32, .f32⟩
  | .hbm, ⟨42, _⟩ => ⟨S393216x32, .f32⟩
  | .hbm, ⟨43, _⟩ => ⟨S393216x32, .f32⟩
  | .hbm, ⟨44, _⟩ => ⟨S_, .f32⟩
  | .hbm, ⟨45, _⟩ => ⟨S12288x32, .f32⟩
  | .hbm, ⟨46, _⟩ => ⟨S393216x1, .i32⟩
  | .hbm, ⟨47, _⟩ => ⟨S12288x32, .f32⟩
  | .hbm, ⟨48, _⟩ => ⟨S_, .f32⟩
  | .hbm, ⟨49, _⟩ => ⟨S12288x32, .f32⟩
  | .hbm, ⟨50, _⟩ => ⟨S12288x32, .f32⟩
  | .hbm, ⟨51, _⟩ => ⟨S12288x32, .bf16⟩
  | .hbm, ⟨52, _⟩ => ⟨S32x16, .bf16⟩
  | .hbm, ⟨53, _⟩ => ⟨S12288x16, .f32⟩
  | .hbm, ⟨54, _⟩ => ⟨S393216x1, .f32⟩
  | .hbm, ⟨55, _⟩ => ⟨S_, .i32⟩
  | .hbm, ⟨56, _⟩ => ⟨S393216, .i32⟩
  | .hbm, ⟨57, _⟩ => ⟨S393216, .i1⟩
  | .hbm, ⟨58, _⟩ => ⟨S_, .i32⟩
  | .hbm, ⟨59, _⟩ => ⟨S393216, .i32⟩
  | .hbm, ⟨60, _⟩ => ⟨S393216, .i32⟩
  | .hbm, ⟨61, _⟩ => ⟨S393216, .i32⟩
  | .hbm, ⟨62, _⟩ => ⟨S393216x1, .i32⟩
  | .hbm, ⟨63, _⟩ => ⟨S393216x16, .f32⟩
  | .hbm, ⟨64, _⟩ => ⟨S393216x16, .f32⟩
  | .hbm, ⟨65, _⟩ => ⟨S393216x16, .f32⟩
  | .hbm, ⟨66, _⟩ => ⟨S_, .f32⟩
  | .hbm, ⟨67, _⟩ => ⟨S12288x16, .f32⟩
  | .hbm, ⟨68, _⟩ => ⟨S393216x1, .i32⟩
  | .hbm, ⟨69, _⟩ => ⟨S12288x16, .f32⟩
  | .hbm, ⟨70, _⟩ => ⟨S12288x16, .bf16⟩
  | .hbm, ⟨71, _⟩ => ⟨S12288x12288, .f32⟩
  | .local _ .vmem, ⟨0, _⟩ => ⟨S1024x1433, .bf16⟩
  | .local _ .vmem, ⟨1, _⟩ => ⟨S1024x1433, .bf16⟩
  | .local _ .vmem, ⟨2, _⟩ => ⟨S1433x32, .bf16⟩
  | .local _ .vmem, ⟨3, _⟩ => ⟨S1024x32, .f32⟩
  | .local _ .vmem, ⟨4, _⟩ => ⟨S1024x32, .f32⟩
  | .local _ .vmem, ⟨5, _⟩ => ⟨S1024x32, .bf16⟩
  | .local _ .vmem, ⟨6, _⟩ => ⟨S1024x32, .bf16⟩
  | .local _ .vmem, ⟨7, _⟩ => ⟨S32x32, .bf16⟩
  | .local _ .vmem, ⟨8, _⟩ => ⟨S1024x32, .f32⟩
  | .local _ .vmem, ⟨9, _⟩ => ⟨S1024x32, .f32⟩
  | .local _ .vmem, ⟨10, _⟩ => ⟨S1024x32, .bf16⟩
  | .local _ .vmem, ⟨11, _⟩ => ⟨S1024x32, .bf16⟩
  | .local _ .vmem, ⟨12, _⟩ => ⟨S32x16, .bf16⟩
  | .local _ .vmem, ⟨13, _⟩ => ⟨S1024x16, .f32⟩
  | .local _ .vmem, ⟨14, _⟩ => ⟨S1024x16, .f32⟩
  | .local _ .vmem, ⟨15, _⟩ => ⟨S2048x16, .bf16⟩
  | .local _ .vmem, ⟨16, _⟩ => ⟨S2048x16, .bf16⟩
  | .local _ .vmem, ⟨17, _⟩ => ⟨S2048x16, .bf16⟩
  | .local _ .vmem, ⟨18, _⟩ => ⟨S2048x16, .bf16⟩
  | .local _ .vmem, ⟨19, _⟩ => ⟨S2048x2048, .f32⟩
  | .local _ .vmem, ⟨20, _⟩ => ⟨S2048x2048, .f32⟩
  | _, _ => ⟨S12288x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1433 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![12], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x32 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![6, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x16 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x16 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bitsLt_bf16_f32 : FTy.bits .bf16 < FTy.bits .f32
  inb_S1024x1433_S1024x1433_0_0 : ∀ a, (![0, 0] : Fin 2 → Nat) a + S1024x1433.size a ≤ S1024x1433.size a
  h_S1024x1433 : 0 < S1024x1433.numel
  shapeCasts_S1024x1433_S1024x1433 : S1024x1433.ShapeCasts S1024x1433
  inb_S1433x32_S1433x32_0_0 : ∀ a, (![0, 0] : Fin 2 → Nat) a + S1433x32.size a ≤ S1433x32.size a
  h_S1433x32 : 0 < S1433x32.numel
  shapeCasts_S1433x32_S1433x32 : S1433x32.ShapeCasts S1433x32
  inb_S1024x32_S1024x32_0_0 : ∀ a, (![0, 0] : Fin 2 → Nat) a + S1024x32.size a ≤ S1024x32.size a
  h_S1024x32 : 0 < S1024x32.numel
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x32_0_1 : S393216x1.BroadcastsInDim S393216x32 (![0, 1] : Fin 2 → Fin S393216x32.rank)
  bcast_S_S12288x32 : S_.BroadcastsInDim S12288x32 (![] : Fin 0 → Fin S12288x32.rank)
  shapeCasts_S1024x32_S1024x32 : S1024x32.ShapeCasts S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1024x16_S1024x16_0_0 : ∀ a, (![0, 0] : Fin 2 → Nat) a + S1024x16.size a ≤ S1024x16.size a
  h_S1024x16 : 0 < S1024x16.numel
  bcast_S393216x1_S393216x16_0_1 : S393216x1.BroadcastsInDim S393216x16 (![0, 1] : Fin 2 → Fin S393216x16.rank)
  bcast_S_S12288x16 : S_.BroadcastsInDim S12288x16 (![] : Fin 0 → Fin S12288x16.rank)
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x2048_S2048x2048_0_0 : ∀ a, (![0, 0] : Fin 2 → Nat) a + S2048x2048.size a ≤ S2048x2048.size a
  h_S2048x2048 : 0 < S2048x2048.numel
  dot_S1024x1433_S1433x32_S1024x32_1_0_0_1_n_n_wf : DotDims.WF S1024x1433 S1433x32 S1024x32 [1] [0] [0] [1] [] []
  gather_S12288x32_S393216x1_S393216x32_1_0_n_n_0_1_132_wf : GatherDims.WF S12288x32 S393216x1 S393216x32 [1] [0] [] [0] [] 1 ![1, 32]
  scatter_S12288x32_S393216x1_S393216x32_1_0_0_1_wf : ScatterDims.WF S12288x32 S393216x1 S393216x32 [1] [0] [0] 1
  dot_S1024x32_S32x32_S1024x32_1_0_0_1_n_n_wf : DotDims.WF S1024x32 S32x32 S1024x32 [1] [0] [0] [1] [] []
  dot_S1024x32_S32x16_S1024x16_1_0_0_1_n_n_wf : DotDims.WF S1024x32 S32x16 S1024x16 [1] [0] [0] [1] [] []
  gather_S12288x16_S393216x1_S393216x16_1_0_n_n_0_1_116_wf : GatherDims.WF S12288x16 S393216x1 S393216x16 [1] [0] [] [0] [] 1 ![1, 16]
  scatter_S12288x16_S393216x1_S393216x16_1_0_0_1_wf : ScatterDims.WF S12288x16 S393216x1 S393216x16 [1] [0] [0] 1
  dot_S2048x16_S2048x16_S2048x2048_1_1_0_0_n_n_wf : DotDims.WF S2048x16 S2048x16 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1433.size a ≤ S12288x1433.size a
  hwx0_0 : ∀ i : grid0.Coords, EltTy.bits .bf16 = 32 ∨ (Rect.block (s := S12288x1433) S1024x1433.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x32.size a ≤ S1433x32.size a
  hwx0_1 : ∀ i : grid0.Coords, EltTy.bits .bf16 = 32 ∨ (Rect.block (s := S1433x32) S1433x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S12288x32.size a
  hwx0_2 : ∀ i : grid0.Coords, EltTy.bits .f32 = 32 ∨ (Rect.block (s := S12288x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S12288x32.size a
  hwx1_0 : ∀ i : grid1.Coords, EltTy.bits .bf16 = 32 ∨ (Rect.block (s := S12288x32) S1024x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .bf16 = 32 ∨ (Rect.block (s := S32x32) S32x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S12288x32.size a
  hwx1_2 : ∀ i : grid1.Coords, EltTy.bits .f32 = 32 ∨ (Rect.block (s := S12288x32) S1024x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S12288x32.size a
  hwx2_0 : ∀ i : grid2.Coords, EltTy.bits .bf16 = 32 ∨ (Rect.block (s := S12288x32) S1024x32.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .bf16 = 32 ∨ (Rect.block (s := S32x16) S32x16.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x16.size a ≤ S12288x16.size a
  hwx2_2 : ∀ i : grid2.Coords, EltTy.bits .f32 = 32 ∨ (Rect.block (s := S12288x16) S1024x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x16.size a ≤ S12288x16.size a
  hwx3_0 : ∀ i : grid3.Coords, EltTy.bits .bf16 = 32 ∨ (Rect.block (s := S12288x16) S2048x16.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x16.size a ≤ S12288x16.size a
  hwx3_1 : ∀ i : grid3.Coords, EltTy.bits .bf16 = 32 ∨ (Rect.block (s := S12288x16) S2048x16.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S12288x12288.size a
  hwx3_2 : ∀ i : grid3.Coords, EltTy.bits .f32 = 32 ∨ (Rect.block (s := S12288x12288) S2048x2048.size (cc3_transform_2 i) (hinb3_2 i)).WholeWords (EltTy.packing .f32)

variable [Facts₀]

def dot_S1024x1433_S1433x32_S1024x32_1_0_0_1_n_n : DotDims S1024x1433 S1433x32 S1024x32 where
  lhsContracting := [1]
  rhsContracting := [0]
  lhsNonContracting := [0]
  rhsNonContracting := [1]
  lhsBatch := []
  rhsBatch := []
  wf := dot_S1024x1433_S1433x32_S1024x32_1_0_0_1_n_n_wf
def gather_S12288x32_S393216x1_S393216x32_1_0_n_n_0_1_132 : GatherDims S12288x32 S393216x1 S393216x32 where
  offsetDims := [1]
  collapsedSliceDims := [0]
  operandBatchingDims := []
  startIndicesBatchingDims := []
  startIndexMap := [0]
  indexVectorDim := 1
  sliceSizes := ![1, 32]
  wf := gather_S12288x32_S393216x1_S393216x32_1_0_n_n_0_1_132_wf
def scatter_S12288x32_S393216x1_S393216x32_1_0_0_1 : ScatterDims S12288x32 S393216x1 S393216x32 where
  updateWindowDims := [1]
  insertedWindowDims := [0]
  scatterDimsToOperandDims := [0]
  indexVectorDim := 1
  wf := scatter_S12288x32_S393216x1_S393216x32_1_0_0_1_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def gather_S12288x16_S393216x1_S393216x16_1_0_n_n_0_1_116 : GatherDims S12288x16 S393216x1 S393216x16 where
  offsetDims := [1]
  collapsedSliceDims := [0]
  operandBatchingDims := []
  startIndicesBatchingDims := []
  startIndexMap := [0]
  indexVectorDim := 1
  sliceSizes := ![1, 16]
  wf := gather_S12288x16_S393216x1_S393216x16_1_0_n_n_0_1_116_wf
def scatter_S12288x16_S393216x1_S393216x16_1_0_0_1 : ScatterDims S12288x16 S393216x1 S393216x16 where
  updateWindowDims := [1]
  insertedWindowDims := [0]
  scatterDimsToOperandDims := [0]
  indexVectorDim := 1
  wf := scatter_S12288x16_S393216x1_S393216x16_1_0_0_1_wf
def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf

abbrev win0_0 : Pipeline.Window sig grid0 :=
  Pipeline.Window.ofSpec (Memref.whole main_v0) S1024x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1433x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1024x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S2048x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S2048x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2048x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x1433 : Shape := ⟨2, ![12288, 1433]⟩
abbrev S1433x32 : Shape := ⟨2, ![1433, 32]⟩
abbrev S32x32 : Shape := ⟨2, ![32, 32]⟩
abbrev S32x16 : Shape := ⟨2, ![32, 16]⟩
abbrev S393216 : Shape := ⟨1, ![393216]⟩
abbrev S12288x32 : Shape := ⟨2, ![12288, 32]⟩
abbrev S393216x1 : Shape := ⟨2, ![393216, 1]⟩
abbrev S_ : Shape := ⟨0, ![]⟩
abbrev S393216x32 : Shape := ⟨2, ![393216, 32]⟩
abbrev S12288x16 : Shape := ⟨2, ![12288, 16]⟩
abbrev S393216x16 : Shape := ⟨2, ![393216, 16]⟩
abbrev S16x12288 : Shape := ⟨2, ![16, 12288]⟩
abbrev S12288x12288 : Shape := ⟨2, ![12288, 12288]⟩

abbrev nBuf : Space → Nat
  | .hbm => 74
  | .vmem => 0
  | .smem => 0
  | _ => 0

abbrev bufTy : (tb : Table) → Fin (tcTables nBuf tb) → BufTy
  | .hbm, ⟨0, _⟩ => ⟨S12288x1433, .f32⟩
  | .hbm, ⟨1, _⟩ => ⟨S1433x32, .f32⟩
  | .hbm, ⟨2, _⟩ => ⟨S32x32, .f32⟩
  | .hbm, ⟨3, _⟩ => ⟨S32x16, .f32⟩
  | .hbm, ⟨4, _⟩ => ⟨S393216, .f32⟩
  | .hbm, ⟨5, _⟩ => ⟨S393216, .i32⟩
  | .hbm, ⟨6, _⟩ => ⟨S393216, .i32⟩
  | .hbm, ⟨7, _⟩ => ⟨S12288x32, .f32⟩
  | .hbm, ⟨8, _⟩ => ⟨S393216x1, .f32⟩
  | .hbm, ⟨9, _⟩ => ⟨S_, .i32⟩
  | .hbm, ⟨10, _⟩ => ⟨S393216, .i32⟩
  | .hbm, ⟨11, _⟩ => ⟨S393216, .i1⟩
  | .hbm, ⟨12, _⟩ => ⟨S_, .i32⟩
  | .hbm, ⟨13, _⟩ => ⟨S393216, .i32⟩
  | .hbm, ⟨14, _⟩ => ⟨S393216, .i32⟩
  | .hbm, ⟨15, _⟩ => ⟨S393216, .i32⟩
  | .hbm, ⟨16, _⟩ => ⟨S393216x1, .i32⟩
  | .hbm, ⟨17, _⟩ => ⟨S393216x32, .f32⟩
  | .hbm, ⟨18, _⟩ => ⟨S393216x32, .f32⟩
  | .hbm, ⟨19, _⟩ => ⟨S393216x32, .f32⟩
  | .hbm, ⟨20, _⟩ => ⟨S_, .f32⟩
  | .hbm, ⟨21, _⟩ => ⟨S12288x32, .f32⟩
  | .hbm, ⟨22, _⟩ => ⟨S393216x1, .i32⟩
  | .hbm, ⟨23, _⟩ => ⟨S12288x32, .f32⟩
  | .hbm, ⟨24, _⟩ => ⟨S_, .f32⟩
  | .hbm, ⟨25, _⟩ => ⟨S12288x32, .f32⟩
  | .hbm, ⟨26, _⟩ => ⟨S12288x32, .f32⟩
  | .hbm, ⟨27, _⟩ => ⟨S12288x32, .f32⟩
  | .hbm, ⟨28, _⟩ => ⟨S393216x1, .f32⟩
  | .hbm, ⟨29, _⟩ => ⟨S_, .i32⟩
  | .hbm, ⟨30, _⟩ => ⟨S393216, .i32⟩
  | .hbm, ⟨31, _⟩ => ⟨S393216, .i1⟩
  | .hbm, ⟨32, _⟩ => ⟨S_, .i32⟩
  | .hbm, ⟨33, _⟩ => ⟨S393216, .i32⟩
  | .hbm, ⟨34, _⟩ => ⟨S393216, .i32⟩
  | .hbm, ⟨35, _⟩ => ⟨S393216, .i32⟩
  | .hbm, ⟨36, _⟩ => ⟨S393216x1, .i32⟩
  | .hbm, ⟨37, _⟩ => ⟨S393216x32, .f32⟩
  | .hbm, ⟨38, _⟩ => ⟨S393216x32, .f32⟩
  | .hbm, ⟨39, _⟩ => ⟨S393216x32, .f32⟩
  | .hbm, ⟨40, _⟩ => ⟨S_, .f32⟩
  | .hbm, ⟨41, _⟩ => ⟨S12288x32, .f32⟩
  | .hbm, ⟨42, _⟩ => ⟨S393216x1, .i32⟩
  | .hbm, ⟨43, _⟩ => ⟨S12288x32, .f32⟩
  | .hbm, ⟨44, _⟩ => ⟨S_, .f32⟩
  | .hbm, ⟨45, _⟩ => ⟨S12288x32, .f32⟩
  | .hbm, ⟨46, _⟩ => ⟨S12288x32, .f32⟩
  | .hbm, ⟨47, _⟩ => ⟨S12288x16, .f32⟩
  | .hbm, ⟨48, _⟩ => ⟨S393216x1, .f32⟩
  | .hbm, ⟨49, _⟩ => ⟨S_, .i32⟩
  | .hbm, ⟨50, _⟩ => ⟨S393216, .i32⟩
  | .hbm, ⟨51, _⟩ => ⟨S393216, .i1⟩
  | .hbm, ⟨52, _⟩ => ⟨S_, .i32⟩
  | .hbm, ⟨53, _⟩ => ⟨S393216, .i32⟩
  | .hbm, ⟨54, _⟩ => ⟨S393216, .i32⟩
  | .hbm, ⟨55, _⟩ => ⟨S393216, .i32⟩
  | .hbm, ⟨56, _⟩ => ⟨S393216x1, .i32⟩
  | .hbm, ⟨57, _⟩ => ⟨S393216x16, .f32⟩
  | .hbm, ⟨58, _⟩ => ⟨S393216x16, .f32⟩
  | .hbm, ⟨59, _⟩ => ⟨S393216x16, .f32⟩
  | .hbm, ⟨60, _⟩ => ⟨S_, .f32⟩
  | .hbm, ⟨61, _⟩ => ⟨S12288x16, .f32⟩
  | .hbm, ⟨62, _⟩ => ⟨S393216x1, .i32⟩
  | .hbm, ⟨63, _⟩ => ⟨S12288x16, .f32⟩
  | .hbm, ⟨64, _⟩ => ⟨S16x12288, .f32⟩
  | .hbm, ⟨65, _⟩ => ⟨S12288x12288, .f32⟩
  | .hbm, ⟨66, _⟩ => ⟨S12288x12288, .f32⟩
  | .hbm, ⟨67, _⟩ => ⟨S12288x12288, .f32⟩
  | .hbm, ⟨68, _⟩ => ⟨S_, .f32⟩
  | .hbm, ⟨69, _⟩ => ⟨S12288x12288, .f32⟩
  | .hbm, ⟨70, _⟩ => ⟨S12288x12288, .f32⟩
  | .hbm, ⟨71, _⟩ => ⟨S_, .f32⟩
  | .hbm, ⟨72, _⟩ => ⟨S12288x12288, .f32⟩
  | .hbm, ⟨73, _⟩ => ⟨S12288x12288, .f32⟩
  | _, _ => ⟨S12288x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S393216_S393216x1_0 : S393216.BroadcastsInDim S393216x1 (![0] : Fin 1 → Fin S393216x1.rank)
  bcast_S_S393216 : S_.BroadcastsInDim S393216 (![] : Fin 0 → Fin S393216.rank)
  bcast_S393216x1_S393216x32_0_1 : S393216x1.BroadcastsInDim S393216x32 (![0, 1] : Fin 2 → Fin S393216x32.rank)
  bcast_S_S12288x32 : S_.BroadcastsInDim S12288x32 (![] : Fin 0 → Fin S12288x32.rank)
  bcast_S393216x1_S393216x16_0_1 : S393216x1.BroadcastsInDim S393216x16 (![0, 1] : Fin 2 → Fin S393216x16.rank)
  bcast_S_S12288x16 : S_.BroadcastsInDim S12288x16 (![] : Fin 0 → Fin S12288x16.rank)
  transposes_S12288x16_S16x12288_1_0 : S12288x16.Transposes [1, 0] S16x12288
  bcast_S_S12288x12288 : S_.BroadcastsInDim S12288x12288 (![] : Fin 0 → Fin S12288x12288.rank)
  dot_S12288x1433_S1433x32_S12288x32_1_0_0_1_n_n_wf : DotDims.WF S12288x1433 S1433x32 S12288x32 [1] [0] [0] [1] [] []
  gather_S12288x32_S393216x1_S393216x32_1_0_n_n_0_1_132_wf : GatherDims.WF S12288x32 S393216x1 S393216x32 [1] [0] [] [0] [] 1 ![1, 32]
  scatter_S12288x32_S393216x1_S393216x32_1_0_0_1_wf : ScatterDims.WF S12288x32 S393216x1 S393216x32 [1] [0] [0] 1
  dot_S12288x32_S32x32_S12288x32_1_0_0_1_n_n_wf : DotDims.WF S12288x32 S32x32 S12288x32 [1] [0] [0] [1] [] []
  dot_S12288x32_S32x16_S12288x16_1_0_0_1_n_n_wf : DotDims.WF S12288x32 S32x16 S12288x16 [1] [0] [0] [1] [] []
  gather_S12288x16_S393216x1_S393216x16_1_0_n_n_0_1_116_wf : GatherDims.WF S12288x16 S393216x1 S393216x16 [1] [0] [] [0] [] 1 ![1, 16]
  scatter_S12288x16_S393216x1_S393216x16_1_0_0_1_wf : ScatterDims.WF S12288x16 S393216x1 S393216x16 [1] [0] [0] 1
  dot_S12288x16_S16x12288_S12288x12288_1_0_0_1_n_n_wf : DotDims.WF S12288x16 S16x12288 S12288x12288 [1] [0] [0] [1] [] []

variable [Facts₀]

def dot_S12288x1433_S1433x32_S12288x32_1_0_0_1_n_n : DotDims S12288x1433 S1433x32 S12288x32 where
  lhsContracting := [1]
  rhsContracting := [0]
  lhsNonContracting := [0]
  rhsNonContracting := [1]
  lhsBatch := []
  rhsBatch := []
  wf := dot_S12288x1433_S1433x32_S12288x32_1_0_0_1_n_n_wf
def gather_S12288x32_S393216x1_S393216x32_1_0_n_n_0_1_132 : GatherDims S12288x32 S393216x1 S393216x32 where
  offsetDims := [1]
  collapsedSliceDims := [0]
  operandBatchingDims := []
  startIndicesBatchingDims := []
  startIndexMap := [0]
  indexVectorDim := 1
  sliceSizes := ![1, 32]
  wf := gather_S12288x32_S393216x1_S393216x32_1_0_n_n_0_1_132_wf
def scatter_S12288x32_S393216x1_S393216x32_1_0_0_1 : ScatterDims S12288x32 S393216x1 S393216x32 where
  updateWindowDims := [1]
  insertedWindowDims := [0]
  scatterDimsToOperandDims := [0]
  indexVectorDim := 1
  wf := scatter_S12288x32_S393216x1_S393216x32_1_0_0_1_wf
def dot_S12288x32_S32x32_S12288x32_1_0_0_1_n_n : DotDims S12288x32 S32x32 S12288x32 where
  lhsContracting := [1]
  rhsContracting := [0]
  lhsNonContracting := [0]
  rhsNonContracting := [1]
  lhsBatch := []
  rhsBatch := []
  wf := dot_S12288x32_S32x32_S12288x32_1_0_0_1_n_n_wf
def dot_S12288x32_S32x16_S12288x16_1_0_0_1_n_n : DotDims S12288x32 S32x16 S12288x16 where
  lhsContracting := [1]
  rhsContracting := [0]
  lhsNonContracting := [0]
  rhsNonContracting := [1]
  lhsBatch := []
  rhsBatch := []
  wf := dot_S12288x32_S32x16_S12288x16_1_0_0_1_n_n_wf
def gather_S12288x16_S393216x1_S393216x16_1_0_n_n_0_1_116 : GatherDims S12288x16 S393216x1 S393216x16 where
  offsetDims := [1]
  collapsedSliceDims := [0]
  operandBatchingDims := []
  startIndicesBatchingDims := []
  startIndexMap := [0]
  indexVectorDim := 1
  sliceSizes := ![1, 16]
  wf := gather_S12288x16_S393216x1_S393216x16_1_0_n_n_0_1_116_wf
def scatter_S12288x16_S393216x1_S393216x16_1_0_0_1 : ScatterDims S12288x16 S393216x1 S393216x16 where
  updateWindowDims := [1]
  insertedWindowDims := [0]
  scatterDimsToOperandDims := [0]
  indexVectorDim := 1
  wf := scatter_S12288x16_S393216x1_S393216x16_1_0_0_1_wf
def dot_S12288x16_S16x12288_S12288x12288_1_0_0_1_n_n : DotDims S12288x16 S16x12288 S12288x12288 where
  lhsContracting := [1]
  rhsContracting := [0]
  lhsNonContracting := [0]
  rhsNonContracting := [1]
  lhsBatch := []
  rhsBatch := []
  wf := dot_S12288x16_S16x12288_S12288x12288_1_0_0_1_n_n_wf

class Facts : Prop extends Facts₀ where

variable [Facts]
-- ==== Proof.K.Body0.lean ====
/-
  Region 0 of the entry function, the body's half: a 1024-row block of the first matrix product.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
-/
import proofs.«147018_j55216099558155_1_alg».proof.Proof.Gen.Kernel.Launch
import proofs.«147018_j55216099558155_1_alg».proof.Proof.Gen.Kernel.Skeleton
import proofs.«147018_j55216099558155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not (an unfetched point has the
    block index of the point before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole first input block, the whole second input block, the whole output block, as rectangles. -/
abbrev ra0 : Rect S1024x1433 := Rect.unit (s := S1024x1433) ![0, 0] S1024x1433.size inb_S1024x1433_S1024x1433_0_0
abbrev rb0 : Rect S1433x32 := Rect.unit (s := S1433x32) ![0, 0] S1433x32.size inb_S1433x32_S1433x32_0_0
abbrev ro0 : Rect S1024x32 := Rect.unit (s := S1024x32) ![0, 0] S1024x32.size inb_S1024x32_S1024x32_0_0

/-- What the body leaves in the output's staging buffer, from the two input blocks: its one store, of the body's value,
    over the whole block. -/
def out0_2 (x0 : Vec F S1024x1433 .bf16) (x1 : Vec F S1433x32 .bf16) : Vec F S1024x32 .f32 :=
  View.canon [⟨ro0, k0_pay1 (View.ld x0 ra0) (View.ld x1 rb0)⟩]

/-- The one store covers the block. -/
theorem cover0_2 (p0 : Vec F S1024x32 .f32) (y : S1024x32.Idx) :
    ∃ pc ∈ ([⟨ro0, p0⟩] : List (View.Piece (Elt F) S1024x32 .f32)), y ∈ pc.1.set :=
  View.cover_of_tiled [⟨ro0, p0⟩] S1024x32.size (by rfl) y

set_option maxHeartbeats 1000000 in
/-- The body on whole staging buffers, the inputs' at contents `x0`, `x1` and the output's at anything, runs to the end
    leaving the inputs as they were and the output at `out0_2 x0 x1`. -/
theorem sound_kernel0 (c : Dev nD) (E : Set ℕ) (i : grid0.Coords) (arg1 : Memref sig .tc .vmem S1024x1433 .bf16) (harg1 : arg1.IsWhole) (arg2 : Memref sig .tc .vmem S1433x32 .bf16) (harg2 : arg2.IsWhole) (arg3 : Memref sig .tc .vmem S1024x32 .f32) (harg3 : arg3.IsWhole)
    (x0 : Vec F S1024x1433 .bf16) (x1 : Vec F S1433x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input's
    buffer at its block and the output's at `out0_2` of the two input blocks; the invariant holds the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Body1.lean ====
/-
  Region 1 of the entry function, the body's half: a 1024-row block of the second matrix product.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
-/
import proofs.«147018_j55216099558155_1_alg».proof.Proof.Gen.Kernel.Launch
import proofs.«147018_j55216099558155_1_alg».proof.Proof.Gen.Kernel.Skeleton
import proofs.«147018_j55216099558155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not (an unfetched point has the
    block index of the point before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole first input block, the whole second input block, the whole output block, as rectangles. -/
abbrev ra1 : Rect S1024x32 := Rect.unit (s := S1024x32) ![0, 0] S1024x32.size inb_S1024x32_S1024x32_0_0
abbrev rb1 : Rect S32x32 := Rect.unit (s := S32x32) ![0, 0] S32x32.size inb_S32x32_S32x32_0_0
abbrev ro1 : Rect S1024x32 := Rect.unit (s := S1024x32) ![0, 0] S1024x32.size inb_S1024x32_S1024x32_0_0

/-- What the body leaves in the output's staging buffer, from the two input blocks: its one store, of the body's value,
    over the whole block. -/
def out1_2 (x0 : Vec F S1024x32 .bf16) (x1 : Vec F S32x32 .bf16) : Vec F S1024x32 .f32 :=
  View.canon [⟨ro1, k1_pay1 (View.ld x0 ra1) (View.ld x1 rb1)⟩]

/-- The one store covers the block. -/
theorem cover1_2 (p0 : Vec F S1024x32 .f32) (y : S1024x32.Idx) :
    ∃ pc ∈ ([⟨ro1, p0⟩] : List (View.Piece (Elt F) S1024x32 .f32)), y ∈ pc.1.set :=
  View.cover_of_tiled [⟨ro1, p0⟩] S1024x32.size (by rfl) y

set_option maxHeartbeats 1000000 in
/-- The body on whole staging buffers, the inputs' at contents `x0`, `x1` and the output's at anything, runs to the end
    leaving the inputs as they were and the output at `out1_2 x0 x1`. -/
theorem sound_kernel1 (c : Dev nD) (E : Set ℕ) (i : grid1.Coords) (arg1 : Memref sig .tc .vmem S1024x32 .bf16) (harg1 : arg1.IsWhole) (arg2 : Memref sig .tc .vmem S32x32 .bf16) (harg2 : arg2.IsWhole) (arg3 : Memref sig .tc .vmem S1024x32 .f32) (harg3 : arg3.IsWhole)
    (x0 : Vec F S1024x32 .bf16) (x1 : Vec F S32x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each input's
    buffer at its block and the output's at `out1_2` of the two input blocks; the invariant holds the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Body2.lean ====
/-
  Region 2 of the entry function, the body's half: a 1024-row block of the third matrix product.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
-/
import proofs.«147018_j55216099558155_1_alg».proof.Proof.Gen.Kernel.Launch
import proofs.«147018_j55216099558155_1_alg».proof.Proof.Gen.Kernel.Skeleton
import proofs.«147018_j55216099558155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not (an unfetched point has the
    block index of the point before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole first input block, the whole second input block, the whole output block, as rectangles. -/
abbrev ra2 : Rect S1024x32 := Rect.unit (s := S1024x32) ![0, 0] S1024x32.size inb_S1024x32_S1024x32_0_0
abbrev rb2 : Rect S32x16 := Rect.unit (s := S32x16) ![0, 0] S32x16.size inb_S32x16_S32x16_0_0
abbrev ro2 : Rect S1024x16 := Rect.unit (s := S1024x16) ![0, 0] S1024x16.size inb_S1024x16_S1024x16_0_0

/-- What the body leaves in the output's staging buffer, from the two input blocks: its one store, of the body's value,
    over the whole block. -/
def out2_2 (x0 : Vec F S1024x32 .bf16) (x1 : Vec F S32x16 .bf16) : Vec F S1024x16 .f32 :=
  View.canon [⟨ro2, k2_pay1 (View.ld x0 ra2) (View.ld x1 rb2)⟩]

/-- The one store covers the block. -/
theorem cover2_2 (p0 : Vec F S1024x16 .f32) (y : S1024x16.Idx) :
    ∃ pc ∈ ([⟨ro2, p0⟩] : List (View.Piece (Elt F) S1024x16 .f32)), y ∈ pc.1.set :=
  View.cover_of_tiled [⟨ro2, p0⟩] S1024x16.size (by rfl) y

set_option maxHeartbeats 1000000 in
/-- The body on whole staging buffers, the inputs' at contents `x0`, `x1` and the output's at anything, runs to the end
    leaving the inputs as they were and the output at `out2_2 x0 x1`. -/
theorem sound_kernel2 (c : Dev nD) (E : Set ℕ) (i : grid2.Coords) (arg1 : Memref sig .tc .vmem S1024x32 .bf16) (harg1 : arg1.IsWhole) (arg2 : Memref sig .tc .vmem S32x16 .bf16) (harg2 : arg2.IsWhole) (arg3 : Memref sig .tc .vmem S1024x16 .f32) (harg3 : arg3.IsWhole)
    (x0 : Vec F S1024x32 .bf16) (x1 : Vec F S32x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each input's
    buffer at its block and the output's at `out2_2` of the two input blocks; the invariant holds the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Body3.lean ====
/-
  Region 3 of the entry function, the body's half: a 2048 by 2048 block of the decoded matrix.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
  Both input windows read ONE array, so the core holds that array at two halves of the full share, one per window.
-/
import proofs.«147018_j55216099558155_1_alg».proof.Proof.Gen.Kernel.Launch
import proofs.«147018_j55216099558155_1_alg».proof.Proof.Gen.Kernel.Skeleton
import proofs.«147018_j55216099558155_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point, fetched there or not (an unfetched point has the
    block index of the point before it). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the second input. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole first input block, the whole second input block, the whole output block, as rectangles. -/
abbrev ra3 : Rect S2048x16 := Rect.unit (s := S2048x16) ![0, 0] S2048x16.size inb_S2048x16_S2048x16_0_0
abbrev rb3 : Rect S2048x16 := Rect.unit (s := S2048x16) ![0, 0] S2048x16.size inb_S2048x16_S2048x16_0_0
abbrev ro3 : Rect S2048x2048 := Rect.unit (s := S2048x2048) ![0, 0] S2048x2048.size inb_S2048x2048_S2048x2048_0_0

/-- What the body leaves in the output's staging buffer, from the two input blocks: its one store, of the body's value,
    over the whole block. -/
def out3_2 (x0 : Vec F S2048x16 .bf16) (x1 : Vec F S2048x16 .bf16) : Vec F S2048x2048 .f32 :=
  View.canon [⟨ro3, k3_pay1 (View.ld x0 ra3) (View.ld x1 rb3)⟩]

/-- The one store covers the block. -/
theorem cover3_2 (p0 : Vec F S2048x2048 .f32) (y : S2048x2048.Idx) :
    ∃ pc ∈ ([⟨ro3, p0⟩] : List (View.Piece (Elt F) S2048x2048 .f32)), y ∈ pc.1.set :=
  View.cover_of_tiled [⟨ro3, p0⟩] S2048x2048.size (by rfl) y

set_option maxHeartbeats 1000000 in
/-- The body on whole staging buffers, the inputs' at contents `x0`, `x1` and the output's at anything, runs to the end
    leaving the inputs as they were and the output at `out3_2 x0 x1`. -/
theorem sound_kernel3 (c : Dev nD) (E : Set ℕ) (i : grid3.Coords) (arg1 : Memref sig .tc .vmem S2048x16 .bf16) (harg1 : arg1.IsWhole) (arg2 : Memref sig .tc .vmem S2048x16 .bf16) (harg2 : arg2.IsWhole) (arg3 : Memref sig .tc .vmem S2048x2048 .f32) (harg3 : arg3.IsWhole)
    (x0 : Vec F S2048x16 .bf16) (x1 : Vec F S2048x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__decode_kernel i arg1 harg1 arg2 harg2 arg3 harg3) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input's
    buffer at its block and the output's at `out3_2` of the two input blocks; the invariant holds the scoped rest and
    the generator register, untouched; nothing owed; the shared input array at half the full share for each of its two windows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Outs.lean ====
/-
  The contents the four regions leave, and the pipelines' proof data over them.
  Between two items of the entry function the core holds every unscoped buffer whole at a valuation: the launch
  contents, then the host lines' composed result, then — after a region — the same with the region's output array
  replaced by what its grid's write-backs leave. What the regions leave are unknowns `outs`, tied to the pipelines'
  proof data by four equations (`OutsOk`): region k's output is the write-backs' fold of its proof data, taken at the
  contents the region is entered with, which depend on the earlier regions' outputs only. Such contents exist
  (`exists_outs`): they are defined one region after the other.
-/
import proofs.«147018_j55216099558155_1_alg».proof.Proof.K.Body0
import proofs.«147018_j55216099558155_1_alg».proof.Proof.K.Body1
import proofs.«147018_j55216099558155_1_alg».proof.Proof.K.Body2
import proofs.«147018_j55216099558155_1_alg».proof.Proof.K.Body3
import proofs.«147018_j55216099558155_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The valuations a region is entered with and left at, read at the TensorCore's references. -/
abbrev V1r (m : (ℓ : Loc nD τ sig) → Buf (Elt F) ℓ) (outs : Outs (F := F)) : (c : Dev nD) → (b : Ref sig .tc) → Buf (Elt F) ((c : Thread nD τ).loc b) := fun c b => V1 m c b
abbrev V2r (m : (ℓ : Loc nD τ sig) → Buf (Elt F) ℓ) (outs : Outs (F := F)) : (c : Dev nD) → (b : Ref sig .tc) → Buf (Elt F) ((c : Thread nD τ).loc b) := fun c b => V2 m outs c b
abbrev V5r (m : (ℓ : Loc nD τ sig) → Buf (Elt F) ℓ) (outs : Outs (F := F)) : (c : Dev nD) → (b : Ref sig .tc) → Buf (Elt F) ((c : Thread nD τ).loc b) := fun c b => V5 m outs c b
abbrev V6r (m : (ℓ : Loc nD τ sig) → Buf (Elt F) ℓ) (outs : Outs (F := F)) : (c : Dev nD) → (b : Ref sig .tc) → Buf (Elt F) ((c : Thread nD τ).loc b) := fun c b => V6 m outs c b
abbrev V9r (m : (ℓ : Loc nD τ sig) → Buf (Elt F) ℓ) (outs : Outs (F := F)) : (c : Dev nD) → (b : Ref sig .tc) → Buf (Elt F) ((c : Thread nD τ).loc b) := fun c b => V9 m outs c b
abbrev V10r (m : (ℓ : Loc nD τ sig) → Buf (Elt F) ℓ) (outs : Outs (F := F)) : (c : Dev nD) → (b : Ref sig .tc) → Buf (Elt F) ((c : Thread nD τ).loc b) := fun c b => V10 m outs c b
abbrev V11r (m : (ℓ : Loc nD τ sig) → Buf (Elt F) ℓ) (outs : Outs (F := F)) : (c : Dev nD) → (b : Ref sig .tc) → Buf (Elt F) ((c : Thread nD τ).loc b) := fun c b => V11 m outs c b
abbrev V12r (m : (ℓ : Loc nD τ sig) → Buf (Elt F) ℓ) (outs : Outs (F := F)) : (c : Dev nD) → (b : Ref sig .tc) → Buf (Elt F) ((c : Thread nD τ).loc b) := fun c b => V12 m outs c b

variable (m : (ℓ : Loc nD τ sig) → Buf (Elt F) ℓ) (outs : Outs (F := F))

/-- Each region leaves in its output array what its pipeline's write-backs make of it. -/
structure OutsOk : Prop where
  o2 : ∀ c, outs 2 main_v2 c = (dat0 (V1r m outs) c).arrAt 2 cfg0.N
  o6 : ∀ c, outs 6 main_v19 c = (dat1 (V5r m outs) c).arrAt 2 cfg1.N
  o10 : ∀ c, outs 10 main_v36 c = (dat2 (V9r m outs) c).arrAt 2 cfg2.N
  o12 : ∀ c, outs 12 main_v51 c = (dat3 (V11r m outs) c).arrAt 2 cfg3.N

/-! ## Such contents exist -/

/-- Contents that agree with `o` except at the reference `r₀`, where they are `v`. -/
def put (r₀ : Ref sig .tc) (v : (c : Dev nD) → Buf (Elt F) ((c : Thread nD τ).loc r₀)) (o : Outs (F := F)) : Outs (F := F) :=
  fun J r c => if h : r = r₀ then h ▸ v c else o J r c

theorem put_self (r₀ : Ref sig .tc) (v : (c : Dev nD) → Buf (Elt F) ((c : Thread nD τ).loc r₀)) (o : Outs (F := F)) (J : ℕ) (c : Dev nD) :
    put r₀ v o J r₀ c = v c := by unfold put; rw [dif_pos rfl]

theorem put_ne (r₀ : Ref sig .tc) (v : (c : Dev nD) → Buf (Elt F) ((c : Thread nD τ).loc r₀)) (o : Outs (F := F)) (J : ℕ) {r : Ref sig .tc} (h : r ≠ r₀) (c : Dev nD) :
    put r₀ v o J r c = o J r c := by unfold put; rw [dif_neg h]

/-- The contents a region is entered with depend on the earlier regions' outputs only. -/
theorem V5r_congr {o o' : Outs (F := F)} (h2 : ∀ c, o 2 main_v2 c = o' 2 main_v2 c) : V5r m o = V5r m o' := by
  funext c b; dsimp only [V5r, V5, V4, V3, V2]; rw [h2 c]
theorem V9r_congr {o o' : Outs (F := F)} (h2 : ∀ c, o 2 main_v2 c = o' 2 main_v2 c) (h6 : ∀ c, o 6 main_v19 c = o' 6 main_v19 c) : V9r m o = V9r m o' := by
  funext c b; dsimp only [V9r, V9, V8, V7, V6, V5, V4, V3, V2]; rw [h2 c, h6 c]
theorem V11r_congr {o o' : Outs (F := F)} (h2 : ∀ c, o 2 main_v2 c = o' 2 main_v2 c) (h6 : ∀ c, o 6 main_v19 c = o' 6 main_v19 c)
    (h10 : ∀ c, o 10 main_v36 c = o' 10 main_v36 c) : V11r m o = V11r m o' := by
  funext c b; dsimp only [V11r, V11, V10, V9, V8, V7, V6, V5, V4, V3, V2]; rw [h2 c, h6 c, h10 c]

theorem exists_outs : ∃ outs : Outs (F := F), OutsOk m outs := by
  let oA : Outs (F := F) := put main_v2 (fun c => (dat0 (V1r m (fun _ r c => m ((c : Thread nD τ).loc r))) c).arrAt 2 cfg0.N) (fun _ r c => m ((c : Thread nD τ).loc r))
  let oB : Outs (F := F) := put main_v19 (fun c => (dat1 (V5r m oA) c).arrAt 2 cfg1.N) oA
  let oC : Outs (F := F) := put main_v36 (fun c => (dat2 (V9r m oB) c).arrAt 2 cfg2.N) oB
  let oD : Outs (F := F) := put main_v51 (fun c => (dat3 (V11r m oC) c).arrAt 2 cfg3.N) oC
  have a2 : ∀ c, oB 2 main_v2 c = oA 2 main_v2 c := fun c => put_ne _ _ _ _ (by decide) c
  have b2 : ∀ c, oC 2 main_v2 c = oA 2 main_v2 c := fun c => (put_ne _ _ _ _ (by decide) c).trans (a2 c)
  have d2 : ∀ c, oD 2 main_v2 c = oA 2 main_v2 c := fun c => (put_ne _ _ _ _ (by decide) c).trans (b2 c)
  have b6 : ∀ c, oC 6 main_v19 c = oB 6 main_v19 c := fun c => put_ne _ _ _ _ (by decide) c
  have d6 : ∀ c, oD 6 main_v19 c = oB 6 main_v19 c := fun c => (put_ne _ _ _ _ (by decide) c).trans (b6 c)
  have d10 : ∀ c, oD 10 main_v36 c = oC 10 main_v36 c := fun c => put_ne _ _ _ _ (by decide) c
  refine ⟨oD, ⟨fun c => ?_, fun c => ?_, fun c => ?_, fun c => ?_⟩⟩
  · exact (d2 c).trans (put_self _ _ _ _ c)
  · rw [V5r_congr m d2]; exact (d6 c).trans (put_self _ _ _ _ c)
  · rw [V9r_congr m (fun c => (d2 c).trans (a2 c).symm) d6]; exact (d10 c).trans (put_self _ _ _ _ c)
  · rw [V11r_congr m (fun c => (d2 c).trans (b2 c).symm) (fun c => (d6 c).trans (b6 c).symm) d10]; exact put_self _ _ _ _ c

/-! ## The proof data family and what rides beside the buffers -/

/-- Every pipeline's proof data, each at the contents its region is entered with. -/
def pdats : (p : Fin 4) → (c : Dev nD) → Dat τ (Elt F) Unit ℕ (UR sig nD τ) ℕ (cfgs p) c
  | ⟨0, _⟩ => fun c => dat0 (V1r m outs) c
  | ⟨1, _⟩ => fun c => dat1 (V5r m outs) c
  | ⟨2, _⟩ => fun c => dat2 (V9r m outs) c
  | ⟨3, _⟩ => fun c => dat3 (V11r m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## What each region's arrays hold at its exit -/

/-- At region 0's exit each of its arrays holds what the pipeline leaves: the output what its write-backs made of it, an
    input (never written) its entry contents; -/
theorem hF0 (h : OutsOk m outs) (c : Dev nD) (w : Fin cfg0.W) :
    (dat0 (V1r m outs) c).arrAt w cfg0.N = V2r m outs c (Pipeline.arrRef spec0 w) := by
  match w with
  | ⟨0, _⟩ =>
    refine ((dat0 (V1r m outs) c).arrAt_in 0 rfl _).trans ?_
    exact (V2_of m outs c main_v0 (by decide)).symm
  | ⟨1, _⟩ =>
    refine ((dat0 (V1r m outs) c).arrAt_in 1 rfl _).trans ?_
    exact (V2_of m outs c main_v1 (by decide)).symm
  | ⟨2, _⟩ =>
    refine (h.o2 c).symm.trans ?_
    exact (Function.update_self (f := V1 m c) (Proc.devRef .tc main_v2) _).symm
/-- and every buffer that is none of its arrays holds what it held at entry. -/
theorem hrest0 (c : Dev nD) : ∀ b, b ∉ Finset.univ.image (Pipeline.arrRef spec0) → V2r m outs c b = V1r m outs c b :=
  fun b hb => V2_of m outs c b (fun hm => hb (by
    rw [List.mem_singleton] at hm; subst hm
    exact Finset.mem_image.mpr ⟨2, Finset.mem_univ _, rfl⟩))

/-- At region 1's exit each of its arrays holds what the pipeline leaves: the output what its write-backs made of it, an
    input (never written) its entry contents; -/
theorem hF1 (h : OutsOk m outs) (c : Dev nD) (w : Fin cfg1.W) :
    (dat1 (V5r m outs) c).arrAt w cfg1.N = V6r m outs c (Pipeline.arrRef spec1 w) := by
  match w with
  | ⟨0, _⟩ =>
    refine ((dat1 (V5r m outs) c).arrAt_in 0 rfl _).trans ?_
    exact (V6_of m outs c main_v17 (by decide)).symm
  | ⟨1, _⟩ =>
    refine ((dat1 (V5r m outs) c).arrAt_in 1 rfl _).trans ?_
    exact (V6_of m outs c main_v18 (by decide)).symm
  | ⟨2, _⟩ =>
    refine (h.o6 c).symm.trans ?_
    exact (Function.update_self (f := V5 m outs c) (Proc.devRef .tc main_v19) _).symm
/-- and every buffer that is none of its arrays holds what it held at entry. -/
theorem hrest1 (c : Dev nD) : ∀ b, b ∉ Finset.univ.image (Pipeline.arrRef spec1) → V6r m outs c b = V5r m outs c b :=
  fun b hb => V6_of m outs c b (fun hm => hb (by
    rw [List.mem_singleton] at hm; subst hm
    exact Finset.mem_image.mpr ⟨2, Finset.mem_univ _, rfl⟩))

/-- At region 2's exit each of its arrays holds what the pipeline leaves: the output what its write-backs made of it, an
    input (never written) its entry contents; -/
theorem hF2 (h : OutsOk m outs) (c : Dev nD) (w : Fin cfg2.W) :
    (dat2 (V9r m outs) c).arrAt w cfg2.N = V10r m outs c (Pipeline.arrRef spec2 w) := by
  match w with
  | ⟨0, _⟩ =>
    refine ((dat2 (V9r m outs) c).arrAt_in 0 rfl _).trans ?_
    exact (V10_of m outs c main_v34 (by decide)).symm
  | ⟨1, _⟩ =>
    refine ((dat2 (V9r m outs) c).arrAt_in 1 rfl _).trans ?_
    exact (V10_of m outs c main_v35 (by decide)).symm
  | ⟨2, _⟩ =>
    refine (h.o10 c).symm.trans ?_
    exact (Function.update_self (f := V9 m outs c) (Proc.devRef .tc main_v36) _).symm
/-- and every buffer that is none of its arrays holds what it held at entry. -/
theorem hrest2 (c : Dev nD) : ∀ b, b ∉ Finset.univ.image (Pipeline.arrRef spec2) → V10r m outs c b = V9r m outs c b :=
  fun b hb => V10_of m outs c b (fun hm => hb (by
    rw [List.mem_singleton] at hm; subst hm
    exact Finset.mem_image.mpr ⟨2, Finset.mem_univ _, rfl⟩))

/-- At region 3's exit each of its arrays holds what the pipeline leaves: the output what its write-backs made of it, an
    input (never written) its entry contents; -/
theorem hF3 (h : OutsOk m outs) (c : Dev nD) (w : Fin cfg3.W) :
    (dat3 (V11r m outs) c).arrAt w cfg3.N = V12r m outs c (Pipeline.arrRef spec3 w) := by
  match w with
  | ⟨0, _⟩ =>
    refine ((dat3 (V11r m outs) c).arrAt_in 0 rfl _).trans ?_
    exact (V12_of m outs c main_v50 (by decide)).symm
  | ⟨1, _⟩ =>
    refine ((dat3 (V11r m outs) c).arrAt_in 1 rfl _).trans ?_
    exact (V12_of m outs c main_v50 (by decide)).symm
  | ⟨2, _⟩ =>
    refine (h.o12 c).symm.trans ?_
    exact (Function.update_self (f := V11 m outs c) (Proc.devRef .tc main_v51) _).symm
/-- and every buffer that is none of its arrays holds what it held at entry. -/
theorem hrest3 (c : Dev nD) : ∀ b, b ∉ Finset.univ.image (Pipeline.arrRef spec3) → V12r m outs c b = V11r m outs c b :=
  fun b hb => V12_of m outs c b (fun hm => hb (by
    rw [List.mem_singleton] at hm; subst hm
    exact Finset.mem_image.mpr ⟨2, Finset.mem_univ _, rfl⟩))

end Cert.Kernel.Fr

end
-- ==== Proof.K.Reg0.lean ====
/-
  Region 0 of the entry function as a segment of its run: the protocol around the pipeline. The region is entered
  holding every unscoped buffer whole; its windows' arrays are taken out of them, the rest bypasses the region; at the
  exit the arrays come back, the output array at what the grid's write-backs made of it.
-/
import proofs.«147018_j55216099558155_1_alg».proof.Proof.K.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- Region 0 as a segment: entered with every unscoped buffer at the contents before it, left with the output array
    at what the pipeline's write-backs leave and every other buffer as entered. The arrays are split out of the unscoped
    buffers at entry and put back at exit; the generator register goes into the invariant and comes back; nothing is owed. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m outs) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (V1r m outs c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (V1r m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (V1r m outs c) (V2r m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg1.lean ====
/-
  Region 1 of the entry function as a segment of its run: the protocol around the pipeline. The region is entered
  holding every unscoped buffer whole; its windows' arrays are taken out of them, the rest bypasses the region; at the
  exit the arrays come back, the output array at what the grid's write-backs made of it.
-/
import proofs.«147018_j55216099558155_1_alg».proof.Proof.K.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- Region 1 as a segment: entered with every unscoped buffer at the contents before it, left with the output array
    at what the pipeline's write-backs leave and every other buffer as entered. The arrays are split out of the unscoped
    buffers at entry and put back at exit; the generator register goes into the invariant and comes back; nothing is owed. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (V5r m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (V5r m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (V5r m outs c) (V6r m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg2.lean ====
/-
  Region 2 of the entry function as a segment of its run: the protocol around the pipeline. The region is entered
  holding every unscoped buffer whole; its windows' arrays are taken out of them, the rest bypasses the region; at the
  exit the arrays come back, the output array at what the grid's write-backs made of it.
-/
import proofs.«147018_j55216099558155_1_alg».proof.Proof.K.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- Region 2 as a segment: entered with every unscoped buffer at the contents before it, left with the output array
    at what the pipeline's write-backs leave and every other buffer as entered. The arrays are split out of the unscoped
    buffers at entry and put back at exit; the generator register goes into the invariant and comes back; nothing is owed. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9r m outs) c).loose
  hwaits := Pipeline.hwaits_of_owed_zero _ _ _ _ L lv 2 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec2 c (V9r m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (V9r m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (V9r m outs c) (V10r m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.K.Reg3.lean ====
/-
  Region 3 of the entry function, the decoder, as a segment of its run. Its two input windows read ONE array, the
  embeddings, under two block maps, so the arrays' assertions cannot be indexed by the windows at the full share: the
  core's full share of the embeddings is cut in two halves at the region's entry, one per window (both windows see the
  same contents, and neither is ever written), and the halves are joined again at its exit. The output array is held
  at the full share and comes back at what the grid's write-backs made of it.
-/
import proofs.«147018_j55216099558155_1_alg».proof.Proof.K.Outs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The two distinct buffers behind the region's three windows. -/
theorem image_arr3 : Finset.univ.image (Pipeline.arrRef spec3) = {main_v50, main_v51} := by decide

/-- A core's unscoped buffers are the two buffers behind the region's windows and the rest. -/
theorem ucBufs_split3 (c : Dev nD) (V : (b : Ref sig .tc) → Buf (Elt F) ((c : Thread nD τ).loc b)) :
    (unscopedBufs c V : sProp 𝕄) = iprop(Pipeline.arrBufs spec3 c V ∗ Pipeline.unscopedRest spec3 c V) := by
  classical
  have hA : Finset.univ.image (Pipeline.arrRef spec3) ⊆ Finset.univ.filter fun b : Ref sig .tc => ¬ b.isScoped := by decide
  unfold unscopedBufs Pipeline.unscopedRest Pipeline.arrBufs
  rw [bigSep_sdiff_split hA]
  rfl

/-- The region's arrays — the embeddings at one half of the full share for each of the two windows that read them, the
    output at the full share — are the two distinct buffers behind them at the full share, when both input windows are
    given the embeddings' contents: a share is the composition of its two halves. -/
theorem arrays3_iff (c : Dev nD) (V' : (c : Dev nD) → (b : Ref sig .tc) → Buf (Elt F) ((c : Thread nD τ).loc b))
    (V : (b : Ref sig .tc) → Buf (Elt F) ((c : Thread nD τ).loc b))
    (Fa : (w : Fin cfg3.W) → Buf (Elt F) ((cfg3.win w).arr.view.loc (c.tc : Thread nD τ)))
    (h0 : Fa 0 = V main_v50) (h1 : Fa 1 = V main_v50) (h2 : Fa 2 = V main_v51) :
    ((dat3 V' c).arrays Fa : sProp 𝕄) ⊣⊢ Pipeline.arrBufs spec3 c V := by
  unfold Pipeline.Dat.arrays Pipeline.arrBufs
  rw [bigSep_W3, image_arr3, bigSep_insert (by decide), bigSep_singleton, h0, h1, h2]
  simp only [(arr_whole3 0).set_eq_univ, (arr_whole3 1).set_eq_univ, (arr_whole3 2).set_eq_univ]
  show iprop(((((c : Thread nD τ).loc main_v50) ↦[Finset.univ]{fullShare.left} V main_v50 : sProp 𝕄))
      ∗ ((((c : Thread nD τ).loc main_v50) ↦[Finset.univ]{fullShare.right} V main_v50))
      ∗ ((((c : Thread nD τ).loc main_v51) ↦[Finset.univ]{fullShare} V main_v51)))
    ⊣⊢ iprop(((((c : Thread nD τ).loc main_v50) ↦[Finset.univ]{fullShare} V main_v50))
      ∗ ((((c : Thread nD τ).loc main_v51) ↦[Finset.univ]{fullShare} V main_v51)))
  have hs : ((((c : Thread nD τ).loc main_v50) ↦[Finset.univ]{fullShare} V main_v50 : sProp 𝕄)) ⊣⊢ iprop((((c : Thread nD τ).loc main_v50) ↦[Finset.univ]{fullShare.left} V main_v50) ∗ (((c : Thread nD τ).loc main_v50) ↦[Finset.univ]{fullShare.right} V main_v50)) :=
    pointsTo_share (PosShare.mem_left_op_right fullShare)
  constructor
  · iintro ⟨Ha, Hb, Hc⟩
    isplitl [Ha Hb]
    · iapply hs.2; isplitl [Ha] <;> iassumption
    · iexact Hc
  · iintro ⟨Hab, Hc⟩
    ihave H := hs.1 $$ Hab
    icases H with ⟨Ha, Hb⟩
    isplitl [Ha]; · iexact Ha
    isplitl [Hb]; · iexact Hb
    iexact Hc

set_option backward.isDefEq.respectTransparency.types false in
/-- Region 3 as a segment. -/
def reg3 (h : OutsOk m outs) : Pipeline.RegionSeg (pcfgs (F := F)) adm (pdats m outs) () defs₀ 𝒱₀ L lv 3 where
  win := winFacts₀3
  block_pos := block_pos3
  stage_whole := stage_whole3
  K := PEmpty
  osem k := k.elim
  ho := Pipeline.OwnSemFacts.none _
  hbody c := (body_obligation3 (V11r m outs) c).loose
  hwaits := Pipeline.hwaits_of_owed_zero _ _ _ _ L lv 3 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec3 c (V11r m outs c)
  hentry c := by
    rw [Pipeline.ownSems0_none]
    have hsplit := ucBufs_split3 (F := F) c (V11r m outs c)
    rw [Pipeline.unscopedBufs_held] at hsplit
    have harr := (arrays3_iff (F := F) c (V11r m outs) (V11r m outs c) ((pdats m outs 3 c).arrAt · 0) rfl rfl rfl).2
    have hsplit' := Entails.of_eq hsplit
    iintro ⟨⟨Hub, Hp, HO⟩, -, -⟩
    ihave H := hsplit' $$ Hub
    icases H with ⟨Ha, Hrest⟩
    imodintro
    isplitl [Ha]; · iapply harr; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hsplit := ucBufs_split3 (F := F) c (V12r m outs c)
    rw [Pipeline.unscopedBufs_held] at hsplit
    have harr := (arrays3_iff (F := F) c (V11r m outs) (V12r m outs c) ((pdats m outs 3 c).arrAt · cfg3.N)
      (hF3 m outs h c 0) (hF3 m outs h c 1) (hF3 m outs h c 2)).1
    have hrest : (Pipeline.unscopedRest (Ix := Unit) (Name := ℕ) (U := UR sig nD τ) (Lvl := ℕ) spec3 c (V11r m outs c) : sProp 𝕄)
        = Pipeline.unscopedRest spec3 c (V12r m outs c) := by
      unfold Pipeline.unscopedRest
      exact bigSep_congr fun b hb => by rw [hrest3 m outs c b (Finset.mem_sdiff.mp hb).2]
    have hjoin := Entails.of_eq hsplit.symm
    have hrest' := Entails.of_eq hrest
    iintro ⟨Ha, HO, HY, Hrest⟩
    imodintro
    isplitl [Ha Hrest]
    · iapply hjoin
      isplitl [Ha]
      · iapply harr; iexact Ha
      · iapply hrest'; iexact Hrest
    isplitl [HY]; · iexact HY
    unfold Pipeline.Dat.owesAt Pipeline.owesWithin
    icases HO with ⟨%W, -, HO⟩; iexists W; iexact HO

end Cert.Kernel.Fr

end
-- ==== Proof.K.Run.lean ====
/-
  The run of the whole entry function: host lines, then four pallas_call regions separated by host lines.
  From any memory with zero counters, every weakly fair execution terminates, without a fault, in a memory that
  holds every unscoped buffer at the last valuation of the chain "launch contents, host lines' result, a region's
  output replaced by what its write-backs leave, …". No item writes an argument array, so the arguments end as launched.
-/
import proofs.«147018_j55216099558155_1_alg».proof.Proof.K.Reg0
import proofs.«147018_j55216099558155_1_alg».proof.Proof.K.Reg1
import proofs.«147018_j55216099558155_1_alg».proof.Proof.K.Reg2
import proofs.«147018_j55216099558155_1_alg».proof.Proof.K.Reg3

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (outs : Outs (F := F))

/-- An unscoped TensorCore reference is among those the core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last region's exit state is the last valuation's buffers and the generator register, beside a core that owes nothing. -/
theorem last_step (c : Dev nD) :
    (iprop(StableHlo.held (c : Thread nD τ) (Pipeline.ucRefs τ sig) (V12 m outs c) ∗ R c) : sProp 𝕄)
      ⊢ iprop((StableHlo.held (c : Thread nD τ) (Pipeline.ucRefs τ sig) (V12 m outs c) ∗ ∃ r, prngReg c r)
        ∗ ∃ W, owes (c : Thread nD τ) (0 : CellTallies nD τ sig Unit) W) := by
  iintro ⟨Hh, Hp, Ho⟩
  isplitl [Hh Hp]
  · isplitl [Hh] <;> iassumption
  · iexact Ho

set_option backward.isDefEq.respectTransparency.types false in
/-- THE RUN: every weakly fair execution of the entry function terminates, nothing faulting, and the final memory holds
    every unscoped buffer of every core at the last valuation. -/
theorem run (ρ : Dev nD → PrngReg) (h : OutsOk m outs) :
    θ_run defs (onTc (τ := τ) (main (F := F))) ⟨m, fun _ => 0, ρ⟩ (fun r => ∀ c : Dev nD, ∀ b ∈ Pipeline.ucRefs τ sig,
      r.2.mem (((c : Thread nD τ)).1, b) = V12 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs h) (reg1 m outs h) (reg2 m outs h) (reg3 m outs h))
    (fun c Q => by
      rewrite [main_chain c, Seg.run_eq_chain,
        show (segs m outs 𝒱₀ L lv E () (pdats m outs) (reg0 m outs h) (reg1 m outs h) (reg2 m outs h) (reg3 m outs h) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m outs c) ∗ ∃ r, prngReg c r))
    (hch := fun c => ⟨.rfl, .rfl, .rfl, .rfl, .rfl, .rfl, .rfl, .rfl, .rfl, .rfl, .rfl, .rfl, last_step m outs c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m outs c b)
    (hfin := fun c s' => by
      iintro ⟨⟨Hh, -⟩, HSI⟩
      unfold StableHlo.held
      imodintro
      iapply (pointsTo_read_all (Pipeline.ucRefs τ sig) (fun b => (((c : Thread nD τ)).1, b)) (V12 m outs c) s')
      isplitl [Hh] <;> iassumption)
    (hQ := fun s h => h)

/-- THE FRAME: every weakly fair execution terminates, nothing faulting, and the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  obtain ⟨outs, h⟩ := exists_outs m
  refine (θ_run defs _ _).mono (fun r hr c => ?_) (run m outs ρ h)
  exact ⟨(hr c _ (mem_uc main_arg0 (by decide))).trans (V12_main_arg0 m outs c),
    (hr c _ (mem_uc main_arg1 (by decide))).trans (V12_main_arg1 m outs c),
    (hr c _ (mem_uc main_arg2 (by decide))).trans (V12_main_arg2 m outs c),
    (hr c _ (mem_uc main_arg3 (by decide))).trans (V12_main_arg3 m outs c),
    (hr c _ (mem_uc main_arg4 (by decide))).trans (V12_main_arg4 m outs c),
    (hr c _ (mem_uc main_arg5 (by decide))).trans (V12_main_arg5 m outs c),
    (hr c _ (mem_uc main_arg6 (by decide))).trans (V12_main_arg6 m outs c)⟩

end Cert.Kernel.Fr

end
-- ==== Proof.KI.Body0.lean ====
/-
  Region 0 of the entry function, the body's half: a 1024-row block of the first matrix product.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
-/
import proofs.«147018_j55216099558155_1_alg».proof.Proof.Gen.KernelIdeal.Launch
import proofs.«147018_j55216099558155_1_alg».proof.Proof.Gen.KernelIdeal.Skeleton
import proofs.«147018_j55216099558155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not (an unfetched point has the
    block index of the point before it). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole first input block, the whole second input block, the whole output block, as rectangles. -/
abbrev ra0 : Rect S1024x1433 := Rect.unit (s := S1024x1433) ![0, 0] S1024x1433.size inb_S1024x1433_S1024x1433_0_0
abbrev rb0 : Rect S1433x32 := Rect.unit (s := S1433x32) ![0, 0] S1433x32.size inb_S1433x32_S1433x32_0_0
abbrev ro0 : Rect S1024x32 := Rect.unit (s := S1024x32) ![0, 0] S1024x32.size inb_S1024x32_S1024x32_0_0

/-- What the body leaves in the output's staging buffer, from the two input blocks: its one store, of the body's value,
    over the whole block. -/
def out0_2 (x0 : Vec F S1024x1433 .bf16) (x1 : Vec F S1433x32 .bf16) : Vec F S1024x32 .f32 :=
  View.canon [⟨ro0, k0_pay1 (View.ld x0 ra0) (View.ld x1 rb0)⟩]

/-- The one store covers the block. -/
theorem cover0_2 (p0 : Vec F S1024x32 .f32) (y : S1024x32.Idx) :
    ∃ pc ∈ ([⟨ro0, p0⟩] : List (View.Piece (Elt F) S1024x32 .f32)), y ∈ pc.1.set :=
  View.cover_of_tiled [⟨ro0, p0⟩] S1024x32.size (by rfl) y

set_option maxHeartbeats 1000000 in
/-- The body on whole staging buffers, the inputs' at contents `x0`, `x1` and the output's at anything, runs to the end
    leaving the inputs as they were and the output at `out0_2 x0 x1`. -/
theorem sound_kernel0 (c : Dev nD) (E : Set ℕ) (i : grid0.Coords) (arg1 : Memref sig .tc .vmem S1024x1433 .bf16) (harg1 : arg1.IsWhole) (arg2 : Memref sig .tc .vmem S1433x32 .bf16) (harg2 : arg2.IsWhole) (arg3 : Memref sig .tc .vmem S1024x32 .f32) (harg3 : arg3.IsWhole)
    (x0 : Vec F S1024x1433 .bf16) (x1 : Vec F S1433x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each input's
    buffer at its block and the output's at `out0_2` of the two input blocks; the invariant holds the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  Region 1 of the entry function, the body's half: a 1024-row block of the second matrix product.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
-/
import proofs.«147018_j55216099558155_1_alg».proof.Proof.Gen.KernelIdeal.Launch
import proofs.«147018_j55216099558155_1_alg».proof.Proof.Gen.KernelIdeal.Skeleton
import proofs.«147018_j55216099558155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not (an unfetched point has the
    block index of the point before it). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole first input block, the whole second input block, the whole output block, as rectangles. -/
abbrev ra1 : Rect S1024x32 := Rect.unit (s := S1024x32) ![0, 0] S1024x32.size inb_S1024x32_S1024x32_0_0
abbrev rb1 : Rect S32x32 := Rect.unit (s := S32x32) ![0, 0] S32x32.size inb_S32x32_S32x32_0_0
abbrev ro1 : Rect S1024x32 := Rect.unit (s := S1024x32) ![0, 0] S1024x32.size inb_S1024x32_S1024x32_0_0

/-- What the body leaves in the output's staging buffer, from the two input blocks: its one store, of the body's value,
    over the whole block. -/
def out1_2 (x0 : Vec F S1024x32 .bf16) (x1 : Vec F S32x32 .bf16) : Vec F S1024x32 .f32 :=
  View.canon [⟨ro1, k1_pay1 (View.ld x0 ra1) (View.ld x1 rb1)⟩]

/-- The one store covers the block. -/
theorem cover1_2 (p0 : Vec F S1024x32 .f32) (y : S1024x32.Idx) :
    ∃ pc ∈ ([⟨ro1, p0⟩] : List (View.Piece (Elt F) S1024x32 .f32)), y ∈ pc.1.set :=
  View.cover_of_tiled [⟨ro1, p0⟩] S1024x32.size (by rfl) y

set_option maxHeartbeats 1000000 in
/-- The body on whole staging buffers, the inputs' at contents `x0`, `x1` and the output's at anything, runs to the end
    leaving the inputs as they were and the output at `out1_2 x0 x1`. -/
theorem sound_kernel1 (c : Dev nD) (E : Set ℕ) (i : grid1.Coords) (arg1 : Memref sig .tc .vmem S1024x32 .bf16) (harg1 : arg1.IsWhole) (arg2 : Memref sig .tc .vmem S32x32 .bf16) (harg2 : arg2.IsWhole) (arg3 : Memref sig .tc .vmem S1024x32 .f32) (harg3 : arg3.IsWhole)
    (x0 : Vec F S1024x32 .bf16) (x1 : Vec F S32x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each input's
    buffer at its block and the output's at `out1_2` of the two input blocks; the invariant holds the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Body2.lean ====
/-
  Region 2 of the entry function, the body's half: a 1024-row block of the third matrix product.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
-/
import proofs.«147018_j55216099558155_1_alg».proof.Proof.Gen.KernelIdeal.Launch
import proofs.«147018_j55216099558155_1_alg».proof.Proof.Gen.KernelIdeal.Skeleton
import proofs.«147018_j55216099558155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not (an unfetched point has the
    block index of the point before it). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the second input. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole first input block, the whole second input block, the whole output block, as rectangles. -/
abbrev ra2 : Rect S1024x32 := Rect.unit (s := S1024x32) ![0, 0] S1024x32.size inb_S1024x32_S1024x32_0_0
abbrev rb2 : Rect S32x16 := Rect.unit (s := S32x16) ![0, 0] S32x16.size inb_S32x16_S32x16_0_0
abbrev ro2 : Rect S1024x16 := Rect.unit (s := S1024x16) ![0, 0] S1024x16.size inb_S1024x16_S1024x16_0_0

/-- What the body leaves in the output's staging buffer, from the two input blocks: its one store, of the body's value,
    over the whole block. -/
def out2_2 (x0 : Vec F S1024x32 .bf16) (x1 : Vec F S32x16 .bf16) : Vec F S1024x16 .f32 :=
  View.canon [⟨ro2, k2_pay1 (View.ld x0 ra2) (View.ld x1 rb2)⟩]

/-- The one store covers the block. -/
theorem cover2_2 (p0 : Vec F S1024x16 .f32) (y : S1024x16.Idx) :
    ∃ pc ∈ ([⟨ro2, p0⟩] : List (View.Piece (Elt F) S1024x16 .f32)), y ∈ pc.1.set :=
  View.cover_of_tiled [⟨ro2, p0⟩] S1024x16.size (by rfl) y

set_option maxHeartbeats 1000000 in
/-- The body on whole staging buffers, the inputs' at contents `x0`, `x1` and the output's at anything, runs to the end
    leaving the inputs as they were and the output at `out2_2 x0 x1`. -/
theorem sound_kernel2 (c : Dev nD) (E : Set ℕ) (i : grid2.Coords) (arg1 : Memref sig .tc .vmem S1024x32 .bf16) (harg1 : arg1.IsWhole) (arg2 : Memref sig .tc .vmem S32x16 .bf16) (harg2 : arg2.IsWhole) (arg3 : Memref sig .tc .vmem S1024x16 .f32) (harg3 : arg3.IsWhole)
    (x0 : Vec F S1024x32 .bf16) (x1 : Vec F S32x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each input's
    buffer at its block and the output's at `out2_2` of the two input blocks; the invariant holds the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Body3.lean ====
/-
  Region 3 of the entry function, the body's half: a 2048 by 2048 block of the decoded matrix.
  The body reads its two input blocks whole, computes one value from them and stores it over the whole output block.
  Stated at a parameter `V`, the contents of the core's buffers when the region is entered: a window's block at a
  grid point is the part of its array the block map selects there; after the body each input's staging buffer still
  holds its block and the output's holds the body's value of the two input blocks.
  Both input windows read ONE array, so the core holds that array at two halves of the full share, one per window.
-/
import proofs.«147018_j55216099558155_1_alg».proof.Proof.Gen.KernelIdeal.Launch
import proofs.«147018_j55216099558155_1_alg».proof.Proof.Gen.KernelIdeal.Skeleton
import proofs.«147018_j55216099558155_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the part of its array, as the region finds it, that the block map selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point, fetched there or not (an unfetched point has the
    block index of the point before it). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the second input. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole first input block, the whole second input block, the whole output block, as rectangles. -/
abbrev ra3 : Rect S2048x16 := Rect.unit (s := S2048x16) ![0, 0] S2048x16.size inb_S2048x16_S2048x16_0_0
abbrev rb3 : Rect S2048x16 := Rect.unit (s := S2048x16) ![0, 0] S2048x16.size inb_S2048x16_S2048x16_0_0
abbrev ro3 : Rect S2048x2048 := Rect.unit (s := S2048x2048) ![0, 0] S2048x2048.size inb_S2048x2048_S2048x2048_0_0

/-- What the body leaves in the output's staging buffer, from the two input blocks: its one store, of the body's value,
    over the whole block. -/
def out3_2 (x0 : Vec F S2048x16 .bf16) (x1 : Vec F S2048x16 .bf16) : Vec F S2048x2048 .f32 :=
  View.canon [⟨ro3, k3_pay1 (View.ld x0 ra3) (View.ld x1 rb3)⟩]

/-- The one store covers the block. -/
theorem cover3_2 (p0 : Vec F S2048x2048 .f32) (y : S2048x2048.Idx) :
    ∃ pc ∈ ([⟨ro3, p0⟩] : List (View.Piece (Elt F) S2048x2048 .f32)), y ∈ pc.1.set :=
  View.cover_of_tiled [⟨ro3, p0⟩] S2048x2048.size (by rfl) y

set_option maxHeartbeats 1000000 in
/-- The body on whole staging buffers, the inputs' at contents `x0`, `x1` and the output's at anything, runs to the end
    leaving the inputs as they were and the output at `out3_2 x0 x1`. -/
theorem sound_kernel3 (c : Dev nD) (E : Set ℕ) (i : grid3.Coords) (arg1 : Memref sig .tc .vmem S2048x16 .bf16) (harg1 : arg1.IsWhole) (arg2 : Memref sig .tc .vmem S2048x16 .bf16) (harg2 : arg2.IsWhole) (arg3 : Memref sig .tc .vmem S2048x2048 .f32) (harg3 : arg3.IsWhole)
    (x0 : Vec F S2048x16 .bf16) (x1 : Vec F S2048x16 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__decode_kernel i arg1 harg1 arg2 harg2 arg3 harg3) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each input's
    buffer at its block and the output's at `out3_2` of the two input blocks; the invariant holds the scoped rest and
    the generator register, untouched; nothing owed; the shared input array at half the full share for each of its two windows. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Outs.lean ====
/-
  The contents the four regions leave, and the pipelines' proof data over them.
  Between two items of the entry function the core holds every unscoped buffer whole at a valuation: the launch
  contents, then the host lines' composed result, then — after a region — the same with the region's output array
  replaced by what its grid's write-backs leave. What the regions leave are unknowns `outs`, tied to the pipelines'
  proof data by four equations (`OutsOk`): region k's output is the write-backs' fold of its proof data, taken at the
  contents the region is entered with, which depend on the earlier regions' outputs only. Such contents exist
  (`exists_outs`): they are defined one region after the other.
-/
import proofs.«147018_j55216099558155_1_alg».proof.Proof.KI.Body0
import proofs.«147018_j55216099558155_1_alg».proof.Proof.KI.Body1
import proofs.«147018_j55216099558155_1_alg».proof.Proof.KI.Body2
import proofs.«147018_j55216099558155_1_alg».proof.Proof.KI.Body3
import proofs.«147018_j55216099558155_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The valuations a region is entered with and left at, read at the TensorCore's references. -/
abbrev V1r (m : (ℓ : Loc nD τ sig) → Buf (Elt F) ℓ) (outs : Outs (F := F)) : (c : Dev nD) → (b : Ref sig .tc) → Buf (Elt F) ((c : Thread nD τ).loc b) := fun c b => V1 m c b
abbrev V2r (m : (ℓ : Loc nD τ sig) → Buf (Elt F) ℓ) (outs : Outs (F := F)) : (c : Dev nD) → (b : Ref sig .tc) → Buf (Elt F) ((c : Thread nD τ).loc b) := fun c b => V2 m outs c b
abbrev V5r (m : (ℓ : Loc nD τ sig) → Buf (Elt F) ℓ) (outs : Outs (F := F)) : (c : Dev nD) → (b : Ref sig .tc) → Buf (Elt F) ((c : Thread nD τ).loc b) := fun c b => V5 m outs c b
abbrev V6r (m : (ℓ : Loc nD τ sig) → Buf (Elt F) ℓ) (outs : Outs (F := F)) : (c : Dev nD) → (b : Ref sig .tc) → Buf (Elt F) ((c : Thread nD τ).loc b) := fun c b => V6 m outs c b
abbrev V9r (m : (ℓ : Loc nD τ sig) → Buf (Elt F) ℓ) (outs : Outs (F := F)) : (c : Dev nD) → (b : Ref sig .tc) → Buf (Elt F) ((c : Thread nD τ).loc b) := fun c b => V9 m outs c b
abbrev V10r (m : (ℓ : Loc nD τ sig) → Buf (Elt F) ℓ) (outs : Outs (F := F)) : (c : Dev nD) → (b : Ref sig .tc) → Buf (Elt F) ((c : Thread nD τ).loc b) := fun c b => V10 m outs c b
abbrev V11r (m : (ℓ : Loc nD τ sig) → Buf (Elt F) ℓ) (outs : Outs (F := F)) : (c : Dev nD) → (b : Ref sig .tc) → Buf (Elt F) ((c : Thread nD τ).loc b) := fun c b => V11 m outs c b
abbrev V12r (m : (ℓ : Loc nD τ sig) → Buf (Elt F) ℓ) (outs : Outs (F := F)) : (c : Dev nD) → (b : Ref sig .tc) → Buf (Elt F) ((c : Thread nD τ).loc b) := fun c b => V12 m outs c b

variable (m : (ℓ : Loc nD τ sig) → Buf (Elt F) ℓ) (outs : Outs (F := F))

/-- Each region leaves in its output array what its pipeline's write-backs make of it. -/
structure OutsOk : Prop where
  o2 : ∀ c, outs 2 main_v2 c = (dat0 (V1r m outs) c).arrAt 2 cfg0.N
  o6 : ∀ c, outs 6 main_v19 c = (dat1 (V5r m outs) c).arrAt 2 cfg1.N
  o10 : ∀ c, outs 10 main_v36 c = (dat2 (V9r m outs) c).arrAt 2 cfg2.N
  o12 : ∀ c, outs 12 main_v51 c = (dat3 (V11r m outs) c).arrAt 2 cfg3.N

/-! ## Such contents exist -/

/-- Contents that agree with `o` except at the reference `r₀`, where they are `v`. -/
def put (r₀ : Ref sig .tc) (v : (c : Dev nD) → Buf (Elt F) ((c : Thread nD τ).loc r₀)) (o : Outs (F := F)) : Outs (F := F) :=
  fun J r c => if h : r = r₀ then h ▸ v c else o J r c

theorem put_self (r₀ : Ref sig .tc) (v : (c : Dev nD) → Buf (Elt F) ((c : Thread nD τ).loc r₀)) (o : Outs (F := F)) (J : ℕ) (c : Dev nD) :
    put r₀ v o J r₀ c = v c := by unfold put; rw [dif_pos rfl]

theorem put_ne (r₀ : Ref sig .tc) (v : (c : Dev nD) → Buf (Elt F) ((c : Thread nD τ).loc r₀)) (o : Outs (F := F)) (J : ℕ) {r : Ref sig .tc} (h : r ≠ r₀) (c : Dev nD) :
    put r₀ v o J r c = o J r c := by unfold put; rw [dif_neg h]

/-- The contents a region is entered with depend on the earlier regions' outputs only. -/
theorem V5r_congr {o o' : Outs (F := F)} (h2 : ∀ c, o 2 main_v2 c = o' 2 main_v2 c) : V5r m o = V5r m o' := by
  funext c b; dsimp only [V5r, V5, V4, V3, V2]; rw [h2 c]
theorem V9r_congr {o o' : Outs (F := F)} (h2 : ∀ c, o 2 main_v2 c = o' 2 main_v2 c) (h6 : ∀ c, o 6 main_v19 c = o' 6 main_v19 c) : V9r m o = V9r m o' := by
  funext c b; dsimp only [V9r, V9, V8, V7, V6, V5, V4, V3, V2]; rw [h2 c, h6 c]
theorem V11r_congr {o o' : Outs (F := F)} (h2 : ∀ c, o 2 main_v2 c = o' 2 main_v2 c) (h6 : ∀ c, o 6 main_v19 c = o' 6 main_v19 c)
    (h10 : ∀ c, o 10 main_v36 c = o' 10 main_v36 c) : V11r m o = V11r m o' := by
  funext c b; dsimp only [V11r, V11, V10, V9, V8, V7, V6, V5, V4, V3, V2]; rw [h2 c, h6 c, h10 c]

theorem exists_outs : ∃ outs : Outs (F := F), OutsOk m outs := by
  let oA : Outs (F := F) := put main_v2 (fun c => (dat0 (V1r m (fun _ r c => m ((c : Thread nD τ).loc r))) c).arrAt 2 cfg0.N) (fun _ r c => m ((c : Thread nD τ).loc r))
  let oB : Outs (F := F) := put main_v19 (fun c => (dat1 (V5r m oA) c).arrAt 2 cfg1.N) oA
  let oC : Outs (F := F) := put main_v36 (fun c => (dat2 (V9r m oB) c).arrAt 2 cfg2.N) oB
  let oD : Outs (F := F) := put main_v51 (fun c => (dat3 (V11r m oC) c).arrAt 2 cfg3.N) oC
  have a2 : ∀ c, oB 2 main_v2 c = oA 2 main_v2 c := fun c => put_ne _ _ _ _ (by decide) c
  have b2 : ∀ c, oC 2 main_v2 c = oA 2 main_v2 c := fun c => (put_ne _ _ _ _ (by decide) c).trans (a2 c)
  have d2 : ∀ c, oD 2 main_v2 c = oA 2 main_v2 c := fun c => (put_ne _ _ _ _ (by decide) c).trans (b2 c)
  have b6 : ∀ c, oC 6 main_v19 c = oB 6 main_v19 c := fun c => put_ne _ _ _ _ (by decide) c
  have d6 : ∀ c, oD 6 main_v19 c = oB 6 main_v19 c := fun c => (put_ne _ _ _ _ (by decide) c).trans (b6 c)
  have d10 : ∀ c, oD 10 main_v36 c = oC 10 main_v36 c := fun c => put_ne _ _ _ _ (by decide) c
  refine ⟨oD, ⟨fun c => ?_, fun c => ?_, fun c => ?_, fun c => ?_⟩⟩
  · exact (d2 c).trans (put_self _ _ _ _ c)
  · rw [V5r_congr m d2]; exact (d6 c).trans (put_self _ _ _ _ c)
  · rw [V9r_congr m (fun c => (d2 c).trans (a2 c).symm) d6]; exact (d10 c).trans (put_self _ _ _ _ c)
  · rw [V11r_congr m (fun c => (d2 c).trans (b2 c).symm) (fun c => (d6 c).trans (b6 c).symm) d10]; exact put_self _ _ _ _ c

/-! ## The proof data family and what rides beside the buffers -/

/-- Every pipeline's proof data, each at the contents its region is entered with. -/
def pdats : (p : Fin 4) → (c : Dev nD) → Dat τ (Elt F) Unit ℕ (UR sig nD τ) ℕ (cfgs p) c
  | ⟨0, _⟩ => fun c => dat0 (V1r m outs) c
  | ⟨1, _⟩ => fun c => dat1 (V5r m outs) c
  | ⟨2, _⟩ => fun c => dat2 (V9r m outs) c
  | ⟨3, _⟩ => fun c => dat3 (V11r m outs) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## What each region's arrays hold at its exit -/

/-- At region 0's exit each of its arrays holds what the pipeline leaves: the output what its write-backs made of it, an
    input (never written) its entry contents; -/
theorem hF0 (h : OutsOk m outs) (c : Dev nD) (w : Fin cfg0.W) :
    (dat0 (V1r m outs) c).arrAt w cfg0.N = V2r m outs c (Pipeline.arrRef spec0 w) := by
  match w with
  | ⟨0, _⟩ =>
    refine ((dat0 (V1r m outs) c).arrAt_in 0 rfl _).trans ?_
    exact (V2_of m outs c main_v0 (by decide)).symm
  | ⟨1, _⟩ =>
    refine ((dat0 (V1r m outs) c).arrAt_in 1 rfl _).trans ?_
    exact (V2_of m outs c main_v1 (by decide)).symm
  | ⟨2, _⟩ =>
    refine (h.o2 c).symm.trans ?_
    exact (Function.update_self (f := V1 m c) (Proc.devRef .tc main_v2) _).symm
/-- and every buffer that is none of its arrays holds what it held at entry. -/
theorem hrest0 (c : Dev nD) : ∀ b, b ∉ Finset.univ.image (Pipeline.arrRef spec0) → V2r m outs c b = V1r m outs c b :=
  fun b hb => V2_of m outs c b (fun hm => hb (by
    rw [List.mem_singleton] at hm; subst hm
    exact Finset.mem_image.mpr ⟨2, Finset.mem_univ _, rfl⟩))

/-- At region 1's exit each of its arrays holds what the pipeline leaves: the output what its write-backs made of it, an
    input (never written) its entry contents; -/
theorem hF1 (h : OutsOk m outs) (c : Dev nD) (w : Fin cfg1.W) :
    (dat1 (V5r m outs) c).arrAt w cfg1.N = V6r m outs c (Pipeline.arrRef spec1 w) := by
  match w with
  | ⟨0, _⟩ =>
    refine ((dat1 (V5r m outs) c).arrAt_in 0 rfl _).trans ?_
    exact (V6_of m outs c main_v17 (by decide)).symm
  | ⟨1, _⟩ =>
    refine ((dat1 (V5r m outs) c).arrAt_in 1 rfl _).trans ?_
    exact (V6_of m outs c main_v18 (by decide)).symm
  | ⟨2, _⟩ =>
    refine (h.o6 c).symm.trans ?_
    exact (Function.update_self (f := V5 m outs c) (Proc.devRef .tc main_v19) _).symm
/-- and every buffer that is none of its arrays holds what it held at entry. -/
theorem hrest1 (c : Dev nD) : ∀ b, b ∉ Finset.univ.image (Pipeline.arrRef spec1) → V6r m outs c b = V5r m outs c b :=
  fun b hb => V6_of m outs c b (fun hm => hb (by
    rw [List.mem_singleton] at hm; subst hm
    exact Finset.mem_image.mpr ⟨2, Finset.mem_univ _, rfl⟩))

/-- At region 2's exit each of its arrays holds what the pipeline leaves: the output what its write-backs made of it, an
    input (never written) its entry contents; -/
theorem hF2 (h : OutsOk m outs) (c : Dev nD) (w : Fin cfg2.W) :
    (dat2 (V9r m outs) c).arrAt w cfg2.N = V10r m outs c (Pipeline.arrRef spec2 w) := by
  match w with
  | ⟨0, _⟩ =>
    refine ((dat2 (V9r m outs) c).arrAt_in 0 rfl _).trans ?_
    exact (V10_of m outs c main_v34 (by decide)).symm
  | ⟨1, _⟩ =>
    refine ((dat2 (V9r m outs) c).arrAt_in 1 rfl _).trans ?_
    exact (V10_of m outs c main_v35 (by decide)).symm
  | ⟨2, _⟩ =>
    refine (h.o10 c).symm.trans ?_
    exact (Function.update_self (f := V9 m outs c) (Proc.devRef .tc main_v36) _).symm
/-- and every buffer that is none of its arrays holds what it held at entry. -/
theorem hrest2 (c : Dev nD) : ∀ b, b ∉ Finset.univ.image (Pipeline.arrRef spec2) → V10r m outs c b = V9r m outs c b :=
  fun b hb => V10_of m outs c b (fun hm => hb (by
    rw [List.mem_singleton] at hm; subst hm
    exact Finset.mem_image.mpr ⟨2, Finset.mem_univ _, rfl⟩))

/-- At region 3's exit each of its arrays holds what the pipeline leaves: the output what its write-backs made of it, an
    input (never written) its entry contents; -/
theorem hF3 (h : OutsOk m outs) (c : Dev nD) (w : Fin cfg3.W) :
    (dat3 (V11r m outs) c).arrAt w cfg3.N = V12r m outs c (Pipeline.arrRef spec3 w) := by
  match w with
  | ⟨0, _⟩ =>
    refine ((dat3 (V11r m outs) c).arrAt_in 0 rfl _).trans ?_
    exact (V12_of m outs c main_v50 (by decide)).symm
  | ⟨1, _⟩ =>
    refine ((dat3 (V11r m outs) c).arrAt_in 1 rfl _).trans ?_
    exact (V12_of m outs c main_v50 (by decide)).symm
  | ⟨2, _⟩ =>
    refine (h.o12 c).symm.trans ?_
    exact (Function.update_self (f := V11 m outs c) (Proc.devRef .tc main_v51) _).symm
/-- and every buffer that is none of its arrays holds what it held at entry. -/
theorem hrest3 (c : Dev nD) : ∀ b, b ∉ Finset.univ.image (Pipeline.arrRef spec3) → V12r m outs c b = V11r m outs c b :=
  fun b hb => V12_of m outs c b (fun hm => hb (by
    rw [List.mem_singleton] at hm; subst hm
    exact Finset.mem_image.mpr ⟨2, Finset.mem_univ _, rfl⟩))

end Cert.KernelIdeal.Fr

end
-- ==== Proof.KI.Reg0.lean ====
/-
  Region 0 of the entry function as a segment of its run: the protocol around the pipeline. The region is entered
  holding every unscoped buffer whole; its windows' arrays are taken out of them, the rest bypasses the region; at the
  exit the arrays come back, the output array at what the grid's write-backs made of it.
-/
import proofs.«147018_j55216099558155_1_alg».proof.Proof.KI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- Region 0 as a segment: entered with every unscoped buffer at the contents before it, left with the output array
    at what the pipeline's write-backs leave and every other buffer as entered. The arrays are split out of the unscoped
    buffers at entry and put back at exit; the generator register goes into the invariant and comes back; nothing is owed. -/
def reg0 (h : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m outs) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := UR sig nD τ) (Lvl := ℕ) spec0 c (V1r m outs c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (V1r m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (V1r m outs c) (V2r m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg1.lean ====
/-
  Region 1 of the entry function as a segment of its run: the protocol around the pipeline. The region is entered
  holding every unscoped buffer whole; its windows' arrays are taken out of them, the rest bypasses the region; at the
  exit the arrays come back, the output array at what the grid's write-backs made of it.
-/
import proofs.«147018_j55216099558155_1_alg».proof.Proof.KI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- Region 1 as a segment: entered with every unscoped buffer at the contents before it, left with the output array
    at what the pipeline's write-backs leave and every other buffer as entered. The arrays are split out of the unscoped
    buffers at entry and put back at exit; the generator register goes into the invariant and comes back; nothing is owed. -/
def reg1 (h : OutsOk m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (V5r m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (V5r m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (V5r m outs c) (V6r m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg2.lean ====
/-
  Region 2 of the entry function as a segment of its run: the protocol around the pipeline. The region is entered
  holding every unscoped buffer whole; its windows' arrays are taken out of them, the rest bypasses the region; at the
  exit the arrays come back, the output array at what the grid's write-backs made of it.
-/
import proofs.«147018_j55216099558155_1_alg».proof.Proof.KI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in
/-- Region 2 as a segment: entered with every unscoped buffer at the contents before it, left with the output array
    at what the pipeline's write-backs leave and every other buffer as entered. The arrays are split out of the unscoped
    buffers at entry and put back at exit; the generator register goes into the invariant and comes back; nothing is owed. -/
def reg2 (h : OutsOk m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9r m outs) c).loose
  hwaits := Pipeline.hwaits_of_owed_zero _ _ _ _ L lv 2 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec2 c (V9r m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (V9r m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (V9r m outs c) (V10r m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg3.lean ====
/-
  Region 3 of the entry function, the decoder, as a segment of its run. Its two input windows read ONE array, the
  embeddings, under two block maps, so the arrays' assertions cannot be indexed by the windows at the full share: the
  core's full share of the embeddings is cut in two halves at the region's entry, one per window (both windows see the
  same contents, and neither is ever written), and the halves are joined again at its exit. The output array is held
  at the full share and comes back at what the grid's write-backs made of it.
-/
import proofs.«147018_j55216099558155_1_alg».proof.Proof.KI.Outs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The two distinct buffers behind the region's three windows. -/
theorem image_arr3 : Finset.univ.image (Pipeline.arrRef spec3) = {main_v50, main_v51} := by decide

/-- A core's unscoped buffers are the two buffers behind the region's windows and the rest. -/
theorem ucBufs_split3 (c : Dev nD) (V : (b : Ref sig .tc) → Buf (Elt F) ((c : Thread nD τ).loc b)) :
    (unscopedBufs c V : sProp 𝕄) = iprop(Pipeline.arrBufs spec3 c V ∗ Pipeline.unscopedRest spec3 c V) := by
  classical
  have hA : Finset.univ.image (Pipeline.arrRef spec3) ⊆ Finset.univ.filter fun b : Ref sig .tc => ¬ b.isScoped := by decide
  unfold unscopedBufs Pipeline.unscopedRest Pipeline.arrBufs
  rw [bigSep_sdiff_split hA]
  rfl

/-- The region's arrays — the embeddings at one half of the full share for each of the two windows that read them, the
    output at the full share — are the two distinct buffers behind them at the full share, when both input windows are
    given the embeddings' contents: a share is the composition of its two halves. -/
theorem arrays3_iff (c : Dev nD) (V' : (c : Dev nD) → (b : Ref sig .tc) → Buf (Elt F) ((c : Thread nD τ).loc b))
    (V : (b : Ref sig .tc) → Buf (Elt F) ((c : Thread nD τ).loc b))
    (Fa : (w : Fin cfg3.W) → Buf (Elt F) ((cfg3.win w).arr.view.loc (c.tc : Thread nD τ)))
    (h0 : Fa 0 = V main_v50) (h1 : Fa 1 = V main_v50) (h2 : Fa 2 = V main_v51) :
    ((dat3 V' c).arrays Fa : sProp 𝕄) ⊣⊢ Pipeline.arrBufs spec3 c V := by
  unfold Pipeline.Dat.arrays Pipeline.arrBufs
  rw [bigSep_W3, image_arr3, bigSep_insert (by decide), bigSep_singleton, h0, h1, h2]
  simp only [(arr_whole3 0).set_eq_univ, (arr_whole3 1).set_eq_univ, (arr_whole3 2).set_eq_univ]
  show iprop(((((c : Thread nD τ).loc main_v50) ↦[Finset.univ]{fullShare.left} V main_v50 : sProp 𝕄))
      ∗ ((((c : Thread nD τ).loc main_v50) ↦[Finset.univ]{fullShare.right} V main_v50))
      ∗ ((((c : Thread nD τ).loc main_v51) ↦[Finset.univ]{fullShare} V main_v51)))
    ⊣⊢ iprop(((((c : Thread nD τ).loc main_v50) ↦[Finset.univ]{fullShare} V main_v50))
      ∗ ((((c : Thread nD τ).loc main_v51) ↦[Finset.univ]{fullShare} V main_v51)))
  have hs : ((((c : Thread nD τ).loc main_v50) ↦[Finset.univ]{fullShare} V main_v50 : sProp 𝕄)) ⊣⊢ iprop((((c : Thread nD τ).loc main_v50) ↦[Finset.univ]{fullShare.left} V main_v50) ∗ (((c : Thread nD τ).loc main_v50) ↦[Finset.univ]{fullShare.right} V main_v50)) :=
    pointsTo_share (PosShare.mem_left_op_right fullShare)
  constructor
  · iintro ⟨Ha, Hb, Hc⟩
    isplitl [Ha Hb]
    · iapply hs.2; isplitl [Ha] <;> iassumption
    · iexact Hc
  · iintro ⟨Hab, Hc⟩
    ihave H := hs.1 $$ Hab
    icases H with ⟨Ha, Hb⟩
    isplitl [Ha]; · iexact Ha
    isplitl [Hb]; · iexact Hb
    iexact Hc

set_option backward.isDefEq.respectTransparency.types false in
/-- Region 3 as a segment. -/
def reg3 (h : OutsOk m outs) : Pipeline.RegionSeg (pcfgs (F := F)) adm (pdats m outs) () defs₀ 𝒱₀ L lv 3 where
  win := winFacts₀3
  block_pos := block_pos3
  stage_whole := stage_whole3
  K := PEmpty
  osem k := k.elim
  ho := Pipeline.OwnSemFacts.none _
  hbody c := (body_obligation3 (V11r m outs) c).loose
  hwaits := Pipeline.hwaits_of_owed_zero _ _ _ _ L lv 3 fun _ _ => rfl
  pre c := iprop(StableHlo.held (c : Thread nD τ) (Pipeline.ucRefs τ sig) (V11 m outs c) ∗ R c)
  post c := iprop(StableHlo.held (c : Thread nD τ) (Pipeline.ucRefs τ sig) (V12 m outs c) ∗ R c)
  X c := iprop(∃ r, prngReg c r)
  Y c := iprop(∃ r, prngReg c r)
  Z c := Pipeline.unscopedRest (Ix := Unit) (Name := ℕ) (U := UR sig nD τ) (Lvl := ℕ) spec3 c (V11r m outs c)
  hentry c := by
    rw [Pipeline.ownSems0_none]
    have hsplit := ucBufs_split3 (F := F) c (V11r m outs c)
    rw [Pipeline.unscopedBufs_held] at hsplit
    have harr := (arrays3_iff (F := F) c (V11r m outs) (V11r m outs c) ((pdats m outs 3 c).arrAt · 0) rfl rfl rfl).2
    have hsplit' := Entails.of_eq hsplit
    iintro ⟨⟨Hub, Hp, HO⟩, -, -⟩
    ihave H := hsplit' $$ Hub
    icases H with ⟨Ha, Hrest⟩
    imodintro
    isplitl [Ha]; · iapply harr; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hsplit := ucBufs_split3 (F := F) c (V12r m outs c)
    rw [Pipeline.unscopedBufs_held] at hsplit
    have harr := (arrays3_iff (F := F) c (V11r m outs) (V12r m outs c) ((pdats m outs 3 c).arrAt · cfg3.N)
      (hF3 m outs h c 0) (hF3 m outs h c 1) (hF3 m outs h c 2)).1
    have hrest : (Pipeline.unscopedRest (Ix := Unit) (Name := ℕ) (U := UR sig nD τ) (Lvl := ℕ) spec3 c (V11r m outs c) : sProp 𝕄)
        = Pipeline.unscopedRest spec3 c (V12r m outs c) := by
      unfold Pipeline.unscopedRest
      exact bigSep_congr fun b hb => by rw [hrest3 m outs c b (Finset.mem_sdiff.mp hb).2]
    have hjoin := Entails.of_eq hsplit.symm
    have hrest' := Entails.of_eq hrest
    iintro ⟨Ha, HO, HY, Hrest⟩
    imodintro
    isplitl [Ha Hrest]
    · iapply hjoin
      isplitl [Ha]
      · iapply harr; iexact Ha
      · iapply hrest'; iexact Hrest
    isplitl [HY]; · iexact HY
    unfold Pipeline.Dat.owesAt Pipeline.owesWithin
    icases HO with ⟨%W, -, HO⟩; iexists W; iexact HO

end Cert.KernelIdeal.Fr

end
-- ==== Proof.KI.Run.lean ====
/-
  The run of the whole entry function: host lines, then four pallas_call regions separated by host lines.
  From any memory with zero counters, every weakly fair execution terminates, without a fault, in a memory that
  holds every unscoped buffer at the last valuation of the chain "launch contents, host lines' result, a region's
  output replaced by what its write-backs leave, …". No item writes an argument array, so the arguments end as launched.
-/
import proofs.«147018_j55216099558155_1_alg».proof.Proof.KI.Reg0
import proofs.«147018_j55216099558155_1_alg».proof.Proof.KI.Reg1
import proofs.«147018_j55216099558155_1_alg».proof.Proof.KI.Reg2
import proofs.«147018_j55216099558155_1_alg».proof.Proof.KI.Reg3

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (outs : Outs (F := F))

/-- An unscoped TensorCore reference is among those the core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last region's exit state is the last valuation's buffers and the generator register, beside a core that owes nothing. -/
theorem last_step (c : Dev nD) :
    (iprop(StableHlo.held (c : Thread nD τ) (Pipeline.ucRefs τ sig) (V12 m outs c) ∗ R c) : sProp 𝕄)
      ⊢ iprop((StableHlo.held (c : Thread nD τ) (Pipeline.ucRefs τ sig) (V12 m outs c) ∗ ∃ r, prngReg c r)
        ∗ ∃ W, owes (c : Thread nD τ) (0 : CellTallies nD τ sig Unit) W) := by
  iintro ⟨Hh, Hp, Ho⟩
  isplitl [Hh Hp]
  · isplitl [Hh] <;> iassumption
  · iexact Ho

set_option backward.isDefEq.respectTransparency.types false in
/-- THE RUN: every weakly fair execution of the entry function terminates, nothing faulting, and the final memory holds
    every unscoped buffer of every core at the last valuation. -/
theorem run (ρ : Dev nD → PrngReg) (h : OutsOk m outs) :
    θ_run defs (onTc (τ := τ) (main (F := F))) ⟨m, fun _ => 0, ρ⟩ (fun r => ∀ c : Dev nD, ∀ b ∈ Pipeline.ucRefs τ sig,
      r.2.mem (((c : Thread nD τ)).1, b) = V12 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs h) (reg1 m outs h) (reg2 m outs h) (reg3 m outs h))
    (fun c Q => by
      rewrite [main_chain c, Seg.run_eq_chain,
        show (segs m outs 𝒱₀ L lv E () (pdats m outs) (reg0 m outs h) (reg1 m outs h) (reg2 m outs h) (reg3 m outs h) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (fun _ => 0) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m outs c) ∗ ∃ r, prngReg c r))
    (hch := fun c => ⟨.rfl, .rfl, .rfl, .rfl, .rfl, .rfl, .rfl, .rfl, .rfl, .rfl, .rfl, .rfl, last_step m outs c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m outs c b)
    (hfin := fun c s' => by
      iintro ⟨⟨Hh, -⟩, HSI⟩
      unfold StableHlo.held
      imodintro
      iapply (pointsTo_read_all (Pipeline.ucRefs τ sig) (fun b => (((c : Thread nD τ)).1, b)) (V12 m outs c) s')
      isplitl [Hh] <;> iassumption)
    (hQ := fun s h => h)

/-- THE FRAME: every weakly fair execution terminates, nothing faulting, and the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  obtain ⟨outs, h⟩ := exists_outs m
  refine (θ_run defs _ _).mono (fun r hr c => ?_) (run m outs ρ h)
  exact ⟨(hr c _ (mem_uc main_arg0 (by decide))).trans (V12_main_arg0 m outs c),
    (hr c _ (mem_uc main_arg1 (by decide))).trans (V12_main_arg1 m outs c),
    (hr c _ (mem_uc main_arg2 (by decide))).trans (V12_main_arg2 m outs c),
    (hr c _ (mem_uc main_arg3 (by decide))).trans (V12_main_arg3 m outs c),
    (hr c _ (mem_uc main_arg4 (by decide))).trans (V12_main_arg4 m outs c),
    (hr c _ (mem_uc main_arg5 (by decide))).trans (V12_main_arg5 m outs c),
    (hr c _ (mem_uc main_arg6 (by decide))).trans (V12_main_arg6 m outs c)⟩

end Cert.KernelIdeal.Fr

end
-- ==== Proof.Spec.lean ====
/-
  The two whole-array functions every product in this certificate is compared with, on the extended reals.

  `mm A B` is the textbook product of an M by K array with a K by N array: entry (p, q) is the sum over k of
  A (p, k) * B (k, q). `dec Z` is the dot-product decoder of an M by K array of node embeddings: entry (p, q) is the
  logistic function of the inner product of rows p and q of Z. Both are stated index by index over literal
  two-axis shapes, the index of an operand built from coordinates.
-/
import Idealize.ShloMosaic.PureOps.Ideal
import Idealize.ShloMosaic.Lib.ValueIdx

noncomputable section

open scoped BigOperators

namespace Cert.Spec

open Idealize.ShloMosaic Idealize.ShloMosaic.ValueIdx

/-- The product of an M by K array with a K by N array. -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The logistic function of the inner products of the rows of an M by K array. -/
def dec {M K : Nat} (Z : (⟨2, ![M, K]⟩ : Shape).Idx → EReal) : (⟨2, ![M, M]⟩ : Shape).Idx → EReal :=
  fun i => Ideal.logistic (∑ k : Fin K, Z (ix2 (i 0) k) * Z (ix2 (i 1) k))

theorem mm_apply {M K N : Nat} (A : (⟨2, ![M, K]⟩ : Shape).Idx → EReal) (B : (⟨2, ![K, N]⟩ : Shape).Idx → EReal)
    (p : Fin M) (q : Fin N) : mm A B (ix2 p q) = ∑ k : Fin K, A (ix2 p k) * B (ix2 k q) := rfl

theorem dec_apply {M K : Nat} (Z : (⟨2, ![M, K]⟩ : Shape).Idx → EReal) (p q : Fin M) :
    dec Z (ix2 p q) = Ideal.logistic (∑ k : Fin K, Z (ix2 p k) * Z (ix2 q k)) := rfl

end Cert.Spec

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.KI.Final0.lean ====
/-
  Region 0 of the entry function, the array's half: the array the first matrix product leaves.

  The region's grid has twelve points. Point t takes rows 1024 t .. 1024 t + 1023 of the left array ([12288, 1433]),
  the whole right array ([1433, 32]), and writes rows 1024 t .. 1024 t + 1023 of the output array ([12288, 32]).
  At the ideal instance the body's value at entry (p, q) of its block is the sum over k of the products of row p of the
  left block with column q of the right one, so what point t writes back is block t of the textbook product of the two
  arrays; row r of the output lies in the block of point r / 1024, so the twelve blocks cover the array and it ends
  holding the product, whole.
-/
import proofs.«147018_j55216099558155_1_alg».proof.Proof.KI.Body0
import proofs.«147018_j55216099558155_1_alg».proof.Proof.Spec
import proofs.«147018_j55216099558155_1_alg».proof.Proof.LibMatmulPlain
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz0 : (![0, 0] : Fin 2 → Nat) = fun _ => 0 := funext fun a => by fin_cases a <;> rfl

theorem lhs0_0 (i : S1024x32.Idx) (q : (dot_S1024x1433_S1433x32_S1024x32_1_0_0_1_n_n).contr.Idx) :
    ((dot_S1024x1433_S1433x32_S1024x32_1_0_0_1_n_n).lhsIdx i q 0).val = (i 0).val := by
  unfold DotDims.lhsIdx
  rw [dif_neg (show ¬(0 : Fin S1024x1433.rank) ∈ (dot_S1024x1433_S1433x32_S1024x32_1_0_0_1_n_n).lhsBatch by decide), dif_pos (show (0 : Fin S1024x1433.rank) ∈ (dot_S1024x1433_S1433x32_S1024x32_1_0_0_1_n_n).lhsNonContracting by decide)]
  rfl
theorem lhs0_1 (i : S1024x32.Idx) (q : (dot_S1024x1433_S1433x32_S1024x32_1_0_0_1_n_n).contr.Idx) :
    ((dot_S1024x1433_S1433x32_S1024x32_1_0_0_1_n_n).lhsIdx i q 1).val = (q ⟨0, by decide⟩).val :=
  (dot_S1024x1433_S1433x32_S1024x32_1_0_0_1_n_n).lhsIdx_val_of_single rfl i q
theorem rhs0_0 (i : S1024x32.Idx) (q : (dot_S1024x1433_S1433x32_S1024x32_1_0_0_1_n_n).contr.Idx) :
    ((dot_S1024x1433_S1433x32_S1024x32_1_0_0_1_n_n).rhsIdx i q 0).val = (q ⟨0, by decide⟩).val :=
  (dot_S1024x1433_S1433x32_S1024x32_1_0_0_1_n_n).rhsIdx_val_of_single rfl i q
theorem rhs0_1 (i : S1024x32.Idx) (q : (dot_S1024x1433_S1433x32_S1024x32_1_0_0_1_n_n).contr.Idx) :
    ((dot_S1024x1433_S1433x32_S1024x32_1_0_0_1_n_n).rhsIdx i q 1).val = (i 1).val := by
  unfold DotDims.rhsIdx
  rw [dif_neg (show ¬(1 : Fin S1433x32.rank) ∈ (dot_S1024x1433_S1433x32_S1024x32_1_0_0_1_n_n).rhsBatch by decide), dif_pos (show (1 : Fin S1433x32.rank) ∈ (dot_S1024x1433_S1433x32_S1024x32_1_0_0_1_n_n).rhsNonContracting by decide)]
  rfl

/-- The body's value at entry (p, q): the sum over k of x0 (p, k) * x1 (k, q). -/
theorem pay0_apply (x0 : Vec Ideal S1024x1433 .bf16) (x1 : Vec Ideal S1433x32 .bf16) (p : Fin 1024) (q : Fin 32) :
    k0_pay1 (F := Ideal) x0 x1 (ix2 p q) = ∑ k : Fin 1433, x0 (ix2 p k) * x1 (ix2 k q) := by
  unfold k0_pay1
  simp only [shapeCast_self]
  exact MatmulPlain.matmul_zero_apply dot_S1024x1433_S1433x32_S1024x32_1_0_0_1_n_n none rfl rfl lhs0_0 lhs0_1 rhs0_0 rhs0_1 x0 x1 p q

/-- What the body leaves in the output's staging buffer is its value of the two input blocks. -/
theorem out0_2_eq {F : FTy → Type} [FloatOps F] (x0 : Vec F S1024x1433 .bf16) (x1 : Vec F S1433x32 .bf16) : out0_2 x0 x1 = k0_pay1 x0 x1 := by
  unfold out0_2
  rw [View.canon_unit_zero hz0]
  simp only [View.ld_unit_zero (S := S1024x1433) hz0, View.ld_unit_zero (S := S1433x32) hz0]

variable (V : (c : Dev nD) → (b : Ref sig .tc) → Buf (Elt Ideal) ((c : Thread nD τ).loc b))

/-- The block index maps, decided over the twelve points: the left operand's and the output's blocks move down with
    the point, the right operand's block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 1024 t .. 1024 t + 1023 of its array. -/
theorem iblk0_0_apply (c : Dev nD) (t : Fin cfg0.N) (p : Fin 1024) (k : Fin 1433) (r : Fin 12288)
    (hr : r.val = 1024 * t.val + p.val) :
    (iblk0 V c 0 t : Vec Ideal S1024x1433 .bf16) (ix2 p k) = (V c main_v0 : S12288x1433.Idx → EReal) (ix2 r k) := by
  obtain ⟨e0, e1, -⟩ := idx0 t
  unfold iblk0
  rw [View.read_apply]
  show (V c main_v0 : S12288x1433.Idx → EReal) _ = _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1433 + 1 * k.val = k.val; rw [e1]; omega

/-- The right operand's block at every point is its whole array. -/
theorem iblk0_1_apply (c : Dev nD) (t : Fin cfg0.N) (k : Fin 1433) (q : Fin 32) :
    (iblk0 V c 1 t : Vec Ideal S1433x32 .bf16) (ix2 k q) = (V c main_v1 : S1433x32.Idx → EReal) (ix2 k q) := by
  obtain ⟨-, -, e0, e1, -⟩ := idx0 t
  unfold iblk0
  rw [View.read_apply]
  show (V c main_v1 : S1433x32.Idx → EReal) _ = _
  congr 1
  funext a
  apply Fin.ext
  match a with
  | ⟨0, _⟩ => show win0_1.index t (0 : Fin 2) * 1433 + 1 * k.val = k.val; rw [e0]; omega
  | ⟨1, _⟩ => show win0_1.index t (1 : Fin 2) * 32 + 1 * q.val = q.val; rw [e1]; omega

/-- Entry (p, q) of the output's block at point t sits at row 1024 t + p, column q of the array. -/
theorem emb0_2 (t : Fin cfg0.N) (p : Fin 1024) (q : Fin 32) (r : Fin 12288) (hr : r.val = 1024 * t.val + p.val) :
    ((cfg0.win 2).blk t).view.emb (ix2 p q : S1024x32.Idx) = (ix2 r q : S12288x32.Idx) := by
  obtain ⟨-, -, -, -, e0, e1⟩ := idx0 t
  funext a
  apply Fin.ext
  match a with
  | ⟨0, _⟩ => show win0_2.index t (0 : Fin 2) * 1024 + 1 * p.val = r.val; rw [e0, hr]; omega
  | ⟨1, _⟩ => show win0_2.index t (1 : Fin 2) * 32 + 1 * q.val = q.val; rw [e1]; omega

/-- What point t writes back is block t of the product of the two arrays the region finds. -/
theorem flushed0_eq (c : Dev nD) (t : Fin cfg0.N) :
    (dat0 (F := Ideal) V c).flushed 2 t
      = ((cfg0.win 2).blk t).view.read (Elt Ideal)
          (Cert.Spec.mm (V c main_v0 : S12288x1433.Idx → EReal) (V c main_v1 : S1433x32.Idx → EReal)) := by
  show (cfg0.win 2).cut (grid0.coords t) ((dat0 (F := Ideal) V c).after 2 t) = _
  rw [after0_2, out0_2_eq]
  funext j
  obtain ⟨p, q, rfl⟩ : ∃ (p : Fin 1024) (q : Fin 32), j = ix2 p q := ⟨j 0, j 1, eq_ix2 j⟩
  have hN : cfg0.N = 12 := N_0
  have ht : t.val < 12 := hN ▸ t.isLt
  have hp : p.val < 1024 := p.isLt
  show k0_pay1 (F := Ideal) (iblk0 V c 0 t) (iblk0 V c 1 t) (ix2 p q)
    = Cert.Spec.mm (V c main_v0 : S12288x1433.Idx → EReal) (V c main_v1 : S1433x32.Idx → EReal)
        (((cfg0.win 2).blk t).view.emb (ix2 p q : S1024x32.Idx))
  rw [emb0_2 t p q ⟨1024 * t.val + p.val, by omega⟩ rfl, Cert.Spec.mm_apply]
  refine (pay0_apply (iblk0 V c 0 t) (iblk0 V c 1 t) p q).trans ?_
  refine Finset.sum_congr rfl fun k _ => ?_
  rw [iblk0_0_apply V c t p k ⟨1024 * t.val + p.val, by omega⟩ rfl, iblk0_1_apply V c t k q]

/-- An index of the array is in point t's block iff each coordinate is in the block's range on its axis. -/
theorem mem_blk0_2 (t : Fin cfg0.N) (i : S12288x32.Idx) :
    i ∈ ((cfg0.win 2).blk t).view.set ↔ ∀ a : Fin 2, win0_2.index t a * S1024x32.size a ≤ (i a).val ∧ (i a).val < win0_2.index t a * S1024x32.size a + S1024x32.size a := by
  show i ∈ ((View.whole main_v2).slice (win0_2.rect t)).set ↔ _
  rw [View.set_slice_whole, Rect.mem_set_unit]
  exact Iff.rfl

/-- Every index of the array is in some point's block: row r is in the block of point r / 1024. -/
theorem covered0_2 (i : S12288x32.Idx) :
    ∃ t : Fin cfg0.N, (cfg0.win 2).flush t = true ∧ i ∈ ((cfg0.win 2).blk t).view.set := by
  have hN : cfg0.N = 12 := N_0
  have hi0 : (i 0).val < 12288 := (i 0).isLt
  have hi1 : (i 1).val < 32 := (i 1).isLt
  let t : Fin cfg0.N := ⟨(i 0).val / 1024, by rw [hN]; omega⟩
  have htv : t.val = (i 0).val / 1024 := rfl
  obtain ⟨-, -, -, -, e0, e1⟩ := idx0 t
  refine ⟨t, flush0_2 t, ?_⟩
  rw [mem_blk0_2]
  intro a
  match a with
  | ⟨0, _⟩ => show win0_2.index t (0 : Fin 2) * 1024 ≤ (i 0).val ∧ (i 0).val < win0_2.index t (0 : Fin 2) * 1024 + 1024; rw [e0, htv]; omega
  | ⟨1, _⟩ => show win0_2.index t (1 : Fin 2) * 32 ≤ (i 1).val ∧ (i 1).val < win0_2.index t (1 : Fin 2) * 32 + 32; rw [e1]; omega

/-- THE ARRAY the first matrix product leaves: the textbook product of the two arrays the region finds. -/
theorem final0 (c : Dev nD) :
    (Fr.dat0 (F := Ideal) V c).arrAt 2 cfg0.N
      = Cert.Spec.mm (V c main_v0 : S12288x1433.Idx → EReal) (V c main_v1 : S1433x32.Idx → EReal) :=
  (dat0 (F := Ideal) V c).arrAt_eq_of_cover 2 _ (fun t _ => flushed0_eq V c t) covered0_2

end Cert.KernelIdeal.Val

end
-- ==== Proof.KI.Final1.lean ====
/-
  Region 1 of the entry function, the array's half: the array the second matrix product leaves.

  The region's grid has twelve points. Point t takes rows 1024 t .. 1024 t + 1023 of the left array ([12288, 32]),
  the whole right array ([32, 32]), and writes rows 1024 t .. 1024 t + 1023 of the output array ([12288, 32]).
  At the ideal instance the body's value at entry (p, q) of its block is the sum over k of the products of row p of the
  left block with column q of the right one, so what point t writes back is block t of the textbook product of the two
  arrays; row r of the output lies in the block of point r / 1024, so the twelve blocks cover the array and it ends
  holding the product, whole.
-/
import proofs.«147018_j55216099558155_1_alg».proof.Proof.KI.Body1
import proofs.«147018_j55216099558155_1_alg».proof.Proof.Spec
import proofs.«147018_j55216099558155_1_alg».proof.Proof.LibMatmulPlain
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz1 : (![0, 0] : Fin 2 → Nat) = fun _ => 0 := funext fun a => by fin_cases a <;> rfl

theorem lhs1_0 (i : S1024x32.Idx) (q : (dot_S1024x32_S32x32_S1024x32_1_0_0_1_n_n).contr.Idx) :
    ((dot_S1024x32_S32x32_S1024x32_1_0_0_1_n_n).lhsIdx i q 0).val = (i 0).val := by
  unfold DotDims.lhsIdx
  rw [dif_neg (show ¬(0 : Fin S1024x32.rank) ∈ (dot_S1024x32_S32x32_S1024x32_1_0_0_1_n_n).lhsBatch by decide), dif_pos (show (0 : Fin S1024x32.rank) ∈ (dot_S1024x32_S32x32_S1024x32_1_0_0_1_n_n).lhsNonContracting by decide)]
  rfl
theorem lhs1_1 (i : S1024x32.Idx) (q : (dot_S1024x32_S32x32_S1024x32_1_0_0_1_n_n).contr.Idx) :
    ((dot_S1024x32_S32x32_S1024x32_1_0_0_1_n_n).lhsIdx i q 1).val = (q ⟨0, by decide⟩).val :=
  (dot_S1024x32_S32x32_S1024x32_1_0_0_1_n_n).lhsIdx_val_of_single rfl i q
theorem rhs1_0 (i : S1024x32.Idx) (q : (dot_S1024x32_S32x32_S1024x32_1_0_0_1_n_n).contr.Idx) :
    ((dot_S1024x32_S32x32_S1024x32_1_0_0_1_n_n).rhsIdx i q 0).val = (q ⟨0, by decide⟩).val :=
  (dot_S1024x32_S32x32_S1024x32_1_0_0_1_n_n).rhsIdx_val_of_single rfl i q
theorem rhs1_1 (i : S1024x32.Idx) (q : (dot_S1024x32_S32x32_S1024x32_1_0_0_1_n_n).contr.Idx) :
    ((dot_S1024x32_S32x32_S1024x32_1_0_0_1_n_n).rhsIdx i q 1).val = (i 1).val := by
  unfold DotDims.rhsIdx
  rw [dif_neg (show ¬(1 : Fin S32x32.rank) ∈ (dot_S1024x32_S32x32_S1024x32_1_0_0_1_n_n).rhsBatch by decide), dif_pos (show (1 : Fin S32x32.rank) ∈ (dot_S1024x32_S32x32_S1024x32_1_0_0_1_n_n).rhsNonContracting by decide)]
  rfl

/-- The body's value at entry (p, q): the sum over k of x0 (p, k) * x1 (k, q). -/
theorem pay1_apply (x0 : Vec Ideal S1024x32 .bf16) (x1 : Vec Ideal S32x32 .bf16) (p : Fin 1024) (q : Fin 32) :
    k1_pay1 (F := Ideal) x0 x1 (ix2 p q) = ∑ k : Fin 32, x0 (ix2 p k) * x1 (ix2 k q) := by
  unfold k1_pay1
  simp only [shapeCast_self]
  exact MatmulPlain.matmul_zero_apply dot_S1024x32_S32x32_S1024x32_1_0_0_1_n_n none rfl rfl lhs1_0 lhs1_1 rhs1_0 rhs1_1 x0 x1 p q

/-- What the body leaves in the output's staging buffer is its value of the two input blocks. -/
theorem out1_2_eq {F : FTy → Type} [FloatOps F] (x0 : Vec F S1024x32 .bf16) (x1 : Vec F S32x32 .bf16) : out1_2 x0 x1 = k1_pay1 x0 x1 := by
  unfold out1_2
  rw [View.canon_unit_zero hz1]
  simp only [View.ld_unit_zero (S := S1024x32) hz1, View.ld_unit_zero (S := S32x32) hz1]

variable (V : (c : Dev nD) → (b : Ref sig .tc) → Buf (Elt Ideal) ((c : Thread nD τ).loc b))

/-- The block index maps, decided over the twelve points: the left operand's and the output's blocks move down with
    the point, the right operand's block is the whole array. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 1024 t .. 1024 t + 1023 of its array. -/
theorem iblk1_0_apply (c : Dev nD) (t : Fin cfg1.N) (p : Fin 1024) (k : Fin 32) (r : Fin 12288)
    (hr : r.val = 1024 * t.val + p.val) :
    (iblk1 V c 0 t : Vec Ideal S1024x32 .bf16) (ix2 p k) = (V c main_v17 : S12288x32.Idx → EReal) (ix2 r k) := by
  obtain ⟨e0, e1, -⟩ := idx1 t
  unfold iblk1
  rw [View.read_apply]
  show (V c main_v17 : S12288x32.Idx → EReal) _ = _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 32 + 1 * k.val = k.val; rw [e1]; omega

/-- The right operand's block at every point is its whole array. -/
theorem iblk1_1_apply (c : Dev nD) (t : Fin cfg1.N) (k : Fin 32) (q : Fin 32) :
    (iblk1 V c 1 t : Vec Ideal S32x32 .bf16) (ix2 k q) = (V c main_v18 : S32x32.Idx → EReal) (ix2 k q) := by
  obtain ⟨-, -, e0, e1, -⟩ := idx1 t
  unfold iblk1
  rw [View.read_apply]
  show (V c main_v18 : S32x32.Idx → EReal) _ = _
  congr 1
  funext a
  apply Fin.ext
  match a with
  | ⟨0, _⟩ => show win1_1.index t (0 : Fin 2) * 32 + 1 * k.val = k.val; rw [e0]; omega
  | ⟨1, _⟩ => show win1_1.index t (1 : Fin 2) * 32 + 1 * q.val = q.val; rw [e1]; omega

/-- Entry (p, q) of the output's block at point t sits at row 1024 t + p, column q of the array. -/
theorem emb1_2 (t : Fin cfg1.N) (p : Fin 1024) (q : Fin 32) (r : Fin 12288) (hr : r.val = 1024 * t.val + p.val) :
    ((cfg1.win 2).blk t).view.emb (ix2 p q : S1024x32.Idx) = (ix2 r q : S12288x32.Idx) := by
  obtain ⟨-, -, -, -, e0, e1⟩ := idx1 t
  funext a
  apply Fin.ext
  match a with
  | ⟨0, _⟩ => show win1_2.index t (0 : Fin 2) * 1024 + 1 * p.val = r.val; rw [e0, hr]; omega
  | ⟨1, _⟩ => show win1_2.index t (1 : Fin 2) * 32 + 1 * q.val = q.val; rw [e1]; omega

/-- What point t writes back is block t of the product of the two arrays the region finds. -/
theorem flushed1_eq (c : Dev nD) (t : Fin cfg1.N) :
    (dat1 (F := Ideal) V c).flushed 2 t
      = ((cfg1.win 2).blk t).view.read (Elt Ideal)
          (Cert.Spec.mm (V c main_v17 : S12288x32.Idx → EReal) (V c main_v18 : S32x32.Idx → EReal)) := by
  show (cfg1.win 2).cut (grid1.coords t) ((dat1 (F := Ideal) V c).after 2 t) = _
  rw [after1_2, out1_2_eq]
  funext j
  obtain ⟨p, q, rfl⟩ : ∃ (p : Fin 1024) (q : Fin 32), j = ix2 p q := ⟨j 0, j 1, eq_ix2 j⟩
  have hN : cfg1.N = 12 := N_1
  have ht : t.val < 12 := hN ▸ t.isLt
  have hp : p.val < 1024 := p.isLt
  show k1_pay1 (F := Ideal) (iblk1 V c 0 t) (iblk1 V c 1 t) (ix2 p q)
    = Cert.Spec.mm (V c main_v17 : S12288x32.Idx → EReal) (V c main_v18 : S32x32.Idx → EReal)
        (((cfg1.win 2).blk t).view.emb (ix2 p q : S1024x32.Idx))
  rw [emb1_2 t p q ⟨1024 * t.val + p.val, by omega⟩ rfl, Cert.Spec.mm_apply]
  refine (pay1_apply (iblk1 V c 0 t) (iblk1 V c 1 t) p q).trans ?_
  refine Finset.sum_congr rfl fun k _ => ?_
  rw [iblk1_0_apply V c t p k ⟨1024 * t.val + p.val, by omega⟩ rfl, iblk1_1_apply V c t k q]

/-- An index of the array is in point t's block iff each coordinate is in the block's range on its axis. -/
theorem mem_blk1_2 (t : Fin cfg1.N) (i : S12288x32.Idx) :
    i ∈ ((cfg1.win 2).blk t).view.set ↔ ∀ a : Fin 2, win1_2.index t a * S1024x32.size a ≤ (i a).val ∧ (i a).val < win1_2.index t a * S1024x32.size a + S1024x32.size a := by
  show i ∈ ((View.whole main_v19).slice (win1_2.rect t)).set ↔ _
  rw [View.set_slice_whole, Rect.mem_set_unit]
  exact Iff.rfl

/-- Every index of the array is in some point's block: row r is in the block of point r / 1024. -/
theorem covered1_2 (i : S12288x32.Idx) :
    ∃ t : Fin cfg1.N, (cfg1.win 2).flush t = true ∧ i ∈ ((cfg1.win 2).blk t).view.set := by
  have hN : cfg1.N = 12 := N_1
  have hi0 : (i 0).val < 12288 := (i 0).isLt
  have hi1 : (i 1).val < 32 := (i 1).isLt
  let t : Fin cfg1.N := ⟨(i 0).val / 1024, by rw [hN]; omega⟩
  have htv : t.val = (i 0).val / 1024 := rfl
  obtain ⟨-, -, -, -, e0, e1⟩ := idx1 t
  refine ⟨t, flush1_2 t, ?_⟩
  rw [mem_blk1_2]
  intro a
  match a with
  | ⟨0, _⟩ => show win1_2.index t (0 : Fin 2) * 1024 ≤ (i 0).val ∧ (i 0).val < win1_2.index t (0 : Fin 2) * 1024 + 1024; rw [e0, htv]; omega
  | ⟨1, _⟩ => show win1_2.index t (1 : Fin 2) * 32 ≤ (i 1).val ∧ (i 1).val < win1_2.index t (1 : Fin 2) * 32 + 32; rw [e1]; omega

/-- THE ARRAY the second matrix product leaves: the textbook product of the two arrays the region finds. -/
theorem final1 (c : Dev nD) :
    (Fr.dat1 (F := Ideal) V c).arrAt 2 cfg1.N
      = Cert.Spec.mm (V c main_v17 : S12288x32.Idx → EReal) (V c main_v18 : S32x32.Idx → EReal) :=
  (dat1 (F := Ideal) V c).arrAt_eq_of_cover 2 _ (fun t _ => flushed1_eq V c t) covered1_2

end Cert.KernelIdeal.Val

end
-- ==== Proof.KI.Final2.lean ====
/-
  Region 2 of the entry function, the array's half: the array the third matrix product leaves.

  The region's grid has twelve points. Point t takes rows 1024 t .. 1024 t + 1023 of the left array ([12288, 32]),
  the whole right array ([32, 16]), and writes rows 1024 t .. 1024 t + 1023 of the output array ([12288, 16]).
  At the ideal instance the body's value at entry (p, q) of its block is the sum over k of the products of row p of the
  left block with column q of the right one, so what point t writes back is block t of the textbook product of the two
  arrays; row r of the output lies in the block of point r / 1024, so the twelve blocks cover the array and it ends
  holding the product, whole.
-/
import proofs.«147018_j55216099558155_1_alg».proof.Proof.KI.Body2
import proofs.«147018_j55216099558155_1_alg».proof.Proof.Spec
import proofs.«147018_j55216099558155_1_alg».proof.Proof.LibMatmulPlain
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

theorem hz2 : (![0, 0] : Fin 2 → Nat) = fun _ => 0 := funext fun a => by fin_cases a <;> rfl

theorem lhs2_0 (i : S1024x16.Idx) (q : (dot_S1024x32_S32x16_S1024x16_1_0_0_1_n_n).contr.Idx) :
    ((dot_S1024x32_S32x16_S1024x16_1_0_0_1_n_n).lhsIdx i q 0).val = (i 0).val := by
  unfold DotDims.lhsIdx
  rw [dif_neg (show ¬(0 : Fin S1024x32.rank) ∈ (dot_S1024x32_S32x16_S1024x16_1_0_0_1_n_n).lhsBatch by decide), dif_pos (show (0 : Fin S1024x32.rank) ∈ (dot_S1024x32_S32x16_S1024x16_1_0_0_1_n_n).lhsNonContracting by decide)]
  rfl
theorem lhs2_1 (i : S1024x16.Idx) (q : (dot_S1024x32_S32x16_S1024x16_1_0_0_1_n_n).contr.Idx) :
    ((dot_S1024x32_S32x16_S1024x16_1_0_0_1_n_n).lhsIdx i q 1).val = (q ⟨0, by decide⟩).val :=
  (dot_S1024x32_S32x16_S1024x16_1_0_0_1_n_n).lhsIdx_val_of_single rfl i q
theorem rhs2_0 (i : S1024x16.Idx) (q : (dot_S1024x32_S32x16_S1024x16_1_0_0_1_n_n).contr.Idx) :
    ((dot_S1024x32_S32x16_S1024x16_1_0_0_1_n_n).rhsIdx i q 0).val = (q ⟨0, by decide⟩).val :=
  (dot_S1024x32_S32x16_S1024x16_1_0_0_1_n_n).rhsIdx_val_of_single rfl i q
theorem rhs2_1 (i : S1024x16.Idx) (q : (dot_S1024x32_S32x16_S1024x16_1_0_0_1_n_n).contr.Idx) :
    ((dot_S1024x32_S32x16_S1024x16_1_0_0_1_n_n).rhsIdx i q 1).val = (i 1).val := by
  unfold DotDims.rhsIdx
  rw [dif_neg (show ¬(1 : Fin S32x16.rank) ∈ (dot_S1024x32_S32x16_S1024x16_1_0_0_1_n_n).rhsBatch by decide), dif_pos (show (1 : Fin S32x16.rank) ∈ (dot_S1024x32_S32x16_S1024x16_1_0_0_1_n_n).rhsNonContracting by decide)]
  rfl

/-- The body's value at entry (p, q): the sum over k of x0 (p, k) * x1 (k, q). -/
theorem pay2_apply (x0 : Vec Ideal S1024x32 .bf16) (x1 : Vec Ideal S32x16 .bf16) (p : Fin 1024) (q : Fin 16) :
    k2_pay1 (F := Ideal) x0 x1 (ix2 p q) = ∑ k : Fin 32, x0 (ix2 p k) * x1 (ix2 k q) := by
  unfold k2_pay1
  simp only [shapeCast_self]
  exact MatmulPlain.matmul_zero_apply dot_S1024x32_S32x16_S1024x16_1_0_0_1_n_n none rfl rfl lhs2_0 lhs2_1 rhs2_0 rhs2_1 x0 x1 p q

/-- What the body leaves in the output's staging buffer is its value of the two input blocks. -/
theorem out2_2_eq {F : FTy → Type} [FloatOps F] (x0 : Vec F S1024x32 .bf16) (x1 : Vec F S32x16 .bf16) : out2_2 x0 x1 = k2_pay1 x0 x1 := by
  unfold out2_2
  rw [View.canon_unit_zero hz2]
  simp only [View.ld_unit_zero (S := S1024x32) hz2, View.ld_unit_zero (S := S32x16) hz2]

variable (V : (c : Dev nD) → (b : Ref sig .tc) → Buf (Elt Ideal) ((c : Thread nD τ).loc b))

/-- The block index maps, decided over the twelve points: the left operand's and the output's blocks move down with
    the point, the right operand's block is the whole array. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 1024 t .. 1024 t + 1023 of its array. -/
theorem iblk2_0_apply (c : Dev nD) (t : Fin cfg2.N) (p : Fin 1024) (k : Fin 32) (r : Fin 12288)
    (hr : r.val = 1024 * t.val + p.val) :
    (iblk2 V c 0 t : Vec Ideal S1024x32 .bf16) (ix2 p k) = (V c main_v34 : S12288x32.Idx → EReal) (ix2 r k) := by
  obtain ⟨e0, e1, -⟩ := idx2 t
  unfold iblk2
  rw [View.read_apply]
  show (V c main_v34 : S12288x32.Idx → EReal) _ = _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 32 + 1 * k.val = k.val; rw [e1]; omega

/-- The right operand's block at every point is its whole array. -/
theorem iblk2_1_apply (c : Dev nD) (t : Fin cfg2.N) (k : Fin 32) (q : Fin 16) :
    (iblk2 V c 1 t : Vec Ideal S32x16 .bf16) (ix2 k q) = (V c main_v35 : S32x16.Idx → EReal) (ix2 k q) := by
  obtain ⟨-, -, e0, e1, -⟩ := idx2 t
  unfold iblk2
  rw [View.read_apply]
  show (V c main_v35 : S32x16.Idx → EReal) _ = _
  congr 1
  funext a
  apply Fin.ext
  match a with
  | ⟨0, _⟩ => show win2_1.index t (0 : Fin 2) * 32 + 1 * k.val = k.val; rw [e0]; omega
  | ⟨1, _⟩ => show win2_1.index t (1 : Fin 2) * 16 + 1 * q.val = q.val; rw [e1]; omega

/-- Entry (p, q) of the output's block at point t sits at row 1024 t + p, column q of the array. -/
theorem emb2_2 (t : Fin cfg2.N) (p : Fin 1024) (q : Fin 16) (r : Fin 12288) (hr : r.val = 1024 * t.val + p.val) :
    ((cfg2.win 2).blk t).view.emb (ix2 p q : S1024x16.Idx) = (ix2 r q : S12288x16.Idx) := by
  obtain ⟨-, -, -, -, e0, e1⟩ := idx2 t
  funext a
  apply Fin.ext
  match a with
  | ⟨0, _⟩ => show win2_2.index t (0 : Fin 2) * 1024 + 1 * p.val = r.val; rw [e0, hr]; omega
  | ⟨1, _⟩ => show win2_2.index t (1 : Fin 2) * 16 + 1 * q.val = q.val; rw [e1]; omega

/-- What point t writes back is block t of the product of the two arrays the region finds. -/
theorem flushed2_eq (c : Dev nD) (t : Fin cfg2.N) :
    (dat2 (F := Ideal) V c).flushed 2 t
      = ((cfg2.win 2).blk t).view.read (Elt Ideal)
          (Cert.Spec.mm (V c main_v34 : S12288x32.Idx → EReal) (V c main_v35 : S32x16.Idx → EReal)) := by
  show (cfg2.win 2).cut (grid2.coords t) ((dat2 (F := Ideal) V c).after 2 t) = _
  rw [after2_2, out2_2_eq]
  funext j
  obtain ⟨p, q, rfl⟩ : ∃ (p : Fin 1024) (q : Fin 16), j = ix2 p q := ⟨j 0, j 1, eq_ix2 j⟩
  have hN : cfg2.N = 12 := N_2
  have ht : t.val < 12 := hN ▸ t.isLt
  have hp : p.val < 1024 := p.isLt
  show k2_pay1 (F := Ideal) (iblk2 V c 0 t) (iblk2 V c 1 t) (ix2 p q)
    = Cert.Spec.mm (V c main_v34 : S12288x32.Idx → EReal) (V c main_v35 : S32x16.Idx → EReal)
        (((cfg2.win 2).blk t).view.emb (ix2 p q : S1024x16.Idx))
  rw [emb2_2 t p q ⟨1024 * t.val + p.val, by omega⟩ rfl, Cert.Spec.mm_apply]
  refine (pay2_apply (iblk2 V c 0 t) (iblk2 V c 1 t) p q).trans ?_
  refine Finset.sum_congr rfl fun k _ => ?_
  rw [iblk2_0_apply V c t p k ⟨1024 * t.val + p.val, by omega⟩ rfl, iblk2_1_apply V c t k q]

/-- An index of the array is in point t's block iff each coordinate is in the block's range on its axis. -/
theorem mem_blk2_2 (t : Fin cfg2.N) (i : S12288x16.Idx) :
    i ∈ ((cfg2.win 2).blk t).view.set ↔ ∀ a : Fin 2, win2_2.index t a * S1024x16.size a ≤ (i a).val ∧ (i a).val < win2_2.index t a * S1024x16.size a + S1024x16.size a := by
  show i ∈ ((View.whole main_v36).slice (win2_2.rect t)).set ↔ _
  rw [View.set_slice_whole, Rect.mem_set_unit]
  exact Iff.rfl

/-- Every index of the array is in some point's block: row r is in the block of point r / 1024. -/
theorem covered2_2 (i : S12288x16.Idx) :
    ∃ t : Fin cfg2.N, (cfg2.win 2).flush t = true ∧ i ∈ ((cfg2.win 2).blk t).view.set := by
  have hN : cfg2.N = 12 := N_2
  have hi0 : (i 0).val < 12288 := (i 0).isLt
  have hi1 : (i 1).val < 16 := (i 1).isLt
  let t : Fin cfg2.N := ⟨(i 0).val / 1024, by rw [hN]; omega⟩
  have htv : t.val = (i 0).val / 1024 := rfl
  obtain ⟨-, -, -, -, e0, e1⟩ := idx2 t
  refine ⟨t, flush2_2 t, ?_⟩
  rw [mem_blk2_2]
  intro a
  match a with
  | ⟨0, _⟩ => show win2_2.index t (0 : Fin 2) * 1024 ≤ (i 0).val ∧ (i 0).val < win2_2.index t (0 : Fin 2) * 1024 + 1024; rw [e0, htv]; omega
  | ⟨1, _⟩ => show win2_2.index t (1 : Fin 2) * 16 ≤ (i 1).val ∧ (i 1).val < win2_2.index t (1 : Fin 2) * 16 + 16; rw [e1]; omega

/-- THE ARRAY the third matrix product leaves: the textbook product of the two arrays the region finds. -/
theorem final2 (c : Dev nD) :
    (Fr.dat2 (F := Ideal) V c).arrAt 2 cfg2.N
      = Cert.Spec.mm (V c main_v34 : S12288x32.Idx → EReal) (V c main_v35 : S32x16.Idx → EReal) :=
  (dat2 (F := Ideal) V c).arrAt_eq_of_cover 2 _ (fun t _ => flushed2_eq V c t) covered2_2

end Cert.KernelIdeal.Val

end
-- ==== Proof.LibMatmulT.lean ====
/-
  A matrix product with the right operand transposed, read at one entry, on the extended reals.

  For dimension numbers that contract the left operand's second axis with the right operand's second axis
  (an [M, K] array times the transpose of an [N, K] array), started from a zero accumulator, entry (p, c) of the
  product is the sum over k of lhs (p, k) * rhs (c, k). The four coordinate facts about the record's operand
  indices are taken as hypotheses, so the lemma serves every record of that form whatever the extents.
-/
import Idealize.ShloMosaic.PureOps.Ideal.Laws
import Idealize.ShloMosaic.Lib.ValueIdx

noncomputable section

open scoped BigOperators

namespace Idealize.ShloMosaic.MatmulT

open Idealize.ShloMosaic Idealize.ShloMosaic.ValueIdx

/-- Entry (p, c) of the product of an [M, K] array with the transpose of an [N, K] array into a zero accumulator
    is the sum over the one contracted axis of the products of row p of the left operand with row c of the right
    one. `hr`, `hs`: the record contracts one axis, of extent K; `hl0` ... `hr1`: the record's operand indices at
    an output index and a contraction position are (row, position) and (column, position). -/
theorem matmul_zero_apply {M K N : Nat} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j 1).val)
    (hr1 : ∀ (j : (⟨2, ![M, N]⟩ : Shape).Idx) (q : D.contr.Idx), (D.rhsIdx j q (1 : Fin 2)).val = (q ⟨0, by omega⟩).val)
    (lhs : FVec Ideal ⟨2, ![M, K]⟩ φ₁) (rhs : FVec Ideal ⟨2, ![N, K]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Idealize.ShloMosaic.MatmulT

end
-- ==== Proof.KI.Final3.lean ====
/-
  Region 3 of the entry function, read as one whole array on the extended reals.

  The decoder region has a 6 by 6 grid. Point t = 6 i + j reads rows 2048 i .. 2048 i + 2047 of the embedding
  array Z (window 0), rows 2048 j .. 2048 j + 2047 of THE SAME array Z (window 1), and leaves in the output's
  staging buffer the logistic function of the product of the first block with the transpose of the second one;
  that 2048 by 2048 block is written back as block (i, j) of the output array. Entry (r, s) of the output is
  covered by exactly the point 6 (r / 2048) + s / 2048, and what that point writes there is
  logistic (sum over k of Z (r, k) * Z (s, k)): so the output array ends holding the decoder `Spec.dec Z`.
-/
import proofs.«147018_j55216099558155_1_alg».proof.Proof.KI.Body3
import proofs.«147018_j55216099558155_1_alg».proof.Proof.Spec
import proofs.«147018_j55216099558155_1_alg».proof.Proof.LibMatmulT
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

/-- The zero offsets of a whole-block access, as the constant function. -/
theorem offsets_zero : (![0, 0] : Fin 2 → Nat) = fun _ => 0 := funext fun a => by fin_cases a <;> rfl

/-! ## The body's value at an entry -/

/-- The record of the body's product contracts the second axis of both operands: at an output entry and a
    contraction position the left operand is read at (row, position), the right one at (column, position). -/
theorem dot_contr_rank : dot_S2048x16_S2048x16_S2048x2048_1_1_0_0_n_n.contr.rank = 1 := rfl
theorem dot_contr_size : dot_S2048x16_S2048x16_S2048x2048_1_1_0_0_n_n.contr.size ⟨0, by decide⟩ = 16 := rfl
theorem dot_lhs_0 (j : S2048x2048.Idx) (q : dot_S2048x16_S2048x16_S2048x2048_1_1_0_0_n_n.contr.Idx) :
    (dot_S2048x16_S2048x16_S2048x2048_1_1_0_0_n_n.lhsIdx j q 0).val = (j 0).val := by
  unfold DotDims.lhsIdx
  rw [dif_neg (show ¬(0 : Fin S2048x16.rank) ∈ dot_S2048x16_S2048x16_S2048x2048_1_1_0_0_n_n.lhsBatch by decide),
    dif_pos (show (0 : Fin S2048x16.rank) ∈ dot_S2048x16_S2048x16_S2048x2048_1_1_0_0_n_n.lhsNonContracting by decide)]
  rfl
theorem dot_lhs_1 (j : S2048x2048.Idx) (q : dot_S2048x16_S2048x16_S2048x2048_1_1_0_0_n_n.contr.Idx) :
    (dot_S2048x16_S2048x16_S2048x2048_1_1_0_0_n_n.lhsIdx j q 1).val = (q ⟨0, by decide⟩).val :=
  dot_S2048x16_S2048x16_S2048x2048_1_1_0_0_n_n.lhsIdx_val_of_single rfl j q
theorem dot_rhs_0 (j : S2048x2048.Idx) (q : dot_S2048x16_S2048x16_S2048x2048_1_1_0_0_n_n.contr.Idx) :
    (dot_S2048x16_S2048x16_S2048x2048_1_1_0_0_n_n.rhsIdx j q 0).val = (j 1).val := by
  unfold DotDims.rhsIdx
  rw [dif_neg (show ¬(0 : Fin S2048x16.rank) ∈ dot_S2048x16_S2048x16_S2048x2048_1_1_0_0_n_n.rhsBatch by decide),
    dif_pos (show (0 : Fin S2048x16.rank) ∈ dot_S2048x16_S2048x16_S2048x2048_1_1_0_0_n_n.rhsNonContracting by decide)]
  rfl
theorem dot_rhs_1 (j : S2048x2048.Idx) (q : dot_S2048x16_S2048x16_S2048x2048_1_1_0_0_n_n.contr.Idx) :
    (dot_S2048x16_S2048x16_S2048x2048_1_1_0_0_n_n.rhsIdx j q 1).val = (q ⟨0, by decide⟩).val :=
  dot_S2048x16_S2048x16_S2048x2048_1_1_0_0_n_n.rhsIdx_val_of_single rfl j q

/-- Entry (p, q) of the body's value of two 2048 by 16 blocks: the logistic function of the inner product of
    row p of the first block with row q of the second. -/
theorem pay3_apply (x0 x1 : Vec Ideal S2048x16 .bf16) (p q : Fin 2048) :
    k3_pay1 (F := Ideal) x0 x1 (ix2 p q) = Ideal.logistic (∑ k : Fin 16, x0 (ix2 p k) * x1 (ix2 q k)) := by
  unfold k3_pay1
  rw [shapeCast_self, shapeCast_self]
  show Ideal.logistic (FloatOps.matmul dot_S2048x16_S2048x16_S2048x2048_1_1_0_0_n_n none x0 x1
      (constant (F := Ideal) S2048x2048 .f32 0x00000000#32) (ix2 p q)) = _
  rw [MatmulT.matmul_zero_apply dot_S2048x16_S2048x16_S2048x2048_1_1_0_0_n_n none dot_contr_rank dot_contr_size
    dot_lhs_0 dot_lhs_1 dot_rhs_0 dot_rhs_1 x0 x1 p q]

/-- What the body leaves in the output's staging buffer is its value of the two input blocks: its one store
    covers the whole block and its two loads read whole blocks. -/
theorem out3_eq (x0 x1 : Vec Ideal S2048x16 .bf16) : out3_2 (F := Ideal) x0 x1 = k3_pay1 (F := Ideal) x0 x1 := by
  unfold out3_2
  rw [View.canon_unit_zero offsets_zero]
  simp only [View.ld_unit_zero (S := S2048x16) offsets_zero]

/-! ## The blocks, as rows of the embedding array -/

variable (V : (c : Dev nD) → (b : Ref sig .tc) → Buf (Elt Ideal) ((c : Thread nD τ).loc b))

/-- The grid is 6 by 6, second axis fastest: point t is (t / 6, t % 6). The first input's block index there is
    (t / 6, 0), the second input's (t % 6, 0), the output's (t / 6, t % 6). Decided over the 36 points. -/
theorem block_indices : ∀ t : Fin cfg3.N,
    win3_0.index t (0 : Fin 2) = t.val / 6 ∧ win3_0.index t (1 : Fin 2) = 0
    ∧ win3_1.index t (0 : Fin 2) = t.val % 6 ∧ win3_1.index t (1 : Fin 2) = 0
    ∧ win3_2.index t (0 : Fin 2) = t.val / 6 ∧ win3_2.index t (1 : Fin 2) = t.val % 6 :=
  (by decide +kernel : ∀ t : Fin grid3.N, _)

/-- Row p of the first input's block at point t is row 2048 (t / 6) + p of the embedding array. -/
theorem iblk3_0_apply (c : Dev nD) (t : Fin cfg3.N) (p : Fin 2048) (k : Fin 16) (r : Fin 12288)
    (hr : r.val = 2048 * (t.val / 6) + p.val) :
    (iblk3 (F := Ideal) V c 0 t : Vec Ideal S2048x16 .bf16) (ix2 p k) = (V c main_v50 : S12288x16.Idx → EReal) (ix2 r k) := by
  obtain ⟨e0, e1, -⟩ := block_indices t
  show (V c main_v50 : S12288x16.Idx → EReal) (((cfg3.win 0).blk t).view.emb (ix2 p k)) = _
  refine congrArg _ (funext fun a => Fin.ext ?_)
  match a with
  | ⟨0, _⟩ => show win3_0.index t (0 : Fin 2) * 2048 + 1 * p.val = r.val; rw [e0, hr]; omega
  | ⟨1, _⟩ => show win3_0.index t (1 : Fin 2) * 16 + 1 * k.val = k.val; rw [e1]; omega

/-- Row q of the second input's block at point t is row 2048 (t % 6) + q of the same array. -/
theorem iblk3_1_apply (c : Dev nD) (t : Fin cfg3.N) (q : Fin 2048) (k : Fin 16) (s : Fin 12288)
    (hs : s.val = 2048 * (t.val % 6) + q.val) :
    (iblk3 (F := Ideal) V c 1 t : Vec Ideal S2048x16 .bf16) (ix2 q k) = (V c main_v50 : S12288x16.Idx → EReal) (ix2 s k) := by
  obtain ⟨-, -, e2, e3, -⟩ := block_indices t
  show (V c main_v50 : S12288x16.Idx → EReal) (((cfg3.win 1).blk t).view.emb (ix2 q k)) = _
  refine congrArg _ (funext fun a => Fin.ext ?_)
  match a with
  | ⟨0, _⟩ => show win3_1.index t (0 : Fin 2) * 2048 + 1 * q.val = s.val; rw [e2, hs]; omega
  | ⟨1, _⟩ => show win3_1.index t (1 : Fin 2) * 16 + 1 * k.val = k.val; rw [e3]; omega

/-- The body's value of rows 2048 a .. of an array Z and rows 2048 b .. of the same array, at the entry that sits
    at (2048 a + row, 2048 b + column) of the whole output, is the decoder of Z there. -/
theorem block_entry (Z : S12288x16.Idx → EReal) (x0 x1 : Vec Ideal S2048x16 .bf16) (a b : Nat)
    (h0 : ∀ (p : Fin 2048) (k : Fin 16) (r : Fin 12288), r.val = 2048 * a + p.val → x0 (ix2 p k) = Z (ix2 r k))
    (h1 : ∀ (q : Fin 2048) (k : Fin 16) (s : Fin 12288), s.val = 2048 * b + q.val → x1 (ix2 q k) = Z (ix2 s k))
    (y : S2048x2048.Idx) (i : S12288x12288.Idx)
    (hi0 : (i 0).val = 2048 * a + (y 0).val) (hi1 : (i 1).val = 2048 * b + (y 1).val) :
    k3_pay1 (F := Ideal) x0 x1 y = Cert.Spec.dec Z i := by
  obtain ⟨p, q, rfl⟩ : ∃ (p q : Fin 2048), y = ix2 p q := ⟨y 0, y 1, eq_ix2 y⟩
  obtain ⟨r, s, rfl⟩ : ∃ (r s : Fin 12288), i = ix2 r s := ⟨i 0, i 1, eq_ix2 i⟩
  rw [pay3_apply, Cert.Spec.dec_apply]
  refine congrArg Ideal.logistic (Finset.sum_congr rfl fun k _ => ?_)
  rw [h0 p k r hi0, h1 q k s hi1]

/-! ## From the blocks to the array -/

/-- What point t writes back is block t of the decoder of the embedding array as the region finds it. -/
theorem flushed3_eq (c : Dev nD) (t : Fin cfg3.N) :
    (dat3 (F := Ideal) V c).flushed 2 t
      = ((cfg3.win 2).blk t).view.read (Elt Ideal) (Cert.Spec.dec (V c main_v50 : S12288x16.Idx → EReal)) := by
  show (cfg3.win 2).cut (grid3.coords t) ((dat3 (F := Ideal) V c).after 2 t) = _
  rw [after3_2, out3_eq]
  obtain ⟨-, -, -, -, e4, e5⟩ := block_indices t
  funext j
  refine block_entry (V c main_v50 : S12288x16.Idx → EReal) (iblk3 (F := Ideal) V c 0 t) (iblk3 (F := Ideal) V c 1 t)
    (t.val / 6) (t.val % 6) (fun p k r hr => iblk3_0_apply V c t p k r hr) (fun q k s hs => iblk3_1_apply V c t q k s hs)
    ((cfg3.win 2).xinj (grid3.coords t) j) (((cfg3.win 2).blk t).view.emb j) ?_ ?_
  · show win3_2.index t (0 : Fin 2) * 2048 + 1 * (j 0).val = 2048 * (t.val / 6) + (j 0).val
    rw [e4]; omega
  · show win3_2.index t (1 : Fin 2) * 2048 + 1 * (j 1).val = 2048 * (t.val % 6) + (j 1).val
    rw [e5]; omega

/-- An entry of the output array is in point t's block iff each coordinate is in the block's range on its axis. -/
theorem mem_blk3 (t : Fin cfg3.N) (i : S12288x12288.Idx) :
    i ∈ ((cfg3.win 2).blk t).view.set ↔ ∀ a : Fin 2, win3_2.index t a * S2048x2048.size a ≤ (i a).val
      ∧ (i a).val < win3_2.index t a * S2048x2048.size a + S2048x2048.size a := by
  show i ∈ ((View.whole main_v51).slice (win3_2.rect t)).set ↔ _
  rw [View.set_slice_whole, Rect.mem_set_unit]
  exact Iff.rfl

/-- Every entry (r, s) of the output array is in the block of the point 6 (r / 2048) + s / 2048, which writes back. -/
theorem cover3 (i : S12288x12288.Idx) :
    ∃ t : Fin cfg3.N, (cfg3.win 2).flush t = true ∧ i ∈ ((cfg3.win 2).blk t).view.set := by
  have hN : cfg3.N = 36 := N_3
  have h0 : (i 0).val < 12288 := (i 0).isLt
  have h1 : (i 1).val < 12288 := (i 1).isLt
  obtain ⟨t, ht⟩ : ∃ t : Fin cfg3.N, t.val = 6 * ((i 0).val / 2048) + (i 1).val / 2048 := ⟨⟨_, by omega⟩, rfl⟩
  obtain ⟨-, -, -, -, e4, e5⟩ := block_indices t
  refine ⟨t, flush3_2 t, ?_⟩
  rw [mem_blk3]
  intro a
  match a with
  | ⟨0, _⟩ =>
    show win3_2.index t (0 : Fin 2) * 2048 ≤ (i 0).val ∧ (i 0).val < win3_2.index t (0 : Fin 2) * 2048 + 2048
    rw [e4]; omega
  | ⟨1, _⟩ =>
    show win3_2.index t (1 : Fin 2) * 2048 ≤ (i 1).val ∧ (i 1).val < win3_2.index t (1 : Fin 2) * 2048 + 2048
    rw [e5]; omega

/-- The output array after region 3: the decoder of the embedding array as the region finds it, whole. -/
theorem final3 (c : Dev nD) :
    (dat3 (F := Ideal) V c).arrAt 2 cfg3.N = Cert.Spec.dec (V c main_v50 : S12288x16.Idx → EReal) :=
  (dat3 (F := Ideal) V c).arrAt_eq_of_cover 2 (Cert.Spec.dec (V c main_v50 : S12288x16.Idx → EReal))
    (fun t _ => flushed3_eq V c t) cover3

end Cert.KernelIdeal.Val

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«147018_j55216099558155_1_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.LibLogisticQuotient.lean ====
/-
  The logistic function spelled as a quotient, on the extended reals.

  A host program that applies the logistic function as negate, exponential, add one, divide one by the result —
  1 / (1 + exp(−g)), with both ones given as the binary32 word 0x3F800000 — computes the logistic function of `g`
  at every extended real `g`, the two infinities included: the word denotes the real number 1, and the logistic
  function is by definition that quotient, with the exponential's and the division's conventions at the infinities
  (exp(+∞) = +∞ and 1 / +∞ = 0, so −∞ ↦ 0; exp(−∞) = 0, so +∞ ↦ 1). No finiteness is needed.
-/
import Idealize.ShloMosaic.PureOps.Ideal

noncomputable section

namespace Cert.LibLogisticQuotient

open Idealize.ShloMosaic

/-- The binary32 word 0x3F800000 denotes the extended real 1: sign 0, exponent field 127, significand field 0. -/
theorem ofBits_one_f32 : Ideal.ofBits .f32 0x3F800000#32 = 1 := by
  simp [Ideal.ofBits, Ideal.ieee, -EReal.coe_mul]; norm_num

/-- The quotient 1 / (1 + exp(−g)) in the host's operations, both ones given as the binary32 word, is the logistic
    function of `g`, for every extended real `g`. -/
theorem quotient_eq_logistic (g : EReal) :
    FloatOps.hostDivf (F := Ideal) (φ := .f32) (FloatOps.ofBits .f32 0x3F800000#32)
      (FloatOps.addf (FloatOps.ofBits .f32 0x3F800000#32) (FloatOps.hostUnary .exp (FloatOps.hostNegf g)))
      = Ideal.logistic g := by
  simp only [Ideal.hostDivf_def, Ideal.addf_def, Ideal.hostUnary_exp_def, Ideal.hostNegf_def, Ideal.negf_def,
    Ideal.ofBits_def, ofBits_one_f32]
  rfl

end Cert.LibLogisticQuotient

end
-- ==== Proof.Ref.Products.lean ====
/-
  The reference's four products, each as a whole array, on the extended reals.

  The three encoder products are the host's contraction of an M by K array with a K by N array along K: entry (p, q)
  is the sum over k of A (p, k) * B (k, q), which is the textbook product `Cert.Spec.mm A B`. The decoder contracts
  the M by 16 array Z with its own transpose, so entry (p, q) of that product is the inner product of rows p and q
  of Z; the reference then forms 1 / (1 + exp (-g)) entry by entry, both ones being the broadcast of the binary32
  word of the number 1, and that quotient is the logistic function of g at every extended real g. Hence the decoder
  is `Cert.Spec.dec Z`.
-/
import proofs.«147018_j55216099558155_1_alg».proof.ReferenceIdeal
import proofs.«147018_j55216099558155_1_alg».proof.Proof.Spec
import proofs.«147018_j55216099558155_1_alg».proof.Proof.LibDotRead
import proofs.«147018_j55216099558155_1_alg».proof.Proof.LibLogisticQuotient

noncomputable section

open scoped BigOperators

namespace Cert.ReferenceIdeal.RefValue

open Cert.ReferenceIdeal Idealize.ShloMosaic Idealize.ShloMosaic.ValueIdx

variable [Facts₀]
open Facts₀

/-- The first layer's product, 12288 by 1433 with 1433 by 32, is the textbook product. -/
theorem dot0_eq (A : FVec Ideal S12288x1433 .f32) (B : FVec Ideal S1433x32 .f32) :
    Host.dotGeneral (F := Ideal) dot_S12288x1433_S1433x32_S12288x32_1_0_0_1_n_n none A B = Cert.Spec.mm A B := by
  funext i
  obtain ⟨p, q, rfl⟩ : ∃ (p : Fin 12288) (q : Fin 32), i = ix2 p q := ⟨i 0, i 1, eq_ix2 i⟩
  rw [Cert.Spec.mm_apply]
  exact MatmulRead.hostDot_ix2 ⟨rfl, rfl, rfl, rfl, rfl, rfl⟩ rfl rfl none A B p q

/-- The second layer's product, 12288 by 32 with 32 by 32, is the textbook product. -/
theorem dot1_eq (A : FVec Ideal S12288x32 .f32) (B : FVec Ideal S32x32 .f32) :
    Host.dotGeneral (F := Ideal) dot_S12288x32_S32x32_S12288x32_1_0_0_1_n_n none A B = Cert.Spec.mm A B := by
  funext i
  obtain ⟨p, q, rfl⟩ : ∃ (p : Fin 12288) (q : Fin 32), i = ix2 p q := ⟨i 0, i 1, eq_ix2 i⟩
  rw [Cert.Spec.mm_apply]
  exact MatmulRead.hostDot_ix2 ⟨rfl, rfl, rfl, rfl, rfl, rfl⟩ rfl rfl none A B p q

/-- The third layer's product, 12288 by 32 with 32 by 16, is the textbook product. -/
theorem dot2_eq (A : FVec Ideal S12288x32 .f32) (B : FVec Ideal S32x16 .f32) :
    Host.dotGeneral (F := Ideal) dot_S12288x32_S32x16_S12288x16_1_0_0_1_n_n none A B = Cert.Spec.mm A B := by
  funext i
  obtain ⟨p, q, rfl⟩ : ∃ (p : Fin 12288) (q : Fin 16), i = ix2 p q := ⟨i 0, i 1, eq_ix2 i⟩
  rw [Cert.Spec.mm_apply]
  exact MatmulRead.hostDot_ix2 ⟨rfl, rfl, rfl, rfl, rfl, rfl⟩ rfl rfl none A B p q

/-- The transpose of the 12288 by 16 array read at (k, q) is the array at (q, k). -/
theorem transpose_ix2 (Z : FVec Ideal S12288x16 .f32) (k : Fin 16) (q : Fin 12288) :
    transpose S16x12288 [1, 0] Z transposes_S12288x16_S16x12288_1_0 (ix2 k q) = Z (ix2 q k) :=
  transpose_apply [1, 0] Z transposes_S12288x16_S16x12288_1_0 (ix2 k q) (ix2 q k) (fun b => match b with
    | ⟨0, _⟩ => rfl
    | ⟨1, _⟩ => rfl)

/-- The product of the 12288 by 16 array with its transpose: entry (p, q) is the inner product of rows p and q. -/
theorem gram_ix2 (Z : FVec Ideal S12288x16 .f32) (p q : Fin 12288) :
    Host.dotGeneral (F := Ideal) dot_S12288x16_S16x12288_S12288x12288_1_0_0_1_n_n none Z
        (transpose S16x12288 [1, 0] Z transposes_S12288x16_S16x12288_1_0) (ix2 p q)
      = ∑ k : Fin 16, Z (ix2 p k) * Z (ix2 q k) := by
  rw [MatmulRead.hostDot_ix2 ⟨rfl, rfl, rfl, rfl, rfl, rfl⟩ rfl rfl none Z _ p q]
  refine Finset.sum_congr rfl fun k _ => ?_
  rw [transpose_ix2]

/-- The broadcast of the rank-0 constant one to the 12288 by 12288 shape is the word of one at every index. -/
theorem ones_apply (i : S12288x12288.Idx) :
    broadcastInDim S12288x12288 ![] bcast_S_S12288x12288 (constant (F := Ideal) S_ .f32 0x3F800000#32) i
      = FloatOps.ofBits .f32 0x3F800000#32 :=
  broadcastInDim_apply _ bcast_S_S12288x12288 (constant (F := Ideal) S_ .f32 0x3F800000#32) i (fun a => a.elim0)
    (fun a => a.elim0)

/-- The reference's decoder, 1 / (1 + exp (-(Z Zᵀ))), is the logistic function of the rows' inner products. -/
theorem decode_eq (Z : FVec Ideal S12288x16 .f32) :
    Host.divf (F := Ideal) (broadcastInDim S12288x12288 ![] bcast_S_S12288x12288 (constant S_ .f32 0x3F800000#32))
      (addf (broadcastInDim S12288x12288 ![] bcast_S_S12288x12288 (constant S_ .f32 0x3F800000#32))
        (Host.exp (Host.negf (Host.dotGeneral dot_S12288x16_S16x12288_S12288x12288_1_0_0_1_n_n none Z
          (transpose S16x12288 [1, 0] Z transposes_S12288x16_S16x12288_1_0))))) = Cert.Spec.dec Z := by
  funext i
  obtain ⟨p, q, rfl⟩ : ∃ (p q : Fin 12288), i = ix2 p q := ⟨i 0, i 1, eq_ix2 i⟩
  rw [Cert.Spec.dec_apply]
  show FloatOps.hostDivf
      (broadcastInDim S12288x12288 ![] bcast_S_S12288x12288 (constant (F := Ideal) S_ .f32 0x3F800000#32) (ix2 p q))
      (FloatOps.addf
        (broadcastInDim S12288x12288 ![] bcast_S_S12288x12288 (constant (F := Ideal) S_ .f32 0x3F800000#32) (ix2 p q))
        (FloatOps.hostUnary .exp (FloatOps.hostNegf
          (Host.dotGeneral (F := Ideal) dot_S12288x16_S16x12288_S12288x12288_1_0_0_1_n_n none Z
            (transpose S16x12288 [1, 0] Z transposes_S12288x16_S16x12288_1_0) (ix2 p q))))) = _
  rw [ones_apply, gram_ix2]
  exact Cert.LibLogisticQuotient.quotient_eq_logistic _

end Cert.ReferenceIdeal.RefValue

end
-- ==== Proof.Ref.Chain.lean ====
/-
  The reference's encoder and decoder as compositions of whole-array functions.

  Each of the encoder's three layers multiplies by a weight matrix and then applies the same sparse aggregation:
  gather rows of the product by one index list, scale each gathered row by an edge weight, and add the scaled rows
  into an all-zero array at the rows another index list names. Between layers the negative entries are replaced by
  zero. The aggregation and the clamp are named here as functions of the array they transform, spelt over the
  reference's own stages, so that the reference's stages unfold to them; the second and third layers repeat the
  first layer's index and weight stages under other names with the same bodies. With the three products replaced by
  the textbook product, the embedding is the composition of these functions, and the reference's output is the
  dot-product decoder of the embedding.
-/
import proofs.«147018_j55216099558155_1_alg».proof.Proof.Gen.ReferenceIdeal.Read
import proofs.«147018_j55216099558155_1_alg».proof.Proof.Ref.Products

noncomputable section

namespace Cert.ReferenceIdeal.RefValue

open Cert.ReferenceIdeal Cert.ReferenceIdeal.Gen Idealize.ShloMosaic

variable {F : FTy → Type} [FloatOps F]

/-- The sparse aggregation of a 12288 by 32 array: gather rows, scale by the edge weights, add into zero. -/
def spmm32 (x4 : (⟨S393216, .f32⟩ : BufTy).Contents (Elt F)) (x5 x6 : (⟨S393216, .i32⟩ : BufTy).Contents (Elt F))
    (y : (⟨S12288x32, .f32⟩ : BufTy).Contents (Elt F)) : (⟨S12288x32, .f32⟩ : BufTy).Contents (Elt F) :=
  Host.scatterAdd scatter_S12288x32_S393216x1_S393216x32_1_0_0_1 (Read.val_main_v11 (F := F)) (Read.val_main_v12 (F := F) x5)
    (mulf (Read.val_main_v9 (F := F) x4)
      (Host.gather gather_S12288x32_S393216x1_S393216x32_1_0_n_n_0_1_132 y (Read.val_main_v7 (F := F) x6)))

/-- The clamp of a 12288 by 32 array at zero from below. -/
def relu32 (y : (⟨S12288x32, .f32⟩ : BufTy).Contents (Elt F)) : (⟨S12288x32, .f32⟩ : BufTy).Contents (Elt F) :=
  maximumf y (Read.val_main_call0_v0 (F := F))

/-- The sparse aggregation of a 12288 by 16 array: gather rows, scale by the edge weights, add into zero. -/
def spmm16 (x4 : (⟨S393216, .f32⟩ : BufTy).Contents (Elt F)) (x5 x6 : (⟨S393216, .i32⟩ : BufTy).Contents (Elt F))
    (y : (⟨S12288x16, .f32⟩ : BufTy).Contents (Elt F)) : (⟨S12288x16, .f32⟩ : BufTy).Contents (Elt F) :=
  Host.scatterAdd scatter_S12288x16_S393216x1_S393216x16_1_0_0_1 (Read.val_main_v41 (F := F)) (Read.val_main_v42 (F := F) x5)
    (mulf (Read.val_main_v39 (F := F) x4)
      (Host.gather gather_S12288x16_S393216x1_S393216x16_1_0_n_n_0_1_116 y (Read.val_main_v37 (F := F) x6)))

/-! ## The second layer's index and weight stages are the first layer's -/

theorem v26_eq : Read.val_main_v26 (F := F) = Read.val_main_v11 (F := F) := rfl
theorem v27_eq (x5 : (⟨S393216, .i32⟩ : BufTy).Contents (Elt F)) :
    Read.val_main_v27 (F := F) x5 = Read.val_main_v12 (F := F) x5 := rfl
theorem v24_eq (x4 : (⟨S393216, .f32⟩ : BufTy).Contents (Elt F)) :
    Read.val_main_v24 (F := F) x4 = Read.val_main_v9 (F := F) x4 := rfl
theorem v22_eq (x6 : (⟨S393216, .i32⟩ : BufTy).Contents (Elt F)) :
    Read.val_main_v22 (F := F) x6 = Read.val_main_v7 (F := F) x6 := rfl
theorem call1_eq : Read.val_main_call1_v0 (F := F) = Read.val_main_call0_v0 (F := F) := rfl

/-! ## The layers, one stage at a time -/

variable (x0 : (⟨S12288x1433, .f32⟩ : BufTy).Contents (Elt F)) (x1 : (⟨S1433x32, .f32⟩ : BufTy).Contents (Elt F))
  (x2 : (⟨S32x32, .f32⟩ : BufTy).Contents (Elt F)) (x3 : (⟨S32x16, .f32⟩ : BufTy).Contents (Elt F))
  (x4 : (⟨S393216, .f32⟩ : BufTy).Contents (Elt F)) (x5 x6 : (⟨S393216, .i32⟩ : BufTy).Contents (Elt F))

/-- The first layer after its clamp. -/
theorem v14_eq : Read.val_main_v14 (F := F) x0 x1 x4 x5 x6
    = relu32 (spmm32 x4 x5 x6 (Read.val_main_v0 (F := F) x0 x1)) := by
  unfold Read.val_main_v14 Read.val_main_v13 Read.val_main_v10 Read.val_main_v8 relu32 spmm32
  rfl

/-- The second layer after its clamp. -/
theorem v29_eq : Read.val_main_v29 (F := F) x0 x1 x2 x4 x5 x6
    = relu32 (spmm32 x4 x5 x6 (Read.val_main_v15 (F := F) x0 x1 x2 x4 x5 x6)) := by
  unfold Read.val_main_v29 Read.val_main_v28 Read.val_main_v25 Read.val_main_v23 relu32 spmm32
  rw [v26_eq, v27_eq, v24_eq, v22_eq, call1_eq]

/-- The third layer. -/
theorem v43_eq : Read.val_main_v43 (F := F) x0 x1 x2 x3 x4 x5 x6
    = spmm16 x4 x5 x6 (Read.val_main_v30 (F := F) x0 x1 x2 x3 x4 x5 x6) := by
  unfold Read.val_main_v43 Read.val_main_v40 Read.val_main_v38 spmm16
  rfl

end Cert.ReferenceIdeal.RefValue

namespace Cert.ReferenceIdeal.RefValue

open Cert.ReferenceIdeal Cert.ReferenceIdeal.Gen Idealize.ShloMosaic

variable (x0 : (⟨S12288x1433, .f32⟩ : BufTy).Contents (Elt Ideal)) (x1 : (⟨S1433x32, .f32⟩ : BufTy).Contents (Elt Ideal))
  (x2 : (⟨S32x32, .f32⟩ : BufTy).Contents (Elt Ideal)) (x3 : (⟨S32x16, .f32⟩ : BufTy).Contents (Elt Ideal))
  (x4 : (⟨S393216, .f32⟩ : BufTy).Contents (Elt Ideal)) (x5 x6 : (⟨S393216, .i32⟩ : BufTy).Contents (Elt Ideal))

/-- The reference's embedding: three layers of product, aggregation and (between layers) clamp. -/
theorem z_ref_eq : Read.val_main_v43 (F := Ideal) x0 x1 x2 x3 x4 x5 x6
    = spmm16 x4 x5 x6 (Cert.Spec.mm (relu32 (spmm32 x4 x5 x6 (Cert.Spec.mm (relu32 (spmm32 x4 x5 x6
        (Cert.Spec.mm x0 x1))) x2))) x3) := by
  have h0 : Read.val_main_v0 (F := Ideal) x0 x1 = Cert.Spec.mm x0 x1 := by
    unfold Read.val_main_v0; exact dot0_eq x0 x1
  have h15 : Read.val_main_v15 (F := Ideal) x0 x1 x2 x4 x5 x6
      = Cert.Spec.mm (relu32 (spmm32 x4 x5 x6 (Cert.Spec.mm x0 x1))) x2 := by
    unfold Read.val_main_v15; rw [dot1_eq, v14_eq, h0]
  have h30 : Read.val_main_v30 (F := Ideal) x0 x1 x2 x3 x4 x5 x6
      = Cert.Spec.mm (relu32 (spmm32 x4 x5 x6 (Cert.Spec.mm (relu32 (spmm32 x4 x5 x6 (Cert.Spec.mm x0 x1))) x2))) x3 := by
    unfold Read.val_main_v30; rw [dot2_eq, v29_eq, h15]
  rw [v43_eq, h30]

/-- The reference's output is the dot-product decoder of its embedding. -/
theorem a_ref_eq : Read.val_main_v51 (F := Ideal) x0 x1 x2 x3 x4 x5 x6
    = Cert.Spec.dec (Read.val_main_v43 (F := Ideal) x0 x1 x2 x3 x4 x5 x6) := by
  unfold Read.val_main_v51 Read.val_main_v50 Read.val_main_v49 Read.val_main_v48 Read.val_main_v47 Read.val_main_v46
    Read.val_main_v45 Read.val_main_v44 Read.val_main_cst_7 Read.val_main_cst_8
  exact decode_eq (Read.val_main_v43 (F := Ideal) x0 x1 x2 x3 x4 x5 x6)

end Cert.ReferenceIdeal.RefValue

end
-- ==== Proof.KI.HostChain.lean ====
/-
  The kernel program's host lines, read back as whole-array functions.

  Between the four regions the entry function runs host lines: a change of float format of each region's operands
  (the identity on the extended reals), the sparse aggregation (gather rows, scale by the edge weights, add into an
  all-zero array) of each encoder region's output, and the clamp at zero between layers. These are the same host
  operations the reference applies, so each stretch of lines, read at the buffer it leaves its result in, is the
  reference's aggregation or clamp applied to what the stretch found in its input buffers. Chaining the stretches
  with what each region leaves in its output array — taken as hypotheses: a product region leaves the textbook
  product of its two operand arrays, the decoder region the logistic function of its operand's rows' inner
  products — gives the kernel's embedding and its output as the same compositions as the reference's.
-/
import proofs.«147018_j55216099558155_1_alg».proof.Proof.KI.Outs
import proofs.«147018_j55216099558155_1_alg».proof.Proof.Ref.Chain
import proofs.«147018_j55216099558155_1_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.StableHlo
open Idealize.SL.Sem
open Cert.ReferenceIdeal.RefValue (spmm32 relu32 spmm16)

/-! ## Each stretch of host lines, at any contents it is entered with -/

section Stretches

variable (W : Valuation τ sig (Elt Ideal))

/-- The change of format of the first product's left operand is the identity. -/
theorem ops0_v0 : (StableHlo.after hostOps0 W (Proc.devRef .tc main_v0) : FVec Ideal S12288x1433 .bf16)
    = (W (Proc.devRef .tc main_arg0) : FVec Ideal S12288x1433 .f32) := by
  after_results; rfl
/-- The change of format of the first product's right operand is the identity. -/
theorem ops0_v1 : (StableHlo.after hostOps0 W (Proc.devRef .tc main_v1) : FVec Ideal S1433x32 .bf16)
    = (W (Proc.devRef .tc main_arg1) : FVec Ideal S1433x32 .f32) := by
  after_results; rfl

/-- The first layer's aggregation lines compute the aggregation of the first product's output array. -/
theorem ops1_v15 : StableHlo.after hostOps1 W (Proc.devRef .tc main_v15)
    = spmm32 (F := Ideal) (W (Proc.devRef .tc main_arg4)) (W (Proc.devRef .tc main_arg5)) (W (Proc.devRef .tc main_arg6))
        (W (Proc.devRef .tc main_v2)) := by
  after_results_simp; rfl
/-- The first clamp's lines compute the clamp of the aggregation's result. -/
theorem ops1_1_v16 : StableHlo.after hostOps1_1 W (Proc.devRef .tc main_v16)
    = relu32 (F := Ideal) (W (Proc.devRef .tc main_v15)) := by
  after_results; rfl
/-- The change of format of the second product's left operand is the identity. -/
theorem ops1_2_v17 : (StableHlo.after hostOps1_2 W (Proc.devRef .tc main_v17) : FVec Ideal S12288x32 .bf16)
    = (W (Proc.devRef .tc main_v16) : FVec Ideal S12288x32 .f32) := by
  after_results; rfl
/-- The change of format of the second product's right operand is the identity. -/
theorem ops1_2_v18 : (StableHlo.after hostOps1_2 W (Proc.devRef .tc main_v18) : FVec Ideal S32x32 .bf16)
    = (W (Proc.devRef .tc main_arg2) : FVec Ideal S32x32 .f32) := by
  after_results; rfl

/-- The second layer's aggregation lines compute the aggregation of the second product's output array. -/
theorem ops2_v32 : StableHlo.after hostOps2 W (Proc.devRef .tc main_v32)
    = spmm32 (F := Ideal) (W (Proc.devRef .tc main_arg4)) (W (Proc.devRef .tc main_arg5)) (W (Proc.devRef .tc main_arg6))
        (W (Proc.devRef .tc main_v19)) := by
  after_results_simp; rfl
/-- The second clamp's lines compute the clamp of the aggregation's result. -/
theorem ops2_1_v33 : StableHlo.after hostOps2_1 W (Proc.devRef .tc main_v33)
    = relu32 (F := Ideal) (W (Proc.devRef .tc main_v32)) := by
  after_results; rfl
/-- The change of format of the third product's left operand is the identity. -/
theorem ops2_2_v34 : (StableHlo.after hostOps2_2 W (Proc.devRef .tc main_v34) : FVec Ideal S12288x32 .bf16)
    = (W (Proc.devRef .tc main_v33) : FVec Ideal S12288x32 .f32) := by
  after_results; rfl
/-- The change of format of the third product's right operand is the identity. -/
theorem ops2_2_v35 : (StableHlo.after hostOps2_2 W (Proc.devRef .tc main_v35) : FVec Ideal S32x16 .bf16)
    = (W (Proc.devRef .tc main_arg3) : FVec Ideal S32x16 .f32) := by
  after_results; rfl

/-- The third layer's aggregation lines compute the aggregation of the third product's output array. -/
theorem ops3_v49 : StableHlo.after hostOps3 W (Proc.devRef .tc main_v49)
    = spmm16 (F := Ideal) (W (Proc.devRef .tc main_arg4)) (W (Proc.devRef .tc main_arg5)) (W (Proc.devRef .tc main_arg6))
        (W (Proc.devRef .tc main_v36)) := by
  after_results_simp; rfl
/-- The decoder's operand is the embedding: the change of format between them is the identity. -/
theorem ops3_v50 : (StableHlo.after hostOps3 W (Proc.devRef .tc main_v50) : FVec Ideal S12288x16 .bf16)
    = (StableHlo.after hostOps3 W (Proc.devRef .tc main_v49) : FVec Ideal S12288x16 .f32) := by
  after_results_simp; rfl

end Stretches

variable (m : (ℓ : Loc nD τ sig) → Buf (Elt Ideal) ℓ) (outs : Outs (F := Ideal)) (c : Dev nD)

/-! ## The arguments -/

/-- The kernel's arguments on core c, as arrays of extended reals. -/
abbrev a0 : FVec Ideal S12288x1433 .f32 := m ((c : Thread nD τ).loc main_arg0)
abbrev a1 : FVec Ideal S1433x32 .f32 := m ((c : Thread nD τ).loc main_arg1)
abbrev a2 : FVec Ideal S32x32 .f32 := m ((c : Thread nD τ).loc main_arg2)
abbrev a3 : FVec Ideal S32x16 .f32 := m ((c : Thread nD τ).loc main_arg3)
abbrev a4 : (⟨S393216, .f32⟩ : BufTy).Contents (Elt Ideal) := m ((c : Thread nD τ).loc main_arg4)
abbrev a5 : (⟨S393216, .i32⟩ : BufTy).Contents (Elt Ideal) := m ((c : Thread nD τ).loc main_arg5)
abbrev a6 : (⟨S393216, .i32⟩ : BufTy).Contents (Elt Ideal) := m ((c : Thread nD τ).loc main_arg6)

/-! ## A reference no item up to a point writes holds its launch contents there -/

theorem V2_at (r : Ref sig .tc) (h1 : r ∉ hostOps0_W) (h2 : r ∉ ([main_v2] : List (Ref sig .tc))) :
    V2 m outs c r = V0 m c r := (V2_of m outs c r h2).trans (V1_of m c r h1)
theorem V4_at (r : Ref sig .tc) (h1 : r ∉ hostOps0_W) (h2 : r ∉ ([main_v2] : List (Ref sig .tc))) (h3 : r ∉ hostOps1_W)
    (h4 : r ∉ hostOps1_1_W) : V4 m outs c r = V0 m c r :=
  (V4_of m outs c r h4).trans <| (V3_of m outs c r h3).trans (V2_at m outs c r h1 h2)
theorem V6_at (r : Ref sig .tc) (h1 : r ∉ hostOps0_W) (h2 : r ∉ ([main_v2] : List (Ref sig .tc))) (h3 : r ∉ hostOps1_W)
    (h4 : r ∉ hostOps1_1_W) (h5 : r ∉ hostOps1_2_W) (h6 : r ∉ ([main_v19] : List (Ref sig .tc))) :
    V6 m outs c r = V0 m c r :=
  (V6_of m outs c r h6).trans <| (V5_of m outs c r h5).trans (V4_at m outs c r h1 h2 h3 h4)
theorem V8_at (r : Ref sig .tc) (h1 : r ∉ hostOps0_W) (h2 : r ∉ ([main_v2] : List (Ref sig .tc))) (h3 : r ∉ hostOps1_W)
    (h4 : r ∉ hostOps1_1_W) (h5 : r ∉ hostOps1_2_W) (h6 : r ∉ ([main_v19] : List (Ref sig .tc))) (h7 : r ∉ hostOps2_W)
    (h8 : r ∉ hostOps2_1_W) : V8 m outs c r = V0 m c r :=
  (V8_of m outs c r h8).trans <| (V7_of m outs c r h7).trans (V6_at m outs c r h1 h2 h3 h4 h5 h6)
theorem V10_at (r : Ref sig .tc) (h1 : r ∉ hostOps0_W) (h2 : r ∉ ([main_v2] : List (Ref sig .tc))) (h3 : r ∉ hostOps1_W)
    (h4 : r ∉ hostOps1_1_W) (h5 : r ∉ hostOps1_2_W) (h6 : r ∉ ([main_v19] : List (Ref sig .tc))) (h7 : r ∉ hostOps2_W)
    (h8 : r ∉ hostOps2_1_W) (h9 : r ∉ hostOps2_2_W) (h10 : r ∉ ([main_v36] : List (Ref sig .tc))) :
    V10 m outs c r = V0 m c r :=
  (V10_of m outs c r h10).trans <| (V9_of m outs c r h9).trans (V8_at m outs c r h1 h2 h3 h4 h5 h6 h7 h8)

/-! ## The operands each region is entered with -/

/-- The first product's operands are the first two arguments. -/
theorem V1_v0 : (V1 m c main_v0 : FVec Ideal S12288x1433 .bf16) = a0 m c := ops0_v0 (V0 m c)
theorem V1_v1 : (V1 m c main_v1 : FVec Ideal S1433x32 .bf16) = a1 m c := ops0_v1 (V0 m c)

/-- The second product's left operand: the clamp of the aggregation of what the first product left. -/
theorem V5_v17 : (V5 m outs c main_v17 : FVec Ideal S12288x32 .bf16)
    = relu32 (F := Ideal) (spmm32 (F := Ideal) (a4 m c) (a5 m c) (a6 m c) (outs 2 main_v2 c)) := by
  refine (ops1_2_v17 (V4 m outs c)).trans ?_
  refine (ops1_1_v16 (V3 m outs c)).trans ?_
  refine (congrArg (relu32 (F := Ideal)) (ops1_v15 (V2 m outs c))).trans ?_
  rw [V2_at m outs c main_arg4 (by decide) (by decide), V2_at m outs c main_arg5 (by decide) (by decide),
    V2_at m outs c main_arg6 (by decide) (by decide)]
  rw [show V2 m outs c (Proc.devRef .tc main_v2) = outs 2 main_v2 c from
    Function.update_self (f := V1 m c) (Proc.devRef .tc main_v2) _]
/-- The second product's right operand is the third argument. -/
theorem V5_v18 : (V5 m outs c main_v18 : FVec Ideal S32x32 .bf16) = a2 m c :=
  (ops1_2_v18 (V4 m outs c)).trans (V4_at m outs c main_arg2 (by decide) (by decide) (by decide) (by decide))

/-- The third product's left operand: the clamp of the aggregation of what the second product left. -/
theorem V9_v34 : (V9 m outs c main_v34 : FVec Ideal S12288x32 .bf16)
    = relu32 (F := Ideal) (spmm32 (F := Ideal) (a4 m c) (a5 m c) (a6 m c) (outs 6 main_v19 c)) := by
  refine (ops2_2_v34 (V8 m outs c)).trans ?_
  refine (ops2_1_v33 (V7 m outs c)).trans ?_
  refine (congrArg (relu32 (F := Ideal)) (ops2_v32 (V6 m outs c))).trans ?_
  rw [V6_at m outs c main_arg4 (by decide) (by decide) (by decide) (by decide) (by decide) (by decide),
    V6_at m outs c main_arg5 (by decide) (by decide) (by decide) (by decide) (by decide) (by decide),
    V6_at m outs c main_arg6 (by decide) (by decide) (by decide) (by decide) (by decide) (by decide)]
  rw [show V6 m outs c (Proc.devRef .tc main_v19) = outs 6 main_v19 c from
    Function.update_self (f := V5 m outs c) (Proc.devRef .tc main_v19) _]
/-- The third product's right operand is the fourth argument. -/
theorem V9_v35 : (V9 m outs c main_v35 : FVec Ideal S32x16 .bf16) = a3 m c :=
  (ops2_2_v35 (V8 m outs c)).trans (V8_at m outs c main_arg3 (by decide) (by decide) (by decide) (by decide) (by decide)
    (by decide) (by decide) (by decide))

/-- The embedding: the aggregation of what the third product left. -/
theorem V11_v49 : V11 m outs c main_v49
    = spmm16 (F := Ideal) (a4 m c) (a5 m c) (a6 m c) (outs 10 main_v36 c) := by
  refine (ops3_v49 (V10 m outs c)).trans ?_
  rw [V10_at m outs c main_arg4 (by decide) (by decide) (by decide) (by decide) (by decide) (by decide) (by decide)
      (by decide) (by decide) (by decide),
    V10_at m outs c main_arg5 (by decide) (by decide) (by decide) (by decide) (by decide) (by decide) (by decide)
      (by decide) (by decide) (by decide),
    V10_at m outs c main_arg6 (by decide) (by decide) (by decide) (by decide) (by decide) (by decide) (by decide)
      (by decide) (by decide) (by decide)]
  rw [show V10 m outs c (Proc.devRef .tc main_v36) = outs 10 main_v36 c from
    Function.update_self (f := V9 m outs c) (Proc.devRef .tc main_v36) _]
/-- The decoder's operand is the embedding. -/
theorem V11_v50 : (V11 m outs c main_v50 : FVec Ideal S12288x16 .bf16)
    = (V11 m outs c main_v49 : FVec Ideal S12288x16 .f32) := ops3_v50 (V10 m outs c)
/-- The decoder region leaves the embedding as it found it, -/
theorem V12_v49 : V12 m outs c main_v49 = V11 m outs c main_v49 := V12_of m outs c main_v49 (by decide)
/-- and its output array holds what the region left there. -/
theorem V12_v51 : V12 m outs c main_v51 = outs 12 main_v51 c :=
  Function.update_self (f := V11 m outs c) (Proc.devRef .tc main_v51) _

/-! ## The kernel's embedding and output -/

/-- The kernel's embedding, given that each product region leaves the textbook product of its operand arrays: three
    layers of product, aggregation and (between layers) clamp of the arguments. -/
theorem kernel_Z (m : (ℓ : Loc nD τ sig) → Buf (Elt Ideal) ℓ) (outs : Outs (F := Ideal)) (h : Fr.OutsOk m outs)
    (f0 : ∀ (V : (c : Dev nD) → (b : Ref sig .tc) → Buf (Elt Ideal) ((c : Thread nD τ).loc b)) (c : Dev nD),
      (Fr.dat0 (F := Ideal) V c).arrAt 2 cfg0.N = Cert.Spec.mm (V c main_v0) (V c main_v1))
    (f1 : ∀ (V : (c : Dev nD) → (b : Ref sig .tc) → Buf (Elt Ideal) ((c : Thread nD τ).loc b)) (c : Dev nD),
      (Fr.dat1 (F := Ideal) V c).arrAt 2 cfg1.N = Cert.Spec.mm (V c main_v17) (V c main_v18))
    (f2 : ∀ (V : (c : Dev nD) → (b : Ref sig .tc) → Buf (Elt Ideal) ((c : Thread nD τ).loc b)) (c : Dev nD),
      (Fr.dat2 (F := Ideal) V c).arrAt 2 cfg2.N = Cert.Spec.mm (V c main_v34) (V c main_v35))
    (c : Dev nD) :
    V12 m outs c main_v49
      = spmm16 (F := Ideal) (a4 m c) (a5 m c) (a6 m c) (Cert.Spec.mm (relu32 (F := Ideal) (spmm32 (F := Ideal) (a4 m c) (a5 m c) (a6 m c)
          (Cert.Spec.mm (relu32 (F := Ideal) (spmm32 (F := Ideal) (a4 m c) (a5 m c) (a6 m c) (Cert.Spec.mm (a0 m c) (a1 m c))))
            (a2 m c)))) (a3 m c)) := by
  have e2 : outs 2 main_v2 c = Cert.Spec.mm (a0 m c) (a1 m c) := by
    rw [h.o2 c, f0 (Fr.V1r m outs) c]
    show Cert.Spec.mm (V1 m c main_v0) (V1 m c main_v1) = _
    rw [V1_v0, V1_v1]
  have e6 : outs 6 main_v19 c = Cert.Spec.mm (relu32 (F := Ideal) (spmm32 (F := Ideal) (a4 m c) (a5 m c) (a6 m c)
      (Cert.Spec.mm (a0 m c) (a1 m c)))) (a2 m c) := by
    rw [h.o6 c, f1 (Fr.V5r m outs) c]
    show Cert.Spec.mm (V5 m outs c main_v17) (V5 m outs c main_v18) = _
    rw [V5_v17, V5_v18, e2]
  have e10 : outs 10 main_v36 c = Cert.Spec.mm (relu32 (F := Ideal) (spmm32 (F := Ideal) (a4 m c) (a5 m c) (a6 m c)
      (Cert.Spec.mm (relu32 (F := Ideal) (spmm32 (F := Ideal) (a4 m c) (a5 m c) (a6 m c) (Cert.Spec.mm (a0 m c) (a1 m c))))
        (a2 m c)))) (a3 m c) := by
    rw [h.o10 c, f2 (Fr.V9r m outs) c]
    show Cert.Spec.mm (V9 m outs c main_v34) (V9 m outs c main_v35) = _
    rw [V9_v34, V9_v35, e6]
  rw [V12_v49, V11_v49, e10]

/-- The kernel's output, given that the decoder region leaves the logistic function of its operand's rows' inner
    products: the dot-product decoder of the kernel's embedding. -/
theorem kernel_A (m : (ℓ : Loc nD τ sig) → Buf (Elt Ideal) ℓ) (outs : Outs (F := Ideal)) (h : Fr.OutsOk m outs)
    (f3 : ∀ (V : (c : Dev nD) → (b : Ref sig .tc) → Buf (Elt Ideal) ((c : Thread nD τ).loc b)) (c : Dev nD),
      (Fr.dat3 (F := Ideal) V c).arrAt 2 cfg3.N = Cert.Spec.dec (V c main_v50))
    (c : Dev nD) :
    V12 m outs c main_v51 = Cert.Spec.dec (V12 m outs c main_v49) := by
  rw [V12_v51, h.o12 c, f3 (Fr.V11r m outs) c, V12_v49]
  show Cert.Spec.dec (V11 m outs c main_v50) = _
  rw [V11_v50]

end Cert.KernelIdeal.Val

end
-- ==== Proof.Bridge.lean ====
/-
  The two idealized programs compute the same two arrays.

  Both programs apply the same host lines — gather the rows an edge reads, scale them by the edge's weight, add them
  into the rows the edge writes, clamp at zero — around four products. The kernel computes each product in a
  pallas_call region, block by block, and the region leaves in its output array the textbook product of the arrays it
  was entered with (a change of float format on the way in is the identity on the extended reals); the reference
  computes each by one contraction of whole arrays, which is that same product. So, layer by layer, the node
  embeddings Z agree, and the decoded matrix, the logistic function of the inner products of Z's rows, agrees.
-/
import proofs.«147018_j55216099558155_1_alg».proof.Defs
import proofs.«147018_j55216099558155_1_alg».proof.Proof.Gen.KernelIdeal
import proofs.«147018_j55216099558155_1_alg».proof.Proof.Gen.ReferenceIdeal
import proofs.«147018_j55216099558155_1_alg».proof.Proof.Gen.Pre_finite_inputs
import proofs.«147018_j55216099558155_1_alg».proof.Proof.Gen.ReferenceIdeal.Run
import proofs.«147018_j55216099558155_1_alg».proof.Proof.Gen.ReferenceIdeal.Read
import proofs.«147018_j55216099558155_1_alg».proof.Proof.KI.Run
import proofs.«147018_j55216099558155_1_alg».proof.Proof.KI.Final0
import proofs.«147018_j55216099558155_1_alg».proof.Proof.KI.Final1
import proofs.«147018_j55216099558155_1_alg».proof.Proof.KI.Final2
import proofs.«147018_j55216099558155_1_alg».proof.Proof.KI.Final3
import proofs.«147018_j55216099558155_1_alg».proof.Proof.KI.HostChain
import proofs.«147018_j55216099558155_1_alg».proof.Proof.Ref.Chain

noncomputable section

namespace Cert.Proof.Bridge

open Idealize.ShloMosaic Idealize.ShloMosaic.TcCoe Idealize.SL.Sem

/-- At the ideal instance the kernel's program and the reference, run from memories that agree on the arguments, both
    terminate, with equal decoded matrices and equal node embeddings, and leave the arguments unchanged. -/
theorem algebraic : Cert.algebraic_KernelIdeal_ReferenceIdeal := by
  intro m ρ m' ρ' _ hagree
  obtain ⟨outs, h⟩ := Cert.KernelIdeal.Fr.exists_outs (F := Ideal) m
  refine ⟨fun c => Cert.KernelIdeal.Gen.V12 m outs c Cert.KernelIdeal.main_v51,
    fun c => Cert.KernelIdeal.Gen.V12 m outs c Cert.KernelIdeal.main_v49, ?_, ?_⟩
  · refine (θ_run Cert.KernelIdeal.defs _ _).mono (fun r hr c => ?_) (Cert.KernelIdeal.Fr.run m outs ρ h)
    exact ⟨hr c _ (Cert.KernelIdeal.Fr.mem_uc Cert.KernelIdeal.main_v51 (by decide)),
      hr c _ (Cert.KernelIdeal.Fr.mem_uc Cert.KernelIdeal.main_v49 (by decide)),
      (hr c _ (Cert.KernelIdeal.Fr.mem_uc Cert.KernelIdeal.main_arg0 (by decide))).trans (Cert.KernelIdeal.Gen.V12_main_arg0 m outs c),
      (hr c _ (Cert.KernelIdeal.Fr.mem_uc Cert.KernelIdeal.main_arg1 (by decide))).trans (Cert.KernelIdeal.Gen.V12_main_arg1 m outs c),
      (hr c _ (Cert.KernelIdeal.Fr.mem_uc Cert.KernelIdeal.main_arg2 (by decide))).trans (Cert.KernelIdeal.Gen.V12_main_arg2 m outs c),
      (hr c _ (Cert.KernelIdeal.Fr.mem_uc Cert.KernelIdeal.main_arg3 (by decide))).trans (Cert.KernelIdeal.Gen.V12_main_arg3 m outs c),
      (hr c _ (Cert.KernelIdeal.Fr.mem_uc Cert.KernelIdeal.main_arg4 (by decide))).trans (Cert.KernelIdeal.Gen.V12_main_arg4 m outs c),
      (hr c _ (Cert.KernelIdeal.Fr.mem_uc Cert.KernelIdeal.main_arg5 (by decide))).trans (Cert.KernelIdeal.Gen.V12_main_arg5 m outs c),
      (hr c _ (Cert.KernelIdeal.Fr.mem_uc Cert.KernelIdeal.main_arg6 (by decide))).trans (Cert.KernelIdeal.Gen.V12_main_arg6 m outs c)⟩
  · refine (θ_run Cert.ReferenceIdeal.defs _ _).mono (fun r hr c => ?_) (Cert.ReferenceIdeal.Value.run (F := Ideal) m' ρ')
    obtain ⟨e0, e1, e2, e3, e4, e5, e6⟩ := hagree c
    have hZ := Cert.KernelIdeal.Val.kernel_Z m outs h Cert.KernelIdeal.Val.final0 Cert.KernelIdeal.Val.final1 Cert.KernelIdeal.Val.final2 c
    have hA := Cert.KernelIdeal.Val.kernel_A m outs h Cert.KernelIdeal.Val.final3 c
    refine ⟨?_, ?_, (hr c).2.2⟩
    · refine (hr c).1.trans ?_
      rw [Cert.ReferenceIdeal.Read.val_main_v51_eq, Cert.ReferenceIdeal.RefValue.a_ref_eq, Cert.ReferenceIdeal.RefValue.z_ref_eq,
        e0, e1, e2, e3, e4, e5, e6]
      exact (hA.trans (congrArg Cert.Spec.dec hZ)).symm
    · refine (hr c).2.1.trans ?_
      rw [Cert.ReferenceIdeal.Read.val_main_v43_eq, Cert.ReferenceIdeal.RefValue.z_ref_eq, e0, e1, e2, e3, e4, e5, e6]
      exact hZ.symm

end Cert.Proof.Bridge

end
-- ==== Proof.lean ====
/-
  A three-layer graph convolutional encoder with a dot-product decoder: the Pallas program against its jnp reference.

  The entry function is host lines around four pallas_call regions: three row-blocked matrix products (the layers'
  dense products, over a grid of twelve row blocks) and the decoder (the logistic function of Z Zᵀ over a six by six
  grid of blocks, whose two input windows read the one array Z). The sparse propagation of each layer — gather the
  rows an edge reads, scale them, add them into the rows the edge writes — and the clamps at zero are host lines, the
  same in both programs.

  Frames (Proof/K/*.lean at the word level, Proof/KI/*.lean at the ideal instance, one text generic in the float
  type): each region's body reads its two input blocks and stores one value over its output block; the regions'
  protocols are segments of the entry function's run, the decoder's with the shared array's share cut in halves and
  joined again; every weakly fair execution terminates without a fault in a memory that holds every buffer at the last
  valuation of the chain, and no item writes an argument. The reference's frame is its run with the results dropped.
  The idealization rewrote nothing, so there is nothing to preserve.
  Values (Proof/Bridge.lean): on the extended reals each region leaves the textbook product of the arrays it was
  entered with, the reference's whole-array contractions are the same products, and the host lines around them are
  the same functions; so the embeddings and the decoded matrix agree.
-/
import proofs.«147018_j55216099558155_1_alg».proof.Defs
import proofs.«147018_j55216099558155_1_alg».proof.Proof.Gen.Kernel
import proofs.«147018_j55216099558155_1_alg».proof.Proof.Gen.KernelIdeal
import proofs.«147018_j55216099558155_1_alg».proof.Proof.Gen.ReferenceIdeal
import proofs.«147018_j55216099558155_1_alg».proof.Proof.Gen.ReferenceIdeal.Run
import proofs.«147018_j55216099558155_1_alg».proof.Proof.Gen.ReferenceIdeal.Read
import proofs.«147018_j55216099558155_1_alg».proof.Proof.Gen.Pre_finite_inputs
import proofs.«147018_j55216099558155_1_alg».proof.Proof.K.Run
import proofs.«147018_j55216099558155_1_alg».proof.Proof.KI.Run
import proofs.«147018_j55216099558155_1_alg».proof.Proof.Bridge
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Fr.frame m ρ

/-- So does the idealized program. -/
theorem frame_ki : Cert.frame_KernelIdeal := fun m ρ _ => Cert.KernelIdeal.Fr.frame m ρ

/-- The reference is host lines only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.Bridge.algebraic⟩

end Cert.Proof

end
